-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x512 .f32 .bf16
  ∧ IdealRules.sign_bit.Statement Cert.KernelIdeal.S1024x1024 .f32
  ∧ IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S_ : Shape := ⟨0, ![]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 37
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .bf16⟩
  | .hbm, ⟨34, _⟩ => ⟨S8192x4096, .bf16⟩
  | .hbm, ⟨35, _⟩ => ⟨S8192x4096, .bf16⟩
  | .hbm, ⟨36, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_cst_2 : Ref sig .tc := ⟨.hbm, 16, rfl⟩
abbrev main_call3_v0 : Ref sig .tc := ⟨.hbm, 17, rfl⟩
abbrev main_call3_v1 : Ref sig .tc := ⟨.hbm, 18, rfl⟩
abbrev main_call3_v2 : Ref sig .tc := ⟨.hbm, 19, rfl⟩
abbrev main_call3_v3 : Ref sig .tc := ⟨.hbm, 20, rfl⟩
abbrev main_call3_v4 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_3 : Ref sig .tc := ⟨.hbm, 25, rfl⟩
abbrev main_cst_4 : Ref sig .tc := ⟨.hbm, 26, rfl⟩
abbrev main_call5_v0 : Ref sig .tc := ⟨.hbm, 27, rfl⟩
abbrev main_call5_v1 : Ref sig .tc := ⟨.hbm, 28, rfl⟩
abbrev main_call5_v2 : Ref sig .tc := ⟨.hbm, 29, rfl⟩
abbrev main_call5_v3 : Ref sig .tc := ⟨.hbm, 30, rfl⟩
abbrev main_call5_v4 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [BitOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S1024x1024_S1024x1024_0_0 : (Rect.unit (s := S1024x1024) ![0, 0] S1024x1024.size inb_S1024x1024_S1024x1024_0_0).PackedRows (EltTy.packing .bf16)
  shapeCasts_S1024x512_S1024x512 : S1024x512.ShapeCasts S1024x512
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .bf16 = 32 ∨ (Rect.block (s := S8192x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .bf16 = 32 ∨ (Rect.block (s := S8192x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .bf16 = 32 ∨ (Rect.block (s := S4096x4096) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x4096.size a
  hwx2_2 : ∀ i : grid2.Coords, EltTy.bits .f32 = 32 ∨ (Rect.block (s := S8192x4096) S1024x1024.size (cc2_transform_2 i) (hinb2_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v10) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S4096x4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S8192x4096, .f32⟩
  | .hbm, ⟨68, _⟩ => ⟨S_, .f32⟩
  | .hbm, ⟨69, _⟩ => ⟨S8192x4096, .f32⟩
  | .hbm, ⟨70, _⟩ => ⟨S8192x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_cst_5 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_6 : Ref sig .tc := ⟨.hbm, 42, rfl⟩
abbrev main_v16 : Ref sig .tc := ⟨.hbm, 43, rfl⟩
abbrev main_v17 : Ref sig .tc := ⟨.hbm, 44, rfl⟩
abbrev main_cst_7 : Ref sig .tc := ⟨.hbm, 45, rfl⟩
abbrev main_cst_8 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_9 : Ref sig .tc := ⟨.hbm, 57, rfl⟩
abbrev main_cst_10 : Ref sig .tc := ⟨.hbm, 58, rfl⟩
abbrev main_call7_v0 : Ref sig .tc := ⟨.hbm, 59, rfl⟩
abbrev main_call7_v1 : Ref sig .tc := ⟨.hbm, 60, rfl⟩
abbrev main_call7_v2 : Ref sig .tc := ⟨.hbm, 61, rfl⟩
abbrev main_call7_v3 : Ref sig .tc := ⟨.hbm, 62, rfl⟩
abbrev main_call7_v4 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_11 : Ref sig .tc := ⟨.hbm, 68, rfl⟩
abbrev main_v27 : Ref sig .tc := ⟨.hbm, 69, rfl⟩
abbrev main_v28 : Ref sig .tc := ⟨.hbm, 70, rfl⟩
abbrev main_cst_12 : Ref sig .tc := ⟨.hbm, 71, rfl⟩
abbrev main_cst_13 : Ref sig .tc := ⟨.hbm, 72, rfl⟩
abbrev main_call8_v0 : Ref sig .tc := ⟨.hbm, 73, rfl⟩
abbrev main_call8_v1 : Ref sig .tc := ⟨.hbm, 74, rfl⟩
abbrev main_call8_v2 : Ref sig .tc := ⟨.hbm, 75, rfl⟩
abbrev main_call8_v3 : Ref sig .tc := ⟨.hbm, 76, rfl⟩
abbrev main_call8_v4 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Preserves.lean ====
/-
  The idealization's four rewrites, each restated as its rule's statement at the site's shape and formats.
  Narrowing an f32 array to bf16 and widening it back is the identity over the extended reals and the rounding
  through bf16 on bit patterns; the word "1.0 with x's sign bit" is ±1 by the sign bit on bit patterns, and what is
  printed in its place is ±1 by x < 0 over the extended reals. Each conjunct is the rule's own lemma.
-/
import proofs.«113464_j3315714752880_2_alg».proof.Defs

noncomputable section

namespace Cert.Preserves

open Idealize.ShloMosaic

/-- The four sites: one narrowing-and-widening at [1024, 512] from f32 through bf16, and the sign word at
    [1024, 1024] and f32 once in each of the three layers. -/
theorem preserves : Cert.preserves_Kernel_KernelIdeal :=
  ⟨IdealRules.truncf_extf.statement Cert.KernelIdeal.S1024x512 .f32 .bf16,
   IdealRules.sign_bit.statement Cert.KernelIdeal.S1024x1024 .f32,
   IdealRules.sign_bit.statement Cert.KernelIdeal.S1024x1024 .f32,
   IdealRules.sign_bit.statement Cert.KernelIdeal.S1024x1024 .f32⟩

end Cert.Preserves

end
-- ==== Proof.RefFrame.lean ====
/-
  The reference's frame: its run ends with every result array at the composed term of the arguments and with the
  four argument arrays unchanged; the frame keeps the second half of that statement.
-/
import proofs.«113464_j3315714752880_2_alg».proof.Defs
import proofs.«113464_j3315714752880_2_alg».proof.Proof.Gen.ReferenceIdeal
import proofs.«113464_j3315714752880_2_alg».proof.Proof.Gen.ReferenceIdeal.Run
import proofs.«113464_j3315714752880_2_alg».proof.Proof.Gen.Pre_finite_inputs

noncomputable section

namespace Cert.RefFrame

open Idealize.ShloMosaic Idealize.SL.Sem

/-- Every run of the reference terminates without fault and leaves its arguments as they were, from any memory. -/
theorem frame :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.RefFrame

end
-- ==== Proof.ThreeRegionSegs.lean ====
/-
  The program's three kernel regions as segments of its run.

  Between two items of the program a core holds every unscoped buffer at known contents: the launch memory pushed
  through the host operations before the first region, then, region by region, the region's output array replaced
  by what its write-backs leave (the entry contents overwritten block by block) and every other buffer untouched.
  A region is entered by splitting its windows' arrays out of those buffers, runs its pipeline from per-region proof
  data whose invariant at the region's two ends is the plain one (every scoped buffer that is no staging buffer at
  some contents, the generator register at some state), and is left by putting the arrays back at their final
  contents. Nothing is owed to another core at any point, and the kernels have no semaphores of their own.
-/
import proofs.«113464_j3315714752880_2_alg».proof.Proof.Gen.KernelIdeal.Regions
import Idealize.ShloMosaic.Lib.Pipeline.RegionsLoop
import Idealize.ShloMosaic.Lib.Pipeline.Kit

noncomputable section

namespace Cert.KernelIdeal.ThreeRegions

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ (UR sig nD τ) ℕ

/-- A core's TensorCore buffers, each at some contents: what a region is entered from. -/
abbrev Contents (F : FTy → Type) : Type :=
  (c : Dev nD) → (b : Ref sig .tc) → Buf (Elt F) ((c : Thread nD τ).loc b)

/-- What is assumed of one kernel region, pipeline `cfg`: for any entry contents `V`, proof data whose arrays are
    read off `V`, holding every input whole, owing nothing at any point and recording no bound at the first, whose
    invariant is the class invariant (the scoped rest and the generator register) at the region's two ends, and whose
    body meets its obligation at every point. -/
structure RegionProof (F : FTy → Type) [FloatOps F] (cfg : Cfg sig Λ₀) where
  dat : (V : Contents F) → (c : Dev nD) → Dat τ (Elt F) Unit ℕ (UR sig nD τ) ℕ cfg c
  hA : ∀ V c w, (dat V c).A w = V c (Pipeline.arrRef cfg.spec w)
  hq : ∀ V c w, (dat V c).q w = fullShare
  howed : ∀ V c t, (dat V c).owed t = 0
  hrec : ∀ V c, (dat V c).recorded 0 = Set.univ
  hΦ0 : ∀ V c, Pipeline.ΦA cfg.spec c ⊢ (dat V c).Φ 0
  hΦN : ∀ V c, (dat V c).Φ (Fin.last cfg.N) ⊢ Pipeline.ΦA cfg.spec c
  hbody : ∀ V c, BodyObligation (dat V c) (defs₀ (F := F)) Variants.none () Set.univ

variable (m : (ℓ : Loc nD τ sig) → Buf (Elt F) ℓ)
variable (P0 : RegionProof F cfg0) (P1 : RegionProof F cfg1) (P2 : RegionProof F cfg2)

/-! ## The buffers' contents at each region's two ends -/

/-- Region 0 is entered from what the last host stretch leaves. -/
def val0 (c : Dev nD) : Valuation τ sig (Elt F) := V12 m c
def entry0 : Contents F := fun c b => val0 m c b
/-- What region 0 leaves in its output array. -/
def out0 (c : Dev nD) : Buf (Elt F) ((c : Thread nD τ).loc main_v9) := (P0.dat (entry0 m) c).arrAt 2 cfg0.N
/-- Region 1 is entered from region 0's entry contents with `main_v9` at what region 0 leaves there. -/
def val1 (c : Dev nD) : Valuation τ sig (Elt F) := Function.update (val0 m c) main_v9 (out0 m P0 c)
def entry1 : Contents F := fun c b => val1 m P0 c b
def out1 (c : Dev nD) : Buf (Elt F) ((c : Thread nD τ).loc main_v10) := (P1.dat (entry1 m P0) c).arrAt 2 cfg1.N
def val2 (c : Dev nD) : Valuation τ sig (Elt F) := Function.update (val1 m P0 c) main_v10 (out1 m P0 P1 c)
def entry2 : Contents F := fun c b => val2 m P0 P1 c b
def out2 (c : Dev nD) : Buf (Elt F) ((c : Thread nD τ).loc main_v11) := (P2.dat (entry2 m P0 P1) c).arrAt 2 cfg2.N
def val3 (c : Dev nD) : Valuation τ sig (Elt F) := Function.update (val2 m P0 P1 c) main_v11 (out2 m P0 P1 P2 c)

/-- What the last region leaves, read at the TensorCore's references. -/
def exit2 : Contents F := fun c b => val3 m P0 P1 P2 c b

/-- The regions' unknowns of the generated fold: whatever the item, the buffer as the last region leaves it. -/
def outs : Outs (F := F) := fun _ r c => val3 m P0 P1 P2 c r

/-- A write at one TensorCore reference leaves every other one's contents alone. -/
theorem update_at_ne {x y : Ref sig .tc} (h : x ≠ y) (f : Valuation τ sig (Elt F)) (v) :
    Function.update f (Proc.devRef .tc y) v (Proc.devRef .tc x) = f (Proc.devRef .tc x) :=
  Function.update_of_ne (StableHlo.devRef_ne_of_ne h) v f

theorem outs_main_v9 (J : ℕ) (c : Dev nD) : outs m P0 P1 P2 J main_v9 c = out0 m P0 c := by
  unfold outs val3 val2 val1
  rw [update_at_ne (by decide), update_at_ne (by decide), Function.update_self]
theorem outs_main_v10 (J : ℕ) (c : Dev nD) : outs m P0 P1 P2 J main_v10 c = out1 m P0 P1 c := by
  unfold outs val3 val2
  rw [update_at_ne (by decide), Function.update_self]
theorem outs_main_v11 (J : ℕ) (c : Dev nD) : outs m P0 P1 P2 J main_v11 c = out2 m P0 P1 P2 c := by
  unfold outs val3
  rw [Function.update_self]

/-- The generated fold at these unknowns is the chain of contents above. -/
theorem V13_eq (c : Dev nD) : V13 m (outs m P0 P1 P2) c = val1 m P0 c := by
  unfold V13 val1 val0; rw [outs_main_v9]
theorem V14_eq (c : Dev nD) : V14 m (outs m P0 P1 P2) c = val2 m P0 P1 c := by
  unfold V14 val2; rw [V13_eq, outs_main_v10]
theorem V15_eq (c : Dev nD) : V15 m (outs m P0 P1 P2) c = val3 m P0 P1 P2 c := by
  unfold V15 val3; rw [V14_eq, outs_main_v11]

/-! ## Each region's exit contents against its entry contents

Window 2 of each region is its output, windows 0 and 1 its inputs: an input's array is never written back, so it
leaves the region as it entered; the output's array leaves at the write-backs folded; no other buffer is touched. -/

theorem exit0_arr (c : Dev nD) : ∀ w : Fin cfg0.W, (P0.dat (entry0 m) c).arrAt w cfg0.N = entry1 m P0 c (Pipeline.arrRef spec0 w)
  | 0 => ((P0.dat (entry0 m) c).arrAt_in 0 rfl _).trans ((P0.hA (entry0 m) c 0).trans (update_at_ne (x := main_arg0) (y := main_v9) (by decide) (val0 m c) (out0 m P0 c)).symm)
  | 1 => ((P0.dat (entry0 m) c).arrAt_in 1 rfl _).trans ((P0.hA (entry0 m) c 1).trans (update_at_ne (x := main_v2) (y := main_v9) (by decide) (val0 m c) (out0 m P0 c)).symm)
  | 2 => (Function.update_self (Proc.devRef .tc main_v9) (out0 m P0 c) (val0 m c)).symm
  | ⟨_ + 3, h⟩ => absurd h (Nat.not_lt.2 (Nat.le_add_left _ _))
theorem exit0_rest (c : Dev nD) (b : Ref sig .tc) (hb : b ∉ Finset.univ.image (Pipeline.arrRef spec0)) :
    entry1 m P0 c b = entry0 m c b :=
  update_at_ne (fun e => hb (Finset.mem_image.mpr ⟨2, Finset.mem_univ _, e.symm⟩)) (val0 m c) (out0 m P0 c)

theorem exit1_arr (c : Dev nD) : ∀ w : Fin cfg1.W, (P1.dat (entry1 m P0) c).arrAt w cfg1.N = entry2 m P0 P1 c (Pipeline.arrRef spec1 w)
  | 0 => ((P1.dat (entry1 m P0) c).arrAt_in 0 rfl _).trans ((P1.hA (entry1 m P0) c 0).trans (update_at_ne (x := main_v9) (y := main_v10) (by decide) (val1 m P0 c) (out1 m P0 P1 c)).symm)
  | 1 => ((P1.dat (entry1 m P0) c).arrAt_in 1 rfl _).trans ((P1.hA (entry1 m P0) c 1).trans (update_at_ne (x := main_v5) (y := main_v10) (by decide) (val1 m P0 c) (out1 m P0 P1 c)).symm)
  | 2 => (Function.update_self (Proc.devRef .tc main_v10) (out1 m P0 P1 c) (val1 m P0 c)).symm
  | ⟨_ + 3, h⟩ => absurd h (Nat.not_lt.2 (Nat.le_add_left _ _))
theorem exit1_rest (c : Dev nD) (b : Ref sig .tc) (hb : b ∉ Finset.univ.image (Pipeline.arrRef spec1)) :
    entry2 m P0 P1 c b = entry1 m P0 c b :=
  update_at_ne (fun e => hb (Finset.mem_image.mpr ⟨2, Finset.mem_univ _, e.symm⟩)) (val1 m P0 c) (out1 m P0 P1 c)

theorem exit2_arr (c : Dev nD) : ∀ w : Fin cfg2.W, (P2.dat (entry2 m P0 P1) c).arrAt w cfg2.N = exit2 m P0 P1 P2 c (Pipeline.arrRef spec2 w)
  | 0 => ((P2.dat (entry2 m P0 P1) c).arrAt_in 0 rfl _).trans ((P2.hA (entry2 m P0 P1) c 0).trans (update_at_ne (x := main_v10) (y := main_v11) (by decide) (val2 m P0 P1 c) (out2 m P0 P1 P2 c)).symm)
  | 1 => ((P2.dat (entry2 m P0 P1) c).arrAt_in 1 rfl _).trans ((P2.hA (entry2 m P0 P1) c 1).trans (update_at_ne (x := main_v8) (y := main_v11) (by decide) (val2 m P0 P1 c) (out2 m P0 P1 P2 c)).symm)
  | 2 => (Function.update_self (Proc.devRef .tc main_v11) (out2 m P0 P1 P2 c) (val2 m P0 P1 c)).symm
  | ⟨_ + 3, h⟩ => absurd h (Nat.not_lt.2 (Nat.le_add_left _ _))
theorem exit2_rest (c : Dev nD) (b : Ref sig .tc) (hb : b ∉ Finset.univ.image (Pipeline.arrRef spec2)) :
    exit2 m P0 P1 P2 c b = entry2 m P0 P1 c b :=
  update_at_ne (fun e => hb (Finset.mem_image.mpr ⟨2, Finset.mem_univ _, e.symm⟩)) (val2 m P0 P1 c) (out2 m P0 P1 P2 c)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => P0.dat (entry0 m) c
  | ⟨1, _⟩ => fun c => P1.dat (entry1 m P0) c
  | ⟨2, _⟩ => fun c => P2.dat (entry2 m P0 P1) c

/-- No core owes another anything: no level is assigned. -/
abbrev L : GSem nD τ sig → Finset Unit := fun _ => ∅
abbrev lv : GSem nD τ sig → Unit → ℕ := fun _ _ => 0
/-- What rides beside the buffers from the launch to the return: the core's generator register at some state (a
    region's invariant takes it in and gives it back) and the core owing nothing. -/
abbrev rest (c : Dev nD) : sProp 𝕄 :=
  iprop((∃ r, prngReg c r) ∗ ∃ W, owes (c : Thread nD τ) (0 : CellTallies nD τ sig Unit) W)

/-- A core owing nothing is what a region's proof data ask for at the first point: they owe nothing there and bound
    the recorded pairs by nothing. -/
theorem owesAt_first {cfg : Cfg sig Λ₀} (P : RegionProof F cfg) (V : Contents F) (c : Dev nD) :
    (iprop(∃ W, owes (c : Thread nD τ) (0 : CellTallies nD τ sig Unit) W) : sProp 𝕄) ⊢ (P.dat V c).owesAt () 0 := by
  unfold Pipeline.Dat.owesAt Pipeline.owesWithin
  rw [P.howed V c 0]
  iintro ⟨%W, HO⟩; iexists W; isplitr
  · ipureintro; exact fun x _ => Or.inl ((P.hrec V c).symm ▸ Set.mem_univ x)
  iexact HO
/-- At the last point they owe nothing either. -/
theorem owesAt_last {cfg : Cfg sig Λ₀} (P : RegionProof F cfg) (V : Contents F) (c : Dev nD) :
    (P.dat V c).owesAt () (Fin.last cfg.N) ⊢ (iprop(∃ W, owes (c : Thread nD τ) (0 : CellTallies nD τ sig Unit) W) : sProp 𝕄) := by
  unfold Pipeline.Dat.owesAt Pipeline.owesWithin
  rw [P.howed V c (Fin.last cfg.N)]
  iintro ⟨%W, -, HO⟩; iexists W; iexact HO

/-! ## The regions as segments

Each region is entered from every unscoped buffer held at its entry contents beside `rest`, and left with them held
at its exit contents beside `rest`. On the way in, the windows' arrays are parted from the other unscoped buffers,
which bypass the region; the generator register goes into the invariant with the scoped buffers no window stages. On
the way out everything is put back, the arrays at what the write-backs leave. No kernel has a semaphore of its own or
a prefetched table, and nothing is owed at any point. -/

set_option backward.isDefEq.respectTransparency.types false in
/-- Region 0 (the first layer): from `val0` to `val1`. -/
def reg0 : Pipeline.RegionSeg (pcfgs (F := F)) adm (pdats m P0 P1 P2) () defs₀ Variants.none L lv 0 where
  win := launch0.win.to₀
  block_pos := launch0.block_pos
  stage_whole := launch0.stage_whole
  K := PEmpty
  osem k := k.elim
  ho := Pipeline.OwnSemFacts.none _
  hbody c := (P0.hbody (entry0 m) c).loose
  hwaits := Pipeline.hwaits_of_owed_zero _ _ _ _ L lv 0 fun c t => P0.howed (entry0 m) c t
  pre c := iprop(StableHlo.held (c : Thread nD τ) (Pipeline.ucRefs τ sig) (val0 m c) ∗ rest c)
  post c := iprop(StableHlo.held (c : Thread nD τ) (Pipeline.ucRefs τ sig) (val1 m P0 c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    -- the unscoped buffers at the entry contents are the three arrays at those contents and the others
    have part := Pipeline.arrays_of_unscopedBufs (p := 0) (pcfgs (F := F)) adm (pdats m P0 P1 P2) launch0.win launch0.arr_whole c
      ((pdats m P0 P1 P2 0 c).share_full (P0.hq (entry0 m) c)) (entry0 m c) (P0.hA (entry0 m) c)
    rw [show unscopedBufs c (entry0 m c) = StableHlo.held (c : Thread nD τ) (Pipeline.ucRefs τ sig) (val0 m c) from Pipeline.unscopedBufs_held c (val0 m c)] at part
    rw [Pipeline.ownSems0_none]
    iintro ⟨⟨Hbufs, Hgen, Howes⟩, -, -⟩
    ihave Hparted := part $$ Hbufs
    icases Hparted with ⟨Harrs, Hothers⟩
    imodintro
    isplitl [Harrs]; · iexact Harrs
    isplitr
    · -- no table is prefetched
      unfold Pipeline.prefHeld; rw [show (Finset.univ : Finset (Fin 0)) = ∅ from rfl, BI.bigSep_empty]; iempintro
    isplitl [Howes]; · iapply (owesAt_first P0 (entry0 m) c); iexact Howes
    isplitl [Hgen]; · iexact Hgen
    iexact Hothers
  hin c := by
    refine BIBase.Entails.trans ?_ (P0.hΦ0 (entry0 m) c)
    unfold Pipeline.ΦA
    iintro ⟨Hgen, -, Hscoped⟩
    isplitl [Hscoped]; · iexact Hscoped
    iexact Hgen
  hout c := by
    refine BIBase.Entails.trans (P0.hΦN (entry0 m) c) ?_
    rw [Pipeline.ownSems0_none]; unfold Pipeline.ΦA
    iintro ⟨Hscoped, Hgen⟩
    isplitl [Hgen]; · iexact Hgen
    isplitr; · iempintro
    iexact Hscoped
  hexit c := by
    -- the arrays at what the write-backs leave and the others as entered are the unscoped buffers at the exit contents
    have join := Pipeline.unscopedBufs_of_arrays (p := 0) (pcfgs (F := F)) adm (Ix := Unit) (Name := ℕ) (U := UR sig nD τ) (Lvl := ℕ)
      launch0.win launch0.arr_whole c (pdats m P0 P1 P2) ((pdats m P0 P1 P2 0 c).share_full (P0.hq (entry0 m) c))
      (entry0 m c) (entry1 m P0 c) ((pdats m P0 P1 P2 0 c).arrAt · cfg0.N) (exit0_arr m P0 c) (exit0_rest m P0 c)
    rw [show unscopedBufs c (entry1 m P0 c) = StableHlo.held (c : Thread nD τ) (Pipeline.ucRefs τ sig) (val1 m P0 c) from Pipeline.unscopedBufs_held c (val1 m P0 c)] at join
    iintro ⟨Harrs, Howes, Hgen, Hothers⟩
    imodintro
    isplitl [Harrs Hothers]
    · iapply join; isplitl [Harrs] <;> iassumption
    isplitl [Hgen]; · iexact Hgen
    iapply (owesAt_last P0 (entry0 m) c); iexact Howes

set_option backward.isDefEq.respectTransparency.types false in
/-- Region 1 (the second layer): from `val1` to `val2`. -/
def reg1 : Pipeline.RegionSeg (pcfgs (F := F)) adm (pdats m P0 P1 P2) () defs₀ Variants.none L lv 1 where
  win := launch1.win.to₀
  block_pos := launch1.block_pos
  stage_whole := launch1.stage_whole
  K := PEmpty
  osem k := k.elim
  ho := Pipeline.OwnSemFacts.none _
  hbody c := (P1.hbody (entry1 m P0) c).loose
  hwaits := Pipeline.hwaits_of_owed_zero _ _ _ _ L lv 1 fun c t => P1.howed (entry1 m P0) c t
  pre c := iprop(StableHlo.held (c : Thread nD τ) (Pipeline.ucRefs τ sig) (val1 m P0 c) ∗ rest c)
  post c := iprop(StableHlo.held (c : Thread nD τ) (Pipeline.ucRefs τ sig) (val2 m P0 P1 c) ∗ rest c)
  X c := iprop(∃ r, prngReg c r)
  Y c := iprop(∃ r, prngReg c r)
  Z c := Pipeline.unscopedRest (Ix := Unit) (Name := ℕ) (U := UR sig nD τ) (Lvl := ℕ) spec1 c (entry1 m P0 c)
  hentry c := by
    -- the unscoped buffers at the entry contents are the three arrays at those contents and the others
    have part := Pipeline.arrays_of_unscopedBufs (p := 1) (pcfgs (F := F)) adm (pdats m P0 P1 P2) launch1.win launch1.arr_whole c
      ((pdats m P0 P1 P2 1 c).share_full (P1.hq (entry1 m P0) c)) (entry1 m P0 c) (P1.hA (entry1 m P0) c)
    rw [show unscopedBufs c (entry1 m P0 c) = StableHlo.held (c : Thread nD τ) (Pipeline.ucRefs τ sig) (val1 m P0 c) from Pipeline.unscopedBufs_held c (val1 m P0 c)] at part
    rw [Pipeline.ownSems0_none]
    iintro ⟨⟨Hbufs, Hgen, Howes⟩, -, -⟩
    ihave Hparted := part $$ Hbufs
    icases Hparted with ⟨Harrs, Hothers⟩
    imodintro
    isplitl [Harrs]; · iexact Harrs
    isplitr
    · -- no table is prefetched
      unfold Pipeline.prefHeld; rw [show (Finset.univ : Finset (Fin 0)) = ∅ from rfl, BI.bigSep_empty]; iempintro
    isplitl [Howes]; · iapply (owesAt_first P1 (entry1 m P0) c); iexact Howes
    isplitl [Hgen]; · iexact Hgen
    iexact Hothers
  hin c := by
    refine BIBase.Entails.trans ?_ (P1.hΦ0 (entry1 m P0) c)
    unfold Pipeline.ΦA
    iintro ⟨Hgen, -, Hscoped⟩
    isplitl [Hscoped]; · iexact Hscoped
    iexact Hgen
  hout c := by
    refine BIBase.Entails.trans (P1.hΦN (entry1 m P0) c) ?_
    rw [Pipeline.ownSems0_none]; unfold Pipeline.ΦA
    iintro ⟨Hscoped, Hgen⟩
    isplitl [Hgen]; · iexact Hgen
    isplitr; · iempintro
    iexact Hscoped
  hexit c := by
    -- the arrays at what the write-backs leave and the others as entered are the unscoped buffers at the exit contents
    have join := Pipeline.unscopedBufs_of_arrays (p := 1) (pcfgs (F := F)) adm (Ix := Unit) (Name := ℕ) (U := UR sig nD τ) (Lvl := ℕ)
      launch1.win launch1.arr_whole c (pdats m P0 P1 P2) ((pdats m P0 P1 P2 1 c).share_full (P1.hq (entry1 m P0) c))
      (entry1 m P0 c) (entry2 m P0 P1 c) ((pdats m P0 P1 P2 1 c).arrAt · cfg1.N) (exit1_arr m P0 P1 c) (exit1_rest m P0 P1 c)
    rw [show unscopedBufs c (entry2 m P0 P1 c) = StableHlo.held (c : Thread nD τ) (Pipeline.ucRefs τ sig) (val2 m P0 P1 c) from Pipeline.unscopedBufs_held c (val2 m P0 P1 c)] at join
    iintro ⟨Harrs, Howes, Hgen, Hothers⟩
    imodintro
    isplitl [Harrs Hothers]
    · iapply join; isplitl [Harrs] <;> iassumption
    isplitl [Hgen]; · iexact Hgen
    iapply (owesAt_last P1 (entry1 m P0) c); iexact Howes

set_option backward.isDefEq.respectTransparency.types false in
/-- Region 2 (the third layer): from `val2` to `val3`. -/
def reg2 : Pipeline.RegionSeg (pcfgs (F := F)) adm (pdats m P0 P1 P2) () defs₀ Variants.none L lv 2 where
  win := launch2.win.to₀
  block_pos := launch2.block_pos
  stage_whole := launch2.stage_whole
  K := PEmpty
  osem k := k.elim
  ho := Pipeline.OwnSemFacts.none _
  hbody c := (P2.hbody (entry2 m P0 P1) c).loose
  hwaits := Pipeline.hwaits_of_owed_zero _ _ _ _ L lv 2 fun c t => P2.howed (entry2 m P0 P1) c t
  pre c := iprop(StableHlo.held (c : Thread nD τ) (Pipeline.ucRefs τ sig) (val2 m P0 P1 c) ∗ rest c)
  post c := iprop(StableHlo.held (c : Thread nD τ) (Pipeline.ucRefs τ sig) (val3 m P0 P1 P2 c) ∗ rest c)
  X c := iprop(∃ r, prngReg c r)
  Y c := iprop(∃ r, prngReg c r)
  Z c := Pipeline.unscopedRest (Ix := Unit) (Name := ℕ) (U := UR sig nD τ) (Lvl := ℕ) spec2 c (entry2 m P0 P1 c)
  hentry c := by
    -- the unscoped buffers at the entry contents are the three arrays at those contents and the others
    have part := Pipeline.arrays_of_unscopedBufs (p := 2) (pcfgs (F := F)) adm (pdats m P0 P1 P2) launch2.win launch2.arr_whole c
      ((pdats m P0 P1 P2 2 c).share_full (P2.hq (entry2 m P0 P1) c)) (entry2 m P0 P1 c) (P2.hA (entry2 m P0 P1) c)
    rw [show unscopedBufs c (entry2 m P0 P1 c) = StableHlo.held (c : Thread nD τ) (Pipeline.ucRefs τ sig) (val2 m P0 P1 c) from Pipeline.unscopedBufs_held c (val2 m P0 P1 c)] at part
    rw [Pipeline.ownSems0_none]
    iintro ⟨⟨Hbufs, Hgen, Howes⟩, -, -⟩
    ihave Hparted := part $$ Hbufs
    icases Hparted with ⟨Harrs, Hothers⟩
    imodintro
    isplitl [Harrs]; · iexact Harrs
    isplitr
    · -- no table is prefetched
      unfold Pipeline.prefHeld; rw [show (Finset.univ : Finset (Fin 0)) = ∅ from rfl, BI.bigSep_empty]; iempintro
    isplitl [Howes]; · iapply (owesAt_first P2 (entry2 m P0 P1) c); iexact Howes
    isplitl [Hgen]; · iexact Hgen
    iexact Hothers
  hin c := by
    refine BIBase.Entails.trans ?_ (P2.hΦ0 (entry2 m P0 P1) c)
    unfold Pipeline.ΦA
    iintro ⟨Hgen, -, Hscoped⟩
    isplitl [Hscoped]; · iexact Hscoped
    iexact Hgen
  hout c := by
    refine BIBase.Entails.trans (P2.hΦN (entry2 m P0 P1) c) ?_
    rw [Pipeline.ownSems0_none]; unfold Pipeline.ΦA
    iintro ⟨Hscoped, Hgen⟩
    isplitl [Hgen]; · iexact Hgen
    isplitr; · iempintro
    iexact Hscoped
  hexit c := by
    -- the arrays at what the write-backs leave and the others as entered are the unscoped buffers at the exit contents
    have join := Pipeline.unscopedBufs_of_arrays (p := 2) (pcfgs (F := F)) adm (Ix := Unit) (Name := ℕ) (U := UR sig nD τ) (Lvl := ℕ)
      launch2.win launch2.arr_whole c (pdats m P0 P1 P2) ((pdats m P0 P1 P2 2 c).share_full (P2.hq (entry2 m P0 P1) c))
      (entry2 m P0 P1 c) (exit2 m P0 P1 P2 c) ((pdats m P0 P1 P2 2 c).arrAt · cfg2.N) (exit2_arr m P0 P1 P2 c) (exit2_rest m P0 P1 P2 c)
    rw [show unscopedBufs c (exit2 m P0 P1 P2 c) = StableHlo.held (c : Thread nD τ) (Pipeline.ucRefs τ sig) (val3 m P0 P1 P2 c) from Pipeline.unscopedBufs_held c (val3 m P0 P1 P2 c)] at join
    iintro ⟨Harrs, Howes, Hgen, Hothers⟩
    imodintro
    isplitl [Harrs Hothers]
    · iapply join; isplitl [Harrs] <;> iassumption
    isplitl [Hgen]; · iexact Hgen
    iapply (owesAt_last P2 (entry2 m P0 P1) c); iexact Howes

end Cert.KernelIdeal.ThreeRegions

end
-- ==== Proof.Layer0Body.lean ====
/-
  One grid point of the first layer's kernel, as a statement about its four buffers.

  As in the later layers the kernel walks a grid (i, j, k) of 8 x 4 x 8 points, k fastest, with a block of the
  activations (1024 x 512), a block of the ternary weights (512 x 1024), the output block (1024 x 1024) and an
  accumulator that lives across points. Its activations are continuous, so it splits them into a leading part and
  a remainder and adds TWO products to the accumulator at every point, one per part: the accumulator is stored
  twice. It zeroes the accumulator where k = 0 and where k = 7 stores the sign of the accumulator into the output
  block.

  Three statements, one per kind of point (k = 0; 0 < k < 7; k = 7), from the buffers' contents before the point
  to their contents after it; the new accumulator is the second addition applied to the first. Each store covers
  its whole buffer, so a load after a store reads the stored value, and the last store is what the buffer holds.
-/
import proofs.«113464_j3315714752880_2_alg».proof.Proof.Gen.KernelIdeal.Launch
import proofs.«113464_j3315714752880_2_alg».proof.Proof.Gen.KernelIdeal.Skeleton
import proofs.«113464_j3315714752880_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset at the points whose last grid coordinate is 0. -/
abbrev isFirst (i : grid0.Coords) : Prop := (Scalar.cmpi .ne (Scalar.extui (Scalar.cmpi .eq (BitVec.ofNat 32 (i 2).val) 0#32)) 0#32) = 1#1
/-- The output block is stored at the points whose last grid coordinate is 7. -/
abbrev isLast (i : grid0.Coords) : Prop := k0_cond2 i = 1#1

/-- The two zero offsets, however they are spelt, are the zero function (one statement per block shape). -/
theorem offAcc : (![0, 0] : Fin S1024x1024.rank → ℕ) = fun _ => 0 := by
  funext a; match a with | ⟨0, _⟩ => rfl | ⟨1, _⟩ => rfl
theorem offLhs : (![0, 0] : Fin S1024x512.rank → ℕ) = fun _ => 0 := by
  funext a; match a with | ⟨0, _⟩ => rfl | ⟨1, _⟩ => rfl
theorem offRhs : (![0, 0] : Fin S512x1024.rank → ℕ) = fun _ => 0 := by
  funext a; match a with | ⟨0, _⟩ => rfl | ⟨1, _⟩ => rfl

/-- One store through the whole rectangle of a buffer, read back, is its payload, whatever the buffer held
    (any shape: nothing here looks inside the rectangle). -/
theorem read_store_unit {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e) :
    mr.view.read (Elt F) (mr.view.writes (Elt F) f [⟨Rect.unit off S.size inb, p⟩]) = p :=
  (View.read_writes_eq_canon _ _ _ (fun y => ⟨_, List.mem_singleton_self _, View.mem_set_unit_zero h inb y⟩)).trans
    (View.canon_unit_zero h inb p)

/-- A later store through the whole rectangle hides an earlier one. -/
theorem read_store_unit₂ {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e)
    (L : List (View.Piece (Elt F) S e)) :
    mr.view.read (Elt F) (mr.view.writes (Elt F) f (⟨Rect.unit off S.size inb, p⟩ :: L)) = p :=
  (View.read_writes_eq_canon _ _ _ (fun y => ⟨_, List.mem_cons_self, View.mem_set_unit_zero h inb y⟩)).trans
    (View.canon_cons_unit_zero h inb p L)

/-- A load through the whole rectangle after stores the last of which went through it reads that store's payload. -/
theorem readCov_unit_cons {S : Shape} {e : EltTy} {κ : Kind} {sp : Space} (v : View sig κ sp S e) {off : Fin S.rank → ℕ} (h : off = fun _ => 0)
    (inb : ∀ a, off a + S.size a ≤ S.size a) (p : S.Idx → Elt F e) (L : List (View.Piece (Elt F) S e)) :
    v.readCov (⟨Rect.unit off S.size inb, p⟩ :: L) (Rect.unit off S.size inb).toLoadRect = p := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- One point's two additions, applied to the accumulator `s`. -/
abbrev step (x : Vec F S1024x512 .f32) (w : Vec F S512x1024 .bf16) (s : Vec F S1024x1024 .f32) : Vec F S1024x1024 .f32 :=
  k0_pay4 x w (k0_pay3 x w s)

set_option maxHeartbeats 2000000 in
/-- A point that neither resets the accumulator nor stores the output: the accumulator gains this point's two products. -/
theorem body_mid (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : ¬isLast i)
    (x : Vec F S1024x512 .f32) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (step x w s)) -∗ K ⟨⟩))
      ⊢ wp frame (wpE (defs₀ (F := F)) Variants.none c none) E (cc0__layer0_kernel i arg3 harg3 arg4 harg4 arg5 harg5 arg6 harg6) K := by
  simp only [cc0__layer0_kernel_eq_skeleton]; unfold cc0__layer0_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 2000000 in
/-- A point that resets the accumulator: it ends at this point's two products over the zero block. -/
theorem body_first (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : isFirst i) (hc1 : ¬isLast i)
    (x : Vec F S1024x512 .f32) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (step x w (k0_pay1 (F := F)))) -∗ K ⟨⟩))
      ⊢ wp frame (wpE (defs₀ (F := F)) Variants.none c none) E (cc0__layer0_kernel i arg3 harg3 arg4 harg4 arg5 harg5 arg6 harg6) K := by
  simp only [cc0__layer0_kernel_eq_skeleton]; unfold cc0__layer0_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 2000000 in
/-- A point that stores the output: the accumulator gains this point's two products and the output block is its sign. -/
theorem body_last (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : isLast i)
    (x : Vec F S1024x512 .f32) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare (k0_pay5 (step x w s)) ∗ owns (c : Thread nD τ) arg6 fullShare (step x w s)) -∗ K ⟨⟩))
      ⊢ wp frame (wpE (defs₀ (F := F)) Variants.none c none) E (cc0__layer0_kernel i arg3 harg3 arg4 harg4 arg5 harg5 arg6 harg6) K := by
  simp only [cc0__layer0_kernel_eq_skeleton]; unfold cc0__layer0_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_run_names
    rw [read_store_unit (S := S1024x1024) arg5 _ offAcc]
    simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]
  iexists _; isplitr
  swap; · iexact H6
  ipureintro
  sl_unfold_run_names
  rw [read_store_unit₂ (S := S1024x1024) arg6 _ offAcc]
  simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]

end Cert.KernelIdeal.Layer0
end
-- ==== Proof.Layer0Data.lean ====
/-
  The first layer's kernel over its whole grid: what its buffers hold from point to point.

  The 256 grid points run in order, the reduction coordinate k fastest, so each output block (i, j) is visited
  in a run of eight consecutive points k = 0 … 7. The accumulator after point n is defined by recursion on n: the
  point's two products of its input blocks added to the zero block when n ≡ 0 (mod 8), to the accumulator of the
  point before otherwise. The output block's staging buffer is stored into, and written back to the array, only at
  the points n ≡ 7 (mod 8), where it receives the sign of the accumulator; at the other points it is handed back as
  it came. Between points the kernel's accumulator buffer holds that recursion's value, and every other scoped
  buffer and the generator register are left alone. From the three per-point statements this gives the
  pipeline's obligation at every point, and at the region's two ends the invariant is the plain one (the
  accumulator at anything).
-/
import proofs.«113464_j3315714752880_2_alg».proof.Proof.Gen.KernelIdeal.Launch
import proofs.«113464_j3315714752880_2_alg».proof.Proof.Gen.KernelIdeal.Skeleton
import proofs.«113464_j3315714752880_2_alg».proof.Proof.Gen.KernelIdeal.Points
import proofs.«113464_j3315714752880_2_alg».proof.Proof.Layer0Body
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where on the grid the accumulator is reset and the output stored -/

/-- The last coordinate is the fastest: it is 0 at the points ≡ 0 (mod 8) — decided over the grid. -/
theorem first_iff : ∀ t : Fin cfg0.N, isFirst (grid0.coords t) ↔ t.val % 8 = 0 :=
  (by decide +kernel : ∀ t : Fin grid0.N, isFirst (grid0.coords t) ↔ t.val % 8 = 0)
/-- and 7 at the points ≡ 7 (mod 8). -/
theorem last_iff : ∀ t : Fin cfg0.N, isLast (grid0.coords t) ↔ t.val % 8 = 7 :=
  (by decide +kernel : ∀ t : Fin grid0.N, isLast (grid0.coords t) ↔ t.val % 8 = 7)
/-- The two inputs are used at every point. -/
theorem live_lhs : ∀ t : Fin cfg0.N, cfg0.idle 0 (grid0.coords t) = false := by decide +kernel
theorem live_rhs : ∀ t : Fin cfg0.N, cfg0.idle 1 (grid0.coords t) = false := by decide +kernel
/-- Away from the last coordinate's end the output block is neither stored into nor written back. -/
theorem idle_out : ∀ t : Fin cfg0.N, ¬isLast (grid0.coords t) → cfg0.idle 2 (grid0.coords t) = true := by decide +kernel
theorem keep_out : ∀ t : Fin cfg0.N, ¬isLast (grid0.coords t) → (cfg0.win 2).flush t = false := by decide +kernel
/-- At its end the output block is stored. -/
theorem live_out : ∀ t : Fin cfg0.N, isLast (grid0.coords t) → cfg0.idle 2 (grid0.coords t) = false := by decide +kernel

/-! ## The blocks and the running accumulator -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, for any proof data over these arrays that leaves it in place. -/
theorem before_lhs {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_rhs {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- One point's two additions, with the accumulator first. -/
abbrev upd (s : Vec F S1024x1024 .f32) (x : Vec F S1024x512 .f32) (w : Vec F S512x1024 .bf16) : Vec F S1024x1024 .f32 := step x w s

/-- The accumulator after point `n`: this point's product added to the zero block where the last coordinate is 0,
    to what the point before left otherwise. -/
def acc (c : Dev nD) : (n : ℕ) → n < cfg0.N → Vec F S1024x1024 .f32
  | 0, h => upd k0_pay1 (blk V c 0 ⟨0, h⟩) (blk V c 1 ⟨0, h⟩)
  | n + 1, h => upd (if (n + 1) % 8 = 0 then k0_pay1 else acc c n (Nat.lt_of_succ_lt h)) (blk V c 0 ⟨n + 1, h⟩) (blk V c 1 ⟨n + 1, h⟩)

theorem acc_first (c : Dev nD) (t : Fin cfg0.N) (h0 : t.val % 8 = 0) :
    acc V c t.val t.isLt = upd k0_pay1 (blk V c 0 t) (blk V c 1 t) := by
  obtain ⟨n, hn⟩ := t
  cases n with
  | zero => rfl
  | succ n =>
    show upd (if (n + 1) % 8 = 0 then k0_pay1 else acc V c n _) _ _ = _
    rw [if_pos h0]

theorem acc_step (c : Dev nD) (t : Fin cfg0.N) (h0 : ¬t.val % 8 = 0) :
    acc V c t.val t.isLt = upd (acc V c (t.val - 1) (Nat.lt_of_le_of_lt (Nat.sub_le _ _) t.isLt)) (blk V c 0 t) (blk V c 1 t) := by
  obtain ⟨n, hn⟩ := t
  cases n with
  | zero => exact absurd (Nat.zero_mod _) h0
  | succ n =>
    show upd (if (n + 1) % 8 = 0 then k0_pay1 else acc V c n _) _ _ = _
    rw [if_neg h0]; rfl

/-! ## The region's invariant -/

/-- The kernel's accumulator: a whole scoped buffer of its own. -/
abbrev scM : Memref sig .tc .vmem S1024x1024 .f32 := Memref.whole cc0_scratch0

/-- Every other scoped buffer that is no staging buffer of this call (the other calls' staging buffers and
    accumulators), each at some contents, and the generator register at some state: untouched by this call. -/
def others (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem scratch_listed : ([cc0_scratch0] : List (Ref sig .tc)).Forall fun b => b.isScoped = true ∧ ∀ (w : Fin 3) (s : Fin (spec0 w).nbuf), ((spec0 w).stage s).view.ref ≠ b := by
  simp only [List.Forall]; exact ⟨rfl, by decide⟩

/-- The class invariant with this call's accumulator singled out. -/
theorem PhiA_eq (c : Dev nD) : (Pipeline.ΦA spec0 c : sProp 𝕄)
    = iprop(iprop((∃ d, owns (c : Thread nD τ) scM fullShare d) ∗ Pipeline.scopedRestBut (Ix := Unit) (Name := ℕ) (U := UR sig nD τ) (Lvl := ℕ) (Val := Elt F) spec0 c [cc0_scratch0]) ∗ ∃ r, prngReg c r) := by
  unfold Pipeline.ΦA
  rw [Pipeline.scopedRest_split_of_list spec0 c [cc0_scratch0] scratch_listed (by decide)]
  simp only [bigSepL_singleton, scM, owns_whole]
  rfl

theorem PhiA_split (c : Dev nD) : (Pipeline.ΦA spec0 c : sProp 𝕄) ⊢ iprop((∃ d, owns (c : Thread nD τ) scM fullShare d) ∗ others (F := F) c) := by
  rw [PhiA_eq]; unfold others
  iintro ⟨⟨HS, Hb⟩, Hg⟩
  isplitl [HS]; · iexact HS
  isplitl [Hb]; · iexact Hb
  iexact Hg

theorem PhiA_join (c : Dev nD) : iprop((∃ d, owns (c : Thread nD τ) scM fullShare d) ∗ others (F := F) c) ⊢ (Pipeline.ΦA spec0 c : sProp 𝕄) := by
  rw [PhiA_eq]; unfold others
  iintro ⟨HS, Hb, Hg⟩
  isplitl [HS Hb]
  · isplitl [HS]; · iexact HS
    iexact Hb
  iexact Hg

/-- Before the first point the class invariant; after point `n` the accumulator at `acc n` beside the rest. -/
def inv (c : Dev nD) : (n : ℕ) → n ≤ cfg0.N → sProp 𝕄
  | 0, _ => Pipeline.ΦA spec0 c
  | n + 1, h => iprop(owns (c : Thread nD τ) scM fullShare (acc V c n h) ∗ others c)

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) scM fullShare (acc V c n hn) ∗ others c) := rfl
theorem inv_pos (c : Dev nD) (n : ℕ) (h : n ≤ cfg0.N) (hz : n ≠ 0) :
    inv V c n h = iprop(owns (c : Thread nD τ) scM fullShare (acc V c (n - 1) (by omega)) ∗ others c) := by
  cases n with
  | zero => exact absurd rfl hz
  | succ n => rfl

/-! ## The proof data -/

/-- The arrays as the region finds them; after a point the inputs' buffers at their blocks and the output's at the
    sign of the accumulator (consulted only where the last coordinate is 7); the invariant above; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay5 (acc V c t.val t.isLt)
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem after_lhs (c : Dev nD) (t : Fin cfg0.N) : (dat V c).after 0 t = blk V c 0 t := by dsimp only [dat]
theorem after_rhs (c : Dev nD) (t : Fin cfg0.N) : (dat V c).after 1 t = blk V c 1 t := by dsimp only [dat]
theorem after_out (c : Dev nD) (t : Fin cfg0.N) : (dat V c).after 2 t = k0_pay5 (acc V c t.val t.isLt) := by dsimp only [dat]
theorem Phi_castSucc (c : Dev nD) (t : Fin cfg0.N) : (dat V c).Φ t.castSucc = inv V c t.val (Nat.le_of_lt t.isLt) := by
  dsimp only [dat]; simp only [Fin.coe_castSucc]
theorem found_lhs (c : Dev nD) (t : Fin cfg0.N) (d) : (dat V c).before 0 t d = blk V c 0 t :=
  before_lhs V (dat V c) (A_eq V c 0) (after_lhs V c) t d
theorem found_rhs (c : Dev nD) (t : Fin cfg0.N) (d) : (dat V c).before 1 t d = blk V c 1 t :=
  before_rhs V (dat V c) (A_eq V c 1) (after_rhs V c) t d

/-! ## The body obligation -/

/-- Each window's current staging buffer at point `t`, as the pipeline passes it to the body. -/
abbrev msL (t : Fin cfg0.N) : Memref sig .tc .vmem S1024x512 .f32 := win0_0.stage (cfg0.slots t 0)
abbrev msR (t : Fin cfg0.N) : Memref sig .tc .vmem S512x1024 .bf16 := win0_1.stage (cfg0.slots t 1)
abbrev msO (t : Fin cfg0.N) : Memref sig .tc .vmem S1024x1024 .bf16 := win0_2.stage (cfg0.slots t 2)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (msL t) fullShare ((dat V c).before 0 t d))
    ∗ (∃ d, owns (c : Thread nD τ) (msR t) fullShare ((dat V c).before 1 t d))
    ∗ (∃ d, owns (c : Thread nD τ) (msO t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4000000 in
/-- The body at any point. The inputs' buffers hold their blocks; the position of the point in its run of eight says
    which of the three statements applies; the invariant hands over the accumulator at what the point before left
    (at anything before the very first point) and takes it back at this point's value; where the output block is
    not stored its buffer goes back as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_lhs, found_rhs]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msL t) fullShare ((dat V c).after 0 t) from by
    unfold Dat.leavesExact; rw [live_lhs t], after_lhs]
  rw [show (dat V c).leavesExact 1 t = owns (c : Thread nD τ) (msR t) fullShare ((dat V c).after 1 t) from by
    unfold Dat.leavesExact; rw [live_rhs t], after_rhs]
  have hN : t.val < 256 := lt_of_lt_of_eq t.isLt (show cfg0.N = 256 from N_0)
  by_cases h7 : t.val % 8 = 7
  · have h0 : ¬t.val % 8 = 0 := by omega
    have hz : t.val ≠ 0 := by omega
    rw [show (dat V c).leavesExact 2 t = owns (c : Thread nD τ) (msO t) fullShare ((dat V c).after 2 t) from by
      unfold Dat.leavesExact; rw [live_out t ((last_iff t).mpr h7)], after_out]
    rw [acc_step V c t h0, Phi_castSucc V c t, inv_pos V c _ _ hz]
    iintro ⟨⟨HS, Hr⟩, Ho, ⟨%d0, H0⟩, ⟨%d1, H1⟩, ⟨%d2, H2⟩⟩
    iapply (body_last c Set.univ (grid0.coords t) _ _ _ _ _ _ _ _ (fun h => h0 ((first_iff t).mp h)) ((last_iff t).mpr h7) (blk V c 0 t) (blk V c 1 t) _ _ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat V c) 2 t (idle_out t (fun h => h7 ((last_iff t).mp h))) (keep_out t (fun h => h7 ((last_iff t).mp h)))]
    by_cases h0 : t.val % 8 = 0
    · rw [acc_first V c t h0]
      by_cases hz : t.val = 0
      · rw [Phi_castSucc V c t, inv_zero V c _ _ hz]
        iintro ⟨HΦ, Ho, ⟨%d0, H0⟩, ⟨%d1, H1⟩, ⟨%d2, H2⟩⟩
        ihave HΦ' := (PhiA_split (F := F) c) $$ HΦ
        icases HΦ' with ⟨⟨%s, HS⟩, Hr⟩
        iapply (body_first c Set.univ (grid0.coords t) _ _ _ _ _ _ _ _ ((first_iff t).mpr h0) (fun h => h7 ((last_iff t).mp h)) (blk V c 0 t) (blk V c 1 t) _ s _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
      · rw [Phi_castSucc V c t, inv_pos V c _ _ hz]
        iintro ⟨⟨HS, Hr⟩, Ho, ⟨%d0, H0⟩, ⟨%d1, H1⟩, ⟨%d2, H2⟩⟩
        iapply (body_first c Set.univ (grid0.coords t) _ _ _ _ _ _ _ _ ((first_iff t).mpr h0) (fun h => h7 ((last_iff t).mp h)) (blk V c 0 t) (blk V c 1 t) _ _ _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
    · have hz : t.val ≠ 0 := fun e => h0 (by rw [e])
      rw [acc_step V c t h0, Phi_castSucc V c t, inv_pos V c _ _ hz]
      iintro ⟨⟨HS, Hr⟩, Ho, ⟨%d0, H0⟩, ⟨%d1, H1⟩, ⟨%d2, H2⟩⟩
      iapply (body_mid c Set.univ (grid0.coords t) _ _ _ _ _ _ _ _ (fun h => h0 ((first_iff t).mp h)) (fun h => h7 ((last_iff t).mp h)) (blk V c 0 t) (blk V c 1 t) _ _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends, and the data's plain fields -/

theorem Phi_first (c : Dev nD) : (dat V c).Φ 0 = Pipeline.ΦA spec0 c := rfl

/-- After the last point the accumulator's contents are forgotten: the class invariant again. -/
theorem Phi_last (c : Dev nD) : (dat V c).Φ (Fin.last cfg0.N) ⊢ (Pipeline.ΦA spec0 c : sProp 𝕄) := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega)]
  iintro ⟨HS, Hr⟩
  iapply (PhiA_join (F := F) c)
  isplitl [HS]; · iexists _; iexact HS
  iexact Hr

theorem q_full (c : Dev nD) (w : Fin cfg0.W) : (dat V c).q w = fullShare := rfl
theorem owed_zero (c : Dev nD) (t : Fin (cfg0.N + 1)) : (dat V c).owed t = 0 := rfl

end Cert.KernelIdeal.Layer0
end
-- ==== Proof.Layer1Body.lean ====
/-
  One grid point of the second layer's kernel, as a statement about its four buffers.

  The kernel walks a grid (i, j, k) of 8 x 4 x 8 points, k fastest. At a point it holds a block of the activations
  (1024 x 512, rows i, columns k), a block of the ternary weights (512 x 1024, rows k, columns j), the output block
  (1024 x 1024, rows i, columns j) and an accumulator of the output block's shape that lives across points. It
  zeroes the accumulator where k = 0, adds the product of the two input blocks to it at every point, and where
  k = 7 stores the sign of the accumulator into the output block.

  Three statements, one per kind of point (k = 0; 0 < k < 7; k = 7): from the buffers' contents before the point
  to their contents after it, the new accumulator being the body's own arithmetic (the program's named pure terms)
  of the old accumulator and the two input blocks. Each store covers its whole buffer, so what a buffer reads
  after a store is the stored value, whatever it held before.
-/
import proofs.«113464_j3315714752880_2_alg».proof.Proof.Gen.KernelIdeal.Launch
import proofs.«113464_j3315714752880_2_alg».proof.Proof.Gen.KernelIdeal.Skeleton
import proofs.«113464_j3315714752880_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset at the points whose last grid coordinate is 0. -/
abbrev isFirst (i : grid1.Coords) : Prop := (Scalar.cmpi .ne (Scalar.extui (Scalar.cmpi .eq (BitVec.ofNat 32 (i 2).val) 0#32)) 0#32) = 1#1
/-- The output block is stored at the points whose last grid coordinate is 7. -/
abbrev isLast (i : grid1.Coords) : Prop := k1_cond2 i = 1#1

/-- The two zero offsets, however they are spelt, are the zero function (one statement per block shape). -/
theorem offAcc : (![0, 0] : Fin S1024x1024.rank → ℕ) = fun _ => 0 := by
  funext a; match a with | ⟨0, _⟩ => rfl | ⟨1, _⟩ => rfl
theorem offLhs : (![0, 0] : Fin S1024x512.rank → ℕ) = fun _ => 0 := by
  funext a; match a with | ⟨0, _⟩ => rfl | ⟨1, _⟩ => rfl
theorem offRhs : (![0, 0] : Fin S512x1024.rank → ℕ) = fun _ => 0 := by
  funext a; match a with | ⟨0, _⟩ => rfl | ⟨1, _⟩ => rfl

/-- One store through the whole rectangle of a buffer, read back, is its payload, whatever the buffer held
    (any shape: nothing here looks inside the rectangle). -/
theorem read_store_unit {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e) :
    mr.view.read (Elt F) (mr.view.writes (Elt F) f [⟨Rect.unit off S.size inb, p⟩]) = p :=
  (View.read_writes_eq_canon _ _ _ (fun y => ⟨_, List.mem_singleton_self _, View.mem_set_unit_zero h inb y⟩)).trans
    (View.canon_unit_zero h inb p)

/-- A later store through the whole rectangle hides an earlier one. -/
theorem read_store_unit₂ {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e)
    (L : List (View.Piece (Elt F) S e)) :
    mr.view.read (Elt F) (mr.view.writes (Elt F) f (⟨Rect.unit off S.size inb, p⟩ :: L)) = p :=
  (View.read_writes_eq_canon _ _ _ (fun y => ⟨_, List.mem_cons_self, View.mem_set_unit_zero h inb y⟩)).trans
    (View.canon_cons_unit_zero h inb p L)

set_option maxHeartbeats 1000000 in
/-- A point that neither resets the accumulator nor stores the output: the accumulator gains this point's product. -/
theorem body_mid (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : ¬isLast i)
    (x : Vec F S1024x512 .bf16) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k1_pay2 s x w)) -∗ K ⟨⟩))
      ⊢ wp frame (wpE (defs₀ (F := F)) Variants.none c none) E (cc1__layer_kernel i arg3 harg3 arg4 harg4 arg5 harg5 arg6 harg6) K := by
  simp only [cc1__layer_kernel_eq_skeleton]; unfold cc1__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that resets the accumulator: it ends at this point's product over the zero block. -/
theorem body_first (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : isFirst i) (hc1 : ¬isLast i)
    (x : Vec F S1024x512 .bf16) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k1_pay2 (k1_pay1 (F := F)) x w)) -∗ K ⟨⟩))
      ⊢ wp frame (wpE (defs₀ (F := F)) Variants.none c none) E (cc1__layer_kernel i arg3 harg3 arg4 harg4 arg5 harg5 arg6 harg6) K := by
  simp only [cc1__layer_kernel_eq_skeleton]; unfold cc1__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that stores the output: the accumulator gains this point's product and the output block is its sign. -/
theorem body_last (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : isLast i)
    (x : Vec F S1024x512 .bf16) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare (k1_pay3 (k1_pay2 s x w)) ∗ owns (c : Thread nD τ) arg6 fullShare (k1_pay2 s x w)) -∗ K ⟨⟩))
      ⊢ wp frame (wpE (defs₀ (F := F)) Variants.none c none) E (cc1__layer_kernel i arg3 harg3 arg4 harg4 arg5 harg5 arg6 harg6) K := by
  simp only [cc1__layer_kernel_eq_skeleton]; unfold cc1__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_run_names
    rw [read_store_unit (S := S1024x1024) arg5 _ offAcc]
    simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]
  iexists _; isplitr
  swap; · iexact H6
  ipureintro
  sl_unfold_run_names
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

end Cert.KernelIdeal.Layer1
end
-- ==== Proof.Layer1Data.lean ====
/-
  The second layer's kernel over its whole grid: what its buffers hold from point to point.

  The 256 grid points run in order, the reduction coordinate k fastest, so each output block (i, j) is visited
  in a run of eight consecutive points k = 0 … 7. The accumulator after point n is defined by recursion on n: the
  point's product of its two input blocks added to the zero block when n ≡ 0 (mod 8), to the accumulator of the
  point before otherwise. The output block's staging buffer is stored into, and written back to the array, only at
  the points n ≡ 7 (mod 8), where it receives the sign of the accumulator; at the other points it is handed back as
  it came. Between points the kernel's accumulator buffer holds that recursion's value, and every other scoped
  buffer and the generator register are left alone. From the three per-point statements this gives the
  pipeline's obligation at every point, and at the region's two ends the invariant is the plain one (the
  accumulator at anything).
-/
import proofs.«113464_j3315714752880_2_alg».proof.Proof.Gen.KernelIdeal.Launch
import proofs.«113464_j3315714752880_2_alg».proof.Proof.Gen.KernelIdeal.Skeleton
import proofs.«113464_j3315714752880_2_alg».proof.Proof.Gen.KernelIdeal.Points
import proofs.«113464_j3315714752880_2_alg».proof.Proof.Layer1Body
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where on the grid the accumulator is reset and the output stored -/

/-- The last coordinate is the fastest: it is 0 at the points ≡ 0 (mod 8) — decided over the grid. -/
theorem first_iff : ∀ t : Fin cfg1.N, isFirst (grid1.coords t) ↔ t.val % 8 = 0 :=
  (by decide +kernel : ∀ t : Fin grid1.N, isFirst (grid1.coords t) ↔ t.val % 8 = 0)
/-- and 7 at the points ≡ 7 (mod 8). -/
theorem last_iff : ∀ t : Fin cfg1.N, isLast (grid1.coords t) ↔ t.val % 8 = 7 :=
  (by decide +kernel : ∀ t : Fin grid1.N, isLast (grid1.coords t) ↔ t.val % 8 = 7)
/-- The two inputs are used at every point. -/
theorem live_lhs : ∀ t : Fin cfg1.N, cfg1.idle 0 (grid1.coords t) = false := by decide +kernel
theorem live_rhs : ∀ t : Fin cfg1.N, cfg1.idle 1 (grid1.coords t) = false := by decide +kernel
/-- Away from the last coordinate's end the output block is neither stored into nor written back. -/
theorem idle_out : ∀ t : Fin cfg1.N, ¬isLast (grid1.coords t) → cfg1.idle 2 (grid1.coords t) = true := by decide +kernel
theorem keep_out : ∀ t : Fin cfg1.N, ¬isLast (grid1.coords t) → (cfg1.win 2).flush t = false := by decide +kernel
/-- At its end the output block is stored. -/
theorem live_out : ∀ t : Fin cfg1.N, isLast (grid1.coords t) → cfg1.idle 2 (grid1.coords t) = false := by decide +kernel

/-! ## The blocks and the running accumulator -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, for any proof data over these arrays that leaves it in place. -/
theorem before_lhs {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_rhs {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The accumulator after point `n`: this point's product added to the zero block where the last coordinate is 0,
    to what the point before left otherwise. -/
def acc (c : Dev nD) : (n : ℕ) → n < cfg1.N → Vec F S1024x1024 .f32
  | 0, h => k1_pay2 k1_pay1 (blk V c 0 ⟨0, h⟩) (blk V c 1 ⟨0, h⟩)
  | n + 1, h => k1_pay2 (if (n + 1) % 8 = 0 then k1_pay1 else acc c n (Nat.lt_of_succ_lt h)) (blk V c 0 ⟨n + 1, h⟩) (blk V c 1 ⟨n + 1, h⟩)

theorem acc_first (c : Dev nD) (t : Fin cfg1.N) (h0 : t.val % 8 = 0) :
    acc V c t.val t.isLt = k1_pay2 k1_pay1 (blk V c 0 t) (blk V c 1 t) := by
  obtain ⟨n, hn⟩ := t
  cases n with
  | zero => rfl
  | succ n =>
    show k1_pay2 (if (n + 1) % 8 = 0 then k1_pay1 else acc V c n _) _ _ = _
    rw [if_pos h0]

theorem acc_step (c : Dev nD) (t : Fin cfg1.N) (h0 : ¬t.val % 8 = 0) :
    acc V c t.val t.isLt = k1_pay2 (acc V c (t.val - 1) (Nat.lt_of_le_of_lt (Nat.sub_le _ _) t.isLt)) (blk V c 0 t) (blk V c 1 t) := by
  obtain ⟨n, hn⟩ := t
  cases n with
  | zero => exact absurd (Nat.zero_mod _) h0
  | succ n =>
    show k1_pay2 (if (n + 1) % 8 = 0 then k1_pay1 else acc V c n _) _ _ = _
    rw [if_neg h0]; rfl

/-! ## The region's invariant -/

/-- The kernel's accumulator: a whole scoped buffer of its own. -/
abbrev scM : Memref sig .tc .vmem S1024x1024 .f32 := Memref.whole cc1_scratch0

/-- Every other scoped buffer that is no staging buffer of this call (the other calls' staging buffers and
    accumulators), each at some contents, and the generator register at some state: untouched by this call. -/
def others (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scratch_listed : ([cc1_scratch0] : List (Ref sig .tc)).Forall fun b => b.isScoped = true ∧ ∀ (w : Fin 3) (s : Fin (spec1 w).nbuf), ((spec1 w).stage s).view.ref ≠ b := by
  simp only [List.Forall]; exact ⟨rfl, by decide⟩

/-- The class invariant with this call's accumulator singled out. -/
theorem PhiA_eq (c : Dev nD) : (Pipeline.ΦA spec1 c : sProp 𝕄)
    = iprop(iprop((∃ d, owns (c : Thread nD τ) scM fullShare d) ∗ Pipeline.scopedRestBut (Ix := Unit) (Name := ℕ) (U := UR sig nD τ) (Lvl := ℕ) (Val := Elt F) spec1 c [cc1_scratch0]) ∗ ∃ r, prngReg c r) := by
  unfold Pipeline.ΦA
  rw [Pipeline.scopedRest_split_of_list spec1 c [cc1_scratch0] scratch_listed (by decide)]
  simp only [bigSepL_singleton, scM, owns_whole]
  rfl

theorem PhiA_split (c : Dev nD) : (Pipeline.ΦA spec1 c : sProp 𝕄) ⊢ iprop((∃ d, owns (c : Thread nD τ) scM fullShare d) ∗ others (F := F) c) := by
  rw [PhiA_eq]; unfold others
  iintro ⟨⟨HS, Hb⟩, Hg⟩
  isplitl [HS]; · iexact HS
  isplitl [Hb]; · iexact Hb
  iexact Hg

theorem PhiA_join (c : Dev nD) : iprop((∃ d, owns (c : Thread nD τ) scM fullShare d) ∗ others (F := F) c) ⊢ (Pipeline.ΦA spec1 c : sProp 𝕄) := by
  rw [PhiA_eq]; unfold others
  iintro ⟨HS, Hb, Hg⟩
  isplitl [HS Hb]
  · isplitl [HS]; · iexact HS
    iexact Hb
  iexact Hg

/-- Before the first point the class invariant; after point `n` the accumulator at `acc n` beside the rest. -/
def inv (c : Dev nD) : (n : ℕ) → n ≤ cfg1.N → sProp 𝕄
  | 0, _ => Pipeline.ΦA spec1 c
  | n + 1, h => iprop(owns (c : Thread nD τ) scM fullShare (acc V c n h) ∗ others c)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) scM fullShare (acc V c n hn) ∗ others c) := rfl
theorem inv_pos (c : Dev nD) (n : ℕ) (h : n ≤ cfg1.N) (hz : n ≠ 0) :
    inv V c n h = iprop(owns (c : Thread nD τ) scM fullShare (acc V c (n - 1) (by omega)) ∗ others c) := by
  cases n with
  | zero => exact absurd rfl hz
  | succ n => rfl

/-! ## The proof data -/

/-- The arrays as the region finds them; after a point the inputs' buffers at their blocks and the output's at the
    sign of the accumulator (consulted only where the last coordinate is 7); the invariant above; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay3 (acc V c t.val t.isLt)
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem after_lhs (c : Dev nD) (t : Fin cfg1.N) : (dat V c).after 0 t = blk V c 0 t := by dsimp only [dat]
theorem after_rhs (c : Dev nD) (t : Fin cfg1.N) : (dat V c).after 1 t = blk V c 1 t := by dsimp only [dat]
theorem after_out (c : Dev nD) (t : Fin cfg1.N) : (dat V c).after 2 t = k1_pay3 (acc V c t.val t.isLt) := by dsimp only [dat]
theorem Phi_castSucc (c : Dev nD) (t : Fin cfg1.N) : (dat V c).Φ t.castSucc = inv V c t.val (Nat.le_of_lt t.isLt) := by
  dsimp only [dat]; simp only [Fin.coe_castSucc]
theorem found_lhs (c : Dev nD) (t : Fin cfg1.N) (d) : (dat V c).before 0 t d = blk V c 0 t :=
  before_lhs V (dat V c) (A_eq V c 0) (after_lhs V c) t d
theorem found_rhs (c : Dev nD) (t : Fin cfg1.N) (d) : (dat V c).before 1 t d = blk V c 1 t :=
  before_rhs V (dat V c) (A_eq V c 1) (after_rhs V c) t d

/-! ## The body obligation -/

/-- Each window's current staging buffer at point `t`, as the pipeline passes it to the body. -/
abbrev msL (t : Fin cfg1.N) : Memref sig .tc .vmem S1024x512 .bf16 := win1_0.stage (cfg1.slots t 0)
abbrev msR (t : Fin cfg1.N) : Memref sig .tc .vmem S512x1024 .bf16 := win1_1.stage (cfg1.slots t 1)
abbrev msO (t : Fin cfg1.N) : Memref sig .tc .vmem S1024x1024 .bf16 := win1_2.stage (cfg1.slots t 2)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (msL t) fullShare ((dat V c).before 0 t d))
    ∗ (∃ d, owns (c : Thread nD τ) (msR t) fullShare ((dat V c).before 1 t d))
    ∗ (∃ d, owns (c : Thread nD τ) (msO t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4000000 in
/-- The body at any point. The inputs' buffers hold their blocks; the position of the point in its run of eight says
    which of the three statements applies; the invariant hands over the accumulator at what the point before left
    (at anything before the very first point) and takes it back at this point's value; where the output block is
    not stored its buffer goes back as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_lhs, found_rhs]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msL t) fullShare ((dat V c).after 0 t) from by
    unfold Dat.leavesExact; rw [live_lhs t], after_lhs]
  rw [show (dat V c).leavesExact 1 t = owns (c : Thread nD τ) (msR t) fullShare ((dat V c).after 1 t) from by
    unfold Dat.leavesExact; rw [live_rhs t], after_rhs]
  have hN : t.val < 256 := lt_of_lt_of_eq t.isLt (show cfg1.N = 256 from N_1)
  by_cases h7 : t.val % 8 = 7
  · have h0 : ¬t.val % 8 = 0 := by omega
    have hz : t.val ≠ 0 := by omega
    rw [show (dat V c).leavesExact 2 t = owns (c : Thread nD τ) (msO t) fullShare ((dat V c).after 2 t) from by
      unfold Dat.leavesExact; rw [live_out t ((last_iff t).mpr h7)], after_out]
    rw [acc_step V c t h0, Phi_castSucc V c t, inv_pos V c _ _ hz]
    iintro ⟨⟨HS, Hr⟩, Ho, ⟨%d0, H0⟩, ⟨%d1, H1⟩, ⟨%d2, H2⟩⟩
    iapply (body_last c Set.univ (grid1.coords t) _ _ _ _ _ _ _ _ (fun h => h0 ((first_iff t).mp h)) ((last_iff t).mpr h7) (blk V c 0 t) (blk V c 1 t) _ _ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat V c) 2 t (idle_out t (fun h => h7 ((last_iff t).mp h))) (keep_out t (fun h => h7 ((last_iff t).mp h)))]
    by_cases h0 : t.val % 8 = 0
    · rw [acc_first V c t h0]
      by_cases hz : t.val = 0
      · rw [Phi_castSucc V c t, inv_zero V c _ _ hz]
        iintro ⟨HΦ, Ho, ⟨%d0, H0⟩, ⟨%d1, H1⟩, ⟨%d2, H2⟩⟩
        ihave HΦ' := (PhiA_split (F := F) c) $$ HΦ
        icases HΦ' with ⟨⟨%s, HS⟩, Hr⟩
        iapply (body_first c Set.univ (grid1.coords t) _ _ _ _ _ _ _ _ ((first_iff t).mpr h0) (fun h => h7 ((last_iff t).mp h)) (blk V c 0 t) (blk V c 1 t) _ s _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
      · rw [Phi_castSucc V c t, inv_pos V c _ _ hz]
        iintro ⟨⟨HS, Hr⟩, Ho, ⟨%d0, H0⟩, ⟨%d1, H1⟩, ⟨%d2, H2⟩⟩
        iapply (body_first c Set.univ (grid1.coords t) _ _ _ _ _ _ _ _ ((first_iff t).mpr h0) (fun h => h7 ((last_iff t).mp h)) (blk V c 0 t) (blk V c 1 t) _ _ _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
    · have hz : t.val ≠ 0 := fun e => h0 (by rw [e])
      rw [acc_step V c t h0, Phi_castSucc V c t, inv_pos V c _ _ hz]
      iintro ⟨⟨HS, Hr⟩, Ho, ⟨%d0, H0⟩, ⟨%d1, H1⟩, ⟨%d2, H2⟩⟩
      iapply (body_mid c Set.univ (grid1.coords t) _ _ _ _ _ _ _ _ (fun h => h0 ((first_iff t).mp h)) (fun h => h7 ((last_iff t).mp h)) (blk V c 0 t) (blk V c 1 t) _ _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends, and the data's plain fields -/

theorem Phi_first (c : Dev nD) : (dat V c).Φ 0 = Pipeline.ΦA spec1 c := rfl

/-- After the last point the accumulator's contents are forgotten: the class invariant again. -/
theorem Phi_last (c : Dev nD) : (dat V c).Φ (Fin.last cfg1.N) ⊢ (Pipeline.ΦA spec1 c : sProp 𝕄) := by
  rw [show (dat V c).Φ (Fin.last cfg1.N) = inv V c (Fin.last cfg1.N).val (Nat.le_of_lt_succ (Fin.last cfg1.N).isLt) from rfl,
    inv_pos V c _ _ (by rw [Fin.val_last]; have : cfg1.N = 256 := N_1; omega)]
  iintro ⟨HS, Hr⟩
  iapply (PhiA_join (F := F) c)
  isplitl [HS]; · iexists _; iexact HS
  iexact Hr

theorem q_full (c : Dev nD) (w : Fin cfg1.W) : (dat V c).q w = fullShare := rfl
theorem owed_zero (c : Dev nD) (t : Fin (cfg1.N + 1)) : (dat V c).owed t = 0 := rfl

end Cert.KernelIdeal.Layer1
end
-- ==== Proof.Layer2Body.lean ====
/-
  One grid point of the third layer's kernel, as a statement about its four buffers.

  The kernel walks a grid (i, j, k) of 8 x 4 x 8 points, k fastest. At a point it holds a block of the activations
  (1024 x 512, rows i, columns k), a block of the ternary weights (512 x 1024, rows k, columns j), the output block
  (1024 x 1024, rows i, columns j) and an accumulator of the output block's shape that lives across points. It
  zeroes the accumulator where k = 0, adds the product of the two input blocks to it at every point, and where
  k = 7 stores the sign of the accumulator into the output block.

  Three statements, one per kind of point (k = 0; 0 < k < 7; k = 7): from the buffers' contents before the point
  to their contents after it, the new accumulator being the body's own arithmetic (the program's named pure terms)
  of the old accumulator and the two input blocks. Each store covers its whole buffer, so what a buffer reads
  after a store is the stored value, whatever it held before.
-/
import proofs.«113464_j3315714752880_2_alg».proof.Proof.Gen.KernelIdeal.Launch
import proofs.«113464_j3315714752880_2_alg».proof.Proof.Gen.KernelIdeal.Skeleton
import proofs.«113464_j3315714752880_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator is reset at the points whose last grid coordinate is 0. -/
abbrev isFirst (i : grid2.Coords) : Prop := (Scalar.cmpi .ne (Scalar.extui (Scalar.cmpi .eq (BitVec.ofNat 32 (i 2).val) 0#32)) 0#32) = 1#1
/-- The output block is stored at the points whose last grid coordinate is 7. -/
abbrev isLast (i : grid2.Coords) : Prop := k2_cond2 i = 1#1

/-- The two zero offsets, however they are spelt, are the zero function (one statement per block shape). -/
theorem offAcc : (![0, 0] : Fin S1024x1024.rank → ℕ) = fun _ => 0 := by
  funext a; match a with | ⟨0, _⟩ => rfl | ⟨1, _⟩ => rfl
theorem offLhs : (![0, 0] : Fin S1024x512.rank → ℕ) = fun _ => 0 := by
  funext a; match a with | ⟨0, _⟩ => rfl | ⟨1, _⟩ => rfl
theorem offRhs : (![0, 0] : Fin S512x1024.rank → ℕ) = fun _ => 0 := by
  funext a; match a with | ⟨0, _⟩ => rfl | ⟨1, _⟩ => rfl

/-- One store through the whole rectangle of a buffer, read back, is its payload, whatever the buffer held
    (any shape: nothing here looks inside the rectangle). -/
theorem read_store_unit {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e) :
    mr.view.read (Elt F) (mr.view.writes (Elt F) f [⟨Rect.unit off S.size inb, p⟩]) = p :=
  (View.read_writes_eq_canon _ _ _ (fun y => ⟨_, List.mem_singleton_self _, View.mem_set_unit_zero h inb y⟩)).trans
    (View.canon_unit_zero h inb p)

/-- A later store through the whole rectangle hides an earlier one. -/
theorem read_store_unit₂ {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e)
    (L : List (View.Piece (Elt F) S e)) :
    mr.view.read (Elt F) (mr.view.writes (Elt F) f (⟨Rect.unit off S.size inb, p⟩ :: L)) = p :=
  (View.read_writes_eq_canon _ _ _ (fun y => ⟨_, List.mem_cons_self, View.mem_set_unit_zero h inb y⟩)).trans
    (View.canon_cons_unit_zero h inb p L)

set_option maxHeartbeats 1000000 in
/-- A point that neither resets the accumulator nor stores the output: the accumulator gains this point's product. -/
theorem body_mid (c : Dev nD) (E : Set ℕ) (i : grid2.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬isFirst i) (hc1 : ¬isLast i)
    (x : Vec F S1024x512 .bf16) (w : Vec F S512x1024 .bf16) (y : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k2_pay2 s x w)) -∗ K ⟨⟩))
      ⊢ wp frame (wpE (defs₀ (F := F)) Variants.none c none) E (cc2__layer_kernel i arg3 harg3 arg4 harg4 arg5 harg5 arg6 harg6) K := by
  simp only [cc2__layer_kernel_eq_skeleton]; unfold cc2__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that resets the accumulator: it ends at this point's product over the zero block. -/
theorem body_first (c : Dev nD) (E : Set ℕ) (i : grid2.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : isFirst i) (hc1 : ¬isLast i)
    (x : Vec F S1024x512 .bf16) (w : Vec F S512x1024 .bf16) (y : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k2_pay2 (k2_pay1 (F := F)) x w)) -∗ K ⟨⟩))
      ⊢ wp frame (wpE (defs₀ (F := F)) Variants.none c none) E (cc2__layer_kernel i arg3 harg3 arg4 harg4 arg5 harg5 arg6 harg6) K := by
  simp only [cc2__layer_kernel_eq_skeleton]; unfold cc2__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that stores the output: the accumulator gains this point's product and the output block is its sign. -/
theorem body_last (c : Dev nD) (E : Set ℕ) (i : grid2.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬isFirst i) (hc1 : isLast i)
    (x : Vec F S1024x512 .bf16) (w : Vec F S512x1024 .bf16) (y : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare (k2_pay3 (k2_pay2 s x w)) ∗ owns (c : Thread nD τ) arg6 fullShare (k2_pay2 s x w)) -∗ K ⟨⟩))
      ⊢ wp frame (wpE (defs₀ (F := F)) Variants.none c none) E (cc2__layer_kernel i arg3 harg3 arg4 harg4 arg5 harg5 arg6 harg6) K := by
  simp only [cc2__layer_kernel_eq_skeleton]; unfold cc2__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_run_names
    rw [read_store_unit (S := S1024x1024) arg5 _ offAcc]
    simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]
  iexists _; isplitr
  swap; · iexact H6
  ipureintro
  sl_unfold_run_names
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

end Cert.KernelIdeal.Layer2
end
-- ==== Proof.Layer2Data.lean ====
/-
  The third layer's kernel over its whole grid: what its buffers hold from point to point.

  The 256 grid points run in order, the reduction coordinate k fastest, so each output block (i, j) is visited
  in a run of eight consecutive points k = 0 … 7. The accumulator after point n is defined by recursion on n: the
  point's product of its two input blocks added to the zero block when n ≡ 0 (mod 8), to the accumulator of the
  point before otherwise. The output block's staging buffer is stored into, and written back to the array, only at
  the points n ≡ 7 (mod 8), where it receives the sign of the accumulator; at the other points it is handed back as
  it came. Between points the kernel's accumulator buffer holds that recursion's value, and every other scoped
  buffer and the generator register are left alone. From the three per-point statements this gives the
  pipeline's obligation at every point, and at the region's two ends the invariant is the plain one (the
  accumulator at anything).
-/
import proofs.«113464_j3315714752880_2_alg».proof.Proof.Gen.KernelIdeal.Launch
import proofs.«113464_j3315714752880_2_alg».proof.Proof.Gen.KernelIdeal.Skeleton
import proofs.«113464_j3315714752880_2_alg».proof.Proof.Gen.KernelIdeal.Points
import proofs.«113464_j3315714752880_2_alg».proof.Proof.Layer2Body
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where on the grid the accumulator is reset and the output stored -/

/-- The last coordinate is the fastest: it is 0 at the points ≡ 0 (mod 8) — decided over the grid. -/
theorem first_iff : ∀ t : Fin cfg2.N, isFirst (grid2.coords t) ↔ t.val % 8 = 0 :=
  (by decide +kernel : ∀ t : Fin grid2.N, isFirst (grid2.coords t) ↔ t.val % 8 = 0)
/-- and 7 at the points ≡ 7 (mod 8). -/
theorem last_iff : ∀ t : Fin cfg2.N, isLast (grid2.coords t) ↔ t.val % 8 = 7 :=
  (by decide +kernel : ∀ t : Fin grid2.N, isLast (grid2.coords t) ↔ t.val % 8 = 7)
/-- The two inputs are used at every point. -/
theorem live_lhs : ∀ t : Fin cfg2.N, cfg2.idle 0 (grid2.coords t) = false := by decide +kernel
theorem live_rhs : ∀ t : Fin cfg2.N, cfg2.idle 1 (grid2.coords t) = false := by decide +kernel
/-- Away from the last coordinate's end the output block is neither stored into nor written back. -/
theorem idle_out : ∀ t : Fin cfg2.N, ¬isLast (grid2.coords t) → cfg2.idle 2 (grid2.coords t) = true := by decide +kernel
theorem keep_out : ∀ t : Fin cfg2.N, ¬isLast (grid2.coords t) → (cfg2.win 2).flush t = false := by decide +kernel
/-- At its end the output block is stored. -/
theorem live_out : ∀ t : Fin cfg2.N, isLast (grid2.coords t) → cfg2.idle 2 (grid2.coords t) = false := by decide +kernel

/-! ## The blocks and the running accumulator -/

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, for any proof data over these arrays that leaves it in place. -/
theorem before_lhs {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_rhs {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The accumulator after point `n`: this point's product added to the zero block where the last coordinate is 0,
    to what the point before left otherwise. -/
def acc (c : Dev nD) : (n : ℕ) → n < cfg2.N → Vec F S1024x1024 .f32
  | 0, h => k2_pay2 k2_pay1 (blk V c 0 ⟨0, h⟩) (blk V c 1 ⟨0, h⟩)
  | n + 1, h => k2_pay2 (if (n + 1) % 8 = 0 then k2_pay1 else acc c n (Nat.lt_of_succ_lt h)) (blk V c 0 ⟨n + 1, h⟩) (blk V c 1 ⟨n + 1, h⟩)

theorem acc_first (c : Dev nD) (t : Fin cfg2.N) (h0 : t.val % 8 = 0) :
    acc V c t.val t.isLt = k2_pay2 k2_pay1 (blk V c 0 t) (blk V c 1 t) := by
  obtain ⟨n, hn⟩ := t
  cases n with
  | zero => rfl
  | succ n =>
    show k2_pay2 (if (n + 1) % 8 = 0 then k2_pay1 else acc V c n _) _ _ = _
    rw [if_pos h0]

theorem acc_step (c : Dev nD) (t : Fin cfg2.N) (h0 : ¬t.val % 8 = 0) :
    acc V c t.val t.isLt = k2_pay2 (acc V c (t.val - 1) (Nat.lt_of_le_of_lt (Nat.sub_le _ _) t.isLt)) (blk V c 0 t) (blk V c 1 t) := by
  obtain ⟨n, hn⟩ := t
  cases n with
  | zero => exact absurd (Nat.zero_mod _) h0
  | succ n =>
    show k2_pay2 (if (n + 1) % 8 = 0 then k2_pay1 else acc V c n _) _ _ = _
    rw [if_neg h0]; rfl

/-! ## The region's invariant -/

/-- The kernel's accumulator: a whole scoped buffer of its own. -/
abbrev scM : Memref sig .tc .vmem S1024x1024 .f32 := Memref.whole cc2_scratch0

/-- Every other scoped buffer that is no staging buffer of this call (the other calls' staging buffers and
    accumulators), each at some contents, and the generator register at some state: untouched by this call. -/
def others (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scratch_listed : ([cc2_scratch0] : List (Ref sig .tc)).Forall fun b => b.isScoped = true ∧ ∀ (w : Fin 3) (s : Fin (spec2 w).nbuf), ((spec2 w).stage s).view.ref ≠ b := by
  simp only [List.Forall]; exact ⟨rfl, by decide⟩

/-- The class invariant with this call's accumulator singled out. -/
theorem PhiA_eq (c : Dev nD) : (Pipeline.ΦA spec2 c : sProp 𝕄)
    = iprop(iprop((∃ d, owns (c : Thread nD τ) scM fullShare d) ∗ Pipeline.scopedRestBut (Ix := Unit) (Name := ℕ) (U := UR sig nD τ) (Lvl := ℕ) (Val := Elt F) spec2 c [cc2_scratch0]) ∗ ∃ r, prngReg c r) := by
  unfold Pipeline.ΦA
  rw [Pipeline.scopedRest_split_of_list spec2 c [cc2_scratch0] scratch_listed (by decide)]
  simp only [bigSepL_singleton, scM, owns_whole]
  rfl

theorem PhiA_split (c : Dev nD) : (Pipeline.ΦA spec2 c : sProp 𝕄) ⊢ iprop((∃ d, owns (c : Thread nD τ) scM fullShare d) ∗ others (F := F) c) := by
  rw [PhiA_eq]; unfold others
  iintro ⟨⟨HS, Hb⟩, Hg⟩
  isplitl [HS]; · iexact HS
  isplitl [Hb]; · iexact Hb
  iexact Hg

theorem PhiA_join (c : Dev nD) : iprop((∃ d, owns (c : Thread nD τ) scM fullShare d) ∗ others (F := F) c) ⊢ (Pipeline.ΦA spec2 c : sProp 𝕄) := by
  rw [PhiA_eq]; unfold others
  iintro ⟨HS, Hb, Hg⟩
  isplitl [HS Hb]
  · isplitl [HS]; · iexact HS
    iexact Hb
  iexact Hg

/-- Before the first point the class invariant; after point `n` the accumulator at `acc n` beside the rest. -/
def inv (c : Dev nD) : (n : ℕ) → n ≤ cfg2.N → sProp 𝕄
  | 0, _ => Pipeline.ΦA spec2 c
  | n + 1, h => iprop(owns (c : Thread nD τ) scM fullShare (acc V c n h) ∗ others c)

theorem inv_zero (c : Dev nD) (n : ℕ) (h : n ≤ cfg2.N) (hz : n = 0) : inv V c n h = Pipeline.ΦA spec2 c := by
  subst hz; rfl
theorem inv_succ (c : Dev nD) (n : ℕ) (hn : n < cfg2.N) :
    inv V c (n + 1) hn = iprop(owns (c : Thread nD τ) scM fullShare (acc V c n hn) ∗ others c) := rfl
theorem inv_pos (c : Dev nD) (n : ℕ) (h : n ≤ cfg2.N) (hz : n ≠ 0) :
    inv V c n h = iprop(owns (c : Thread nD τ) scM fullShare (acc V c (n - 1) (by omega)) ∗ others c) := by
  cases n with
  | zero => exact absurd rfl hz
  | succ n => rfl

/-! ## The proof data -/

/-- The arrays as the region finds them; after a point the inputs' buffers at their blocks and the output's at the
    sign of the accumulator (consulted only where the last coordinate is 7); the invariant above; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => k2_pay3 (acc V c t.val t.isLt)
  Φ t := inv V c t.val (Nat.le_of_lt_succ t.isLt)
  q _ := fullShare
  owed _ := 0

theorem A_eq (c : Dev nD) (w : Fin cfg2.W) : (dat V c).A w = V c (Pipeline.arrRef spec2 w) := by dsimp only [dat]
theorem after_lhs (c : Dev nD) (t : Fin cfg2.N) : (dat V c).after 0 t = blk V c 0 t := by dsimp only [dat]
theorem after_rhs (c : Dev nD) (t : Fin cfg2.N) : (dat V c).after 1 t = blk V c 1 t := by dsimp only [dat]
theorem after_out (c : Dev nD) (t : Fin cfg2.N) : (dat V c).after 2 t = k2_pay3 (acc V c t.val t.isLt) := by dsimp only [dat]
theorem Phi_castSucc (c : Dev nD) (t : Fin cfg2.N) : (dat V c).Φ t.castSucc = inv V c t.val (Nat.le_of_lt t.isLt) := by
  dsimp only [dat]; simp only [Fin.coe_castSucc]
theorem found_lhs (c : Dev nD) (t : Fin cfg2.N) (d) : (dat V c).before 0 t d = blk V c 0 t :=
  before_lhs V (dat V c) (A_eq V c 0) (after_lhs V c) t d
theorem found_rhs (c : Dev nD) (t : Fin cfg2.N) (d) : (dat V c).before 1 t d = blk V c 1 t :=
  before_rhs V (dat V c) (A_eq V c 1) (after_rhs V c) t d

/-! ## The body obligation -/

/-- Each window's current staging buffer at point `t`, as the pipeline passes it to the body. -/
abbrev msL (t : Fin cfg2.N) : Memref sig .tc .vmem S1024x512 .bf16 := win2_0.stage (cfg2.slots t 0)
abbrev msR (t : Fin cfg2.N) : Memref sig .tc .vmem S512x1024 .bf16 := win2_1.stage (cfg2.slots t 1)
abbrev msO (t : Fin cfg2.N) : Memref sig .tc .vmem S1024x1024 .f32 := win2_2.stage (cfg2.slots t 2)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (msL t) fullShare ((dat V c).before 0 t d))
    ∗ (∃ d, owns (c : Thread nD τ) (msR t) fullShare ((dat V c).before 1 t d))
    ∗ (∃ d, owns (c : Thread nD τ) (msO t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4000000 in
/-- The body at any point. The inputs' buffers hold their blocks; the position of the point in its run of eight says
    which of the three statements applies; the invariant hands over the accumulator at what the point before left
    (at anything before the very first point) and takes it back at this point's value; where the output block is
    not stored its buffer goes back as it came. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [found_lhs, found_rhs]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msL t) fullShare ((dat V c).after 0 t) from by
    unfold Dat.leavesExact; rw [live_lhs t], after_lhs]
  rw [show (dat V c).leavesExact 1 t = owns (c : Thread nD τ) (msR t) fullShare ((dat V c).after 1 t) from by
    unfold Dat.leavesExact; rw [live_rhs t], after_rhs]
  have hN : t.val < 256 := lt_of_lt_of_eq t.isLt (show cfg2.N = 256 from N_2)
  by_cases h7 : t.val % 8 = 7
  · have h0 : ¬t.val % 8 = 0 := by omega
    have hz : t.val ≠ 0 := by omega
    rw [show (dat V c).leavesExact 2 t = owns (c : Thread nD τ) (msO t) fullShare ((dat V c).after 2 t) from by
      unfold Dat.leavesExact; rw [live_out t ((last_iff t).mpr h7)], after_out]
    rw [acc_step V c t h0, Phi_castSucc V c t, inv_pos V c _ _ hz]
    iintro ⟨⟨HS, Hr⟩, Ho, ⟨%d0, H0⟩, ⟨%d1, H1⟩, ⟨%d2, H2⟩⟩
    iapply (body_last c Set.univ (grid2.coords t) _ _ _ _ _ _ _ _ (fun h => h0 ((first_iff t).mp h)) ((last_iff t).mpr h7) (blk V c 0 t) (blk V c 1 t) _ _ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat V c) 2 t (idle_out t (fun h => h7 ((last_iff t).mp h))) (keep_out t (fun h => h7 ((last_iff t).mp h)))]
    by_cases h0 : t.val % 8 = 0
    · rw [acc_first V c t h0]
      by_cases hz : t.val = 0
      · rw [Phi_castSucc V c t, inv_zero V c _ _ hz]
        iintro ⟨HΦ, Ho, ⟨%d0, H0⟩, ⟨%d1, H1⟩, ⟨%d2, H2⟩⟩
        ihave HΦ' := (PhiA_split (F := F) c) $$ HΦ
        icases HΦ' with ⟨⟨%s, HS⟩, Hr⟩
        iapply (body_first c Set.univ (grid2.coords t) _ _ _ _ _ _ _ _ ((first_iff t).mpr h0) (fun h => h7 ((last_iff t).mp h)) (blk V c 0 t) (blk V c 1 t) _ s _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
      · rw [Phi_castSucc V c t, inv_pos V c _ _ hz]
        iintro ⟨⟨HS, Hr⟩, Ho, ⟨%d0, H0⟩, ⟨%d1, H1⟩, ⟨%d2, H2⟩⟩
        iapply (body_first c Set.univ (grid2.coords t) _ _ _ _ _ _ _ _ ((first_iff t).mpr h0) (fun h => h7 ((last_iff t).mp h)) (blk V c 0 t) (blk V c 1 t) _ _ _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
    · have hz : t.val ≠ 0 := fun e => h0 (by rw [e])
      rw [acc_step V c t h0, Phi_castSucc V c t, inv_pos V c _ _ hz]
      iintro ⟨⟨HS, Hr⟩, Ho, ⟨%d0, H0⟩, ⟨%d1, H1⟩, ⟨%d2, H2⟩⟩
      iapply (body_mid c Set.univ (grid2.coords t) _ _ _ _ _ _ _ _ (fun h => h0 ((first_iff t).mp h)) (fun h => h7 ((last_iff t).mp h)) (blk V c 0 t) (blk V c 1 t) _ _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant at the region's two ends, and the data's plain fields -/

theorem Phi_first (c : Dev nD) : (dat V c).Φ 0 = Pipeline.ΦA spec2 c := rfl

/-- After the last point the accumulator's contents are forgotten: the class invariant again. -/
theorem Phi_last (c : Dev nD) : (dat V c).Φ (Fin.last cfg2.N) ⊢ (Pipeline.ΦA spec2 c : sProp 𝕄) := by
  rw [show (dat V c).Φ (Fin.last cfg2.N) = inv V c (Fin.last cfg2.N).val (Nat.le_of_lt_succ (Fin.last cfg2.N).isLt) from rfl,
    inv_pos V c _ _ (by rw [Fin.val_last]; have : cfg2.N = 256 := N_2; omega)]
  iintro ⟨HS, Hr⟩
  iapply (PhiA_join (F := F) c)
  isplitl [HS]; · iexists _; iexact HS
  iexact Hr

theorem q_full (c : Dev nD) (w : Fin cfg2.W) : (dat V c).q w = fullShare := rfl
theorem owed_zero (c : Dev nD) (t : Fin (cfg2.N + 1)) : (dat V c).owed t = 0 := rfl

end Cert.KernelIdeal.Layer2
end
-- ==== Proof.RegionProofs.lean ====
/-
  The three kernel regions' proof data, gathered in the form the program's run over its three regions takes them:
  for each layer, the contents of its buffers from point to point (the running accumulator), the pipeline's
  obligation met at every point, and the plain invariant at the region's two ends.
-/
import proofs.«113464_j3315714752880_2_alg».proof.Proof.ThreeRegionSegs
import proofs.«113464_j3315714752880_2_alg».proof.Proof.Layer0Data
import proofs.«113464_j3315714752880_2_alg».proof.Proof.Layer1Data
import proofs.«113464_j3315714752880_2_alg».proof.Proof.Layer2Data

noncomputable section

namespace Cert.KernelIdeal.ThreeRegions

open Idealize.ShloMosaic Idealize.ShloMosaic.TcCoe
open Idealize.SL Idealize.SL.BI
open scoped Idealize.SL.BI
open Cert.KernelIdeal Cert.KernelIdeal.Gen

variable {F : FTy → Type} [FloatOps F]

/-- The first layer's region. -/
def proof0 : RegionProof F cfg0 where
  dat := Layer0.dat
  hA := Layer0.A_eq
  hq := Layer0.q_full
  howed := Layer0.owed_zero
  hrec := fun _ _ => rfl
  hΦ0 := fun V c => by rw [Layer0.Phi_first]
  hΦN := Layer0.Phi_last
  hbody := Layer0.body_obligation

/-- The second layer's region. -/
def proof1 : RegionProof F cfg1 where
  dat := Layer1.dat
  hA := Layer1.A_eq
  hq := Layer1.q_full
  howed := Layer1.owed_zero
  hrec := fun _ _ => rfl
  hΦ0 := fun V c => by rw [Layer1.Phi_first]
  hΦN := Layer1.Phi_last
  hbody := Layer1.body_obligation

/-- The third layer's region. -/
def proof2 : RegionProof F cfg2 where
  dat := Layer2.dat
  hA := Layer2.A_eq
  hq := Layer2.q_full
  howed := Layer2.owed_zero
  hrec := fun _ _ => rfl
  hΦ0 := fun V c => by rw [Layer2.Phi_first]
  hΦN := Layer2.Phi_last
  hbody := Layer2.body_obligation

end Cert.KernelIdeal.ThreeRegions

end
-- ==== Proof.ThreeRegionRun.lean ====
/-
  The run of the whole program from the three regions' proof data.

  Launched from any memory with zero counters, every weakly fair execution terminates; at the end each argument
  array holds its launch contents (no host operation and no region writes one), and the result array holds what the
  last region's write-backs leave of it. The contents a region is entered from are read back buffer by buffer: an
  input that an earlier region produced holds that region's output, and every other buffer what the host operations
  before the first region left.
-/
import proofs.«113464_j3315714752880_2_alg».proof.Proof.ThreeRegionSegs

noncomputable section

namespace Cert.KernelIdeal.ThreeRegions

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
variable (P0 : RegionProof F cfg0) (P1 : RegionProof F cfg1) (P2 : RegionProof F cfg2)

/-! ## Reading the chain of contents back

What a region finds in each of its operands, in terms of the stage before: its first operand is the previous
region's output as that region leaves it (the launch's first argument for region 0), its second a host result no
region touches. -/

theorem entry0_apply (c : Dev nD) (b : Ref sig .tc) : entry0 m c b = V12 m c b := rfl
theorem entry1_main_v9 (c : Dev nD) : entry1 m P0 c main_v9 = (P0.dat (entry0 m) c).arrAt 2 cfg0.N :=
  (exit0_arr m P0 c 2).symm
theorem entry1_of_ne (c : Dev nD) {b : Ref sig .tc} (hb : b ≠ main_v9) : entry1 m P0 c b = V12 m c b :=
  update_at_ne hb (val0 m c) (out0 m P0 c)
theorem entry1_main_v5 (c : Dev nD) : entry1 m P0 c main_v5 = V12 m c main_v5 := entry1_of_ne m P0 c (by decide)
theorem entry2_main_v10 (c : Dev nD) : entry2 m P0 P1 c main_v10 = (P1.dat (entry1 m P0) c).arrAt 2 cfg1.N :=
  (exit1_arr m P0 P1 c 2).symm
theorem entry2_of_ne (c : Dev nD) {b : Ref sig .tc} (hb : b ≠ main_v10) : entry2 m P0 P1 c b = entry1 m P0 c b :=
  update_at_ne hb (val1 m P0 c) (out1 m P0 P1 c)
theorem entry2_main_v8 (c : Dev nD) : entry2 m P0 P1 c main_v8 = V12 m c main_v8 :=
  (entry2_of_ne m P0 P1 c (by decide)).trans (entry1_of_ne m P0 c (by decide))
theorem exit2_main_v11 (c : Dev nD) : exit2 m P0 P1 P2 c main_v11 = (P2.dat (entry2 m P0 P1) c).arrAt 2 cfg2.N :=
  (exit2_arr m P0 P1 P2 c 2).symm

/-- The same, at the generated fold's own names. -/
theorem V13_main_v9 (c : Dev nD) : V13 m (outs m P0 P1 P2) c main_v9 = (P0.dat (entry0 m) c).arrAt 2 cfg0.N :=
  (congrFun (V13_eq m P0 P1 P2 c) _).trans (entry1_main_v9 m P0 c)
theorem V13_main_v5 (c : Dev nD) : V13 m (outs m P0 P1 P2) c main_v5 = V12 m c main_v5 :=
  V13_of m (outs m P0 P1 P2) c main_v5 (by decide)
theorem V14_main_v10 (c : Dev nD) : V14 m (outs m P0 P1 P2) c main_v10 = (P1.dat (entry1 m P0) c).arrAt 2 cfg1.N :=
  (congrFun (V14_eq m P0 P1 P2 c) _).trans (entry2_main_v10 m P0 P1 c)
theorem V14_main_v8 (c : Dev nD) : V14 m (outs m P0 P1 P2) c main_v8 = V12 m c main_v8 :=
  (V14_of m (outs m P0 P1 P2) c main_v8 (by decide)).trans (V13_of m (outs m P0 P1 P2) c main_v8 (by decide))
theorem V15_main_v11 (c : Dev nD) : V15 m (outs m P0 P1 P2) c main_v11 = (P2.dat (entry2 m P0 P1) c).arrAt 2 cfg2.N :=
  (congrFun (V15_eq m P0 P1 P2 c) _).trans (exit2_main_v11 m P0 P1 P2 c)
/-- Each region is entered at the generated fold's valuation before it. -/
theorem entry1_eq : entry1 m P0 = fun c (b : Ref sig .tc) => V13 m (outs m P0 P1 P2) c b := by
  funext c b; exact (congrFun (V13_eq m P0 P1 P2 c) _).symm
theorem entry2_eq : entry2 m P0 P1 = fun c (b : Ref sig .tc) => V14 m (outs m P0 P1 P2) c b := by
  funext c b; exact (congrFun (V14_eq m P0 P1 P2 c) _).symm

/-! ## The launch -/

/-- The launch's ghost element: the rounds library's, at every pipeline's staging cells. -/
abbrev u₀ : UR sig nD τ := initOf (Pipeline.cells cfgs cellOf_inj) (Pipeline.launchToks cfgs cellOf_inj)

/-- It is all the launch has to give: no core gets a ghost resource of its own. -/
theorem launch_elem : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const]
  iintro Hu; imodintro
  isplitl [Hu]
  · iapply (show (ownU u₀ : sProp 𝕄) ⊢ BI.own (emb₁ u₀) from .rfl); iexact Hu
  iempintro

/-- What the launch deals a core, the buffers apart, makes `rest`: the generator register at its launch state, the core
    owing nothing. -/
theorem launch_rest (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => rest c) : sProp 𝕄) := by
  refine Pipeline.initEach L lv fun c => ?_
  iintro ⟨⟨-, Howes, -, Hgen, -⟩, -⟩
  imodintro
  isplitl [Hgen]; · iexists _; iexact Hgen
  iexists ∅; iexact Howes

theorem rest_owes (c : Dev nD) :
    rest c ⊢ (iprop(∃ W, owes (c : Thread nD τ) (0 : CellTallies nD τ sig Unit) W) : sProp 𝕄) := by
  iintro ⟨-, Howes⟩; iexact Howes

/-! ## The frame -/

include P0 P1 P2 in
set_option backward.isDefEq.respectTransparency.types false in
/-- The program runs and its four argument arrays end as launched: the generated conditional frame at the three
    records, each entered from the fold's valuation before it and left at the one after it. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m (EP := emb₁) (ι := ()) (𝒱₀ := Variants.none) (L := L) (lv := lv) (hL := fun _ _ => rfl) (ρ := ρ)
    (outs := outs m P0 P1 P2) (pdats := pdats m P0 P1 P2) (O₀ := fun _ => 0) (G := fun _ => (BI.emp : sProp 𝕄)) (u₀ := u₀)
    (hu₀ := launch_elem) (E := fun _ c => rest c) (hE0 := launch_rest ρ) (hE3 := rest_owes)
    (R0 := reg0 m P0 P1 P2) (hpre0 := fun c => .rfl)
    (hpost0 := fun c => by rw [V13_eq m P0 P1 P2 c]; exact .rfl)
    (R1 := reg1 m P0 P1 P2) (hpre1 := fun c => by rw [V13_eq m P0 P1 P2 c]; exact .rfl)
    (hpost1 := fun c => by rw [V14_eq m P0 P1 P2 c]; exact .rfl)
    (R2 := reg2 m P0 P1 P2) (hpre2 := fun c => by rw [V14_eq m P0 P1 P2 c]; exact .rfl)
    (hpost2 := fun c => by rw [V15_eq m P0 P1 P2 c]; exact .rfl)

/-! ## The run, with the result

The generated conditional frame reads only the arguments off the last valuation. Here the same segments are launched
once more and every unscoped buffer is read off it: the arguments as before, and the result array `main_v11` at what
the last region's write-backs leave. -/

/-- An unscoped TensorCore reference is among the buffers the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- Every unscoped buffer ends at the last valuation of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = val3 m P0 P1 P2 c b) := by
  refine Pipeline.θ_run_regions_kit_dev (pcfgs (F := F)) adm (pdats m P0 P1 P2) () cellOf_inj emb₁ defs₀ Variants.none L lv m ρ main
    (segs m Variants.none L lv (fun _ c => rest c) () (pdats m P0 P1 P2) (reg0 m P0 P1 P2) (reg1 m P0 P1 P2) (reg2 m P0 P1 P2))
    (fun c Q => ?hmain) (fun c => ?hnd) (fun _ => 0) (fun _ _ => rfl) (fun _ => (BI.emp : sProp 𝕄)) u₀ launch_elem
    (T₀ := fun c => iprop(StableHlo.held (c : Thread nD τ) (Pipeline.ucRefs τ sig) (V0 m c) ∗ rest c))
    (Tₙ := fun c => StableHlo.held (c : Thread nD τ) (Pipeline.ucRefs τ sig) (val3 m P0 P1 P2 c))
    (hch := fun c => ⟨.rfl, .rfl, .rfl, .rfl, .rfl, .rfl, .rfl, .rfl, .rfl, .rfl, .rfl, .rfl, .rfl, .rfl, .rfl,
      sep_mono .rfl (rest_owes c)⟩)
    (hinit := ?hinit)
    (QY := fun c s => ∀ b ∈ Pipeline.ucRefs τ sig, s.mem ((c : Thread nD τ).1, b) = val3 m P0 P1 P2 c b)
    (hfin := fun c s' => ?hfin) (hQ := fun _ h => h)
  case hmain =>
    -- @main is the chain of its items, and so is the run of the segments
    rewrite [main_chain c, Pipeline.Seg.run_eq_chain]
    exact .rfl
  case hnd =>
    simp only [segs, Pipeline.Seg.pipes_host, Pipeline.Seg.pipes_region, Pipeline.Seg.pipes_nil]; decide
  case hinit =>
    -- per core: the unscoped buffers are held at the launch contents, the rest of the deal makes `rest`
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hgen, -⟩, -⟩
    imodintro
    isplitl [Hbufs]; · iexact Hbufs
    isplitl [Hgen]; · iexists _; iexact Hgen
    iexists ∅; iexact Howes
  case hfin =>
    unfold StableHlo.held
    iintro ⟨Hbufs, HSI⟩
    imodintro
    iapply (pointsTo_read_all (Pipeline.ucRefs τ sig) (fun b => ((c : Thread nD τ).1, b)) (val3 m P0 P1 P2 c) s')
    isplitl [Hbufs] <;> iassumption

/-- THE RUN WITH ITS VALUE: the program terminates, the result array holds what the third region's write-backs leave
    — that region entered from the second's result, the second from the first's —, and the arguments are as launched. -/
theorem run_value (ρ : Dev nD → PrngReg) :
    θ_run defs (onTc (τ := τ) (main (F := F))) ⟨m, fun _ => 0, ρ⟩ (fun r => ∀ c : Dev nD,
      r.2.mem ((c.tc : Thread nD τ).loc main_v11) = (P2.dat (entry2 m P0 P1) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  OrdCont.mono (θ_run defs (onTc (τ := τ) (main (F := F))) ⟨m, fun _ => 0, ρ⟩) (fun r h c =>
    ⟨(h c _ (mem_uc main_v11 (by decide))).trans (exit2_main_v11 m P0 P1 P2 c),
     (h c _ (mem_uc main_arg0 (by decide))).trans ((congrFun (V15_eq m P0 P1 P2 c).symm _).trans (V15_main_arg0 m (outs m P0 P1 P2) c)),
     (h c _ (mem_uc main_arg1 (by decide))).trans ((congrFun (V15_eq m P0 P1 P2 c).symm _).trans (V15_main_arg1 m (outs m P0 P1 P2) c)),
     (h c _ (mem_uc main_arg2 (by decide))).trans ((congrFun (V15_eq m P0 P1 P2 c).symm _).trans (V15_main_arg2 m (outs m P0 P1 P2) c)),
     (h c _ (mem_uc main_arg3 (by decide))).trans ((congrFun (V15_eq m P0 P1 P2 c).symm _).trans (V15_main_arg3 m (outs m P0 P1 P2) c))⟩) (run_all m P0 P1 P2 ρ)

end Cert.KernelIdeal.ThreeRegions

end
-- ==== Proof.WordThreeRegionSegs.lean ====
/-
  (The program as printed, its floats read as machine words: the statements below do not look inside the body's
  arithmetic, so they read the same as for the idealized program.)

  The program's three kernel regions as segments of its run.

  Between two items of the program a core holds every unscoped buffer at known contents: the launch memory pushed
  through the host operations before the first region, then, region by region, the region's output array replaced
  by what its write-backs leave (the entry contents overwritten block by block) and every other buffer untouched.
  A region is entered by splitting its windows' arrays out of those buffers, runs its pipeline from per-region proof
  data whose invariant at the region's two ends is the plain one (every scoped buffer that is no staging buffer at
  some contents, the generator register at some state), and is left by putting the arrays back at their final
  contents. Nothing is owed to another core at any point, and the kernels have no semaphores of their own.
-/
import proofs.«113464_j3315714752880_2_alg».proof.Proof.Gen.Kernel.Regions
import Idealize.ShloMosaic.Lib.Pipeline.RegionsLoop
import Idealize.ShloMosaic.Lib.Pipeline.Kit

noncomputable section

namespace Cert.Kernel.ThreeRegions

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel Cert.Kernel.Gen

variable {F : FTy → Type} [BitOps F]

local notation "𝕄" => MT nD τ sig Unit (Elt F) ℕ (UR sig nD τ) ℕ

/-- A core's TensorCore buffers, each at some contents: what a region is entered from. -/
abbrev Contents (F : FTy → Type) : Type :=
  (c : Dev nD) → (b : Ref sig .tc) → Buf (Elt F) ((c : Thread nD τ).loc b)

/-- What is assumed of one kernel region, pipeline `cfg`: for any entry contents `V`, proof data whose arrays are
    read off `V`, holding every input whole, owing nothing at any point and recording no bound at the first, whose
    invariant is the class invariant (the scoped rest and the generator register) at the region's two ends, and whose
    body meets its obligation at every point. -/
structure RegionProof (F : FTy → Type) [BitOps F] (cfg : Cfg sig Λ₀) where
  dat : (V : Contents F) → (c : Dev nD) → Dat τ (Elt F) Unit ℕ (UR sig nD τ) ℕ cfg c
  hA : ∀ V c w, (dat V c).A w = V c (Pipeline.arrRef cfg.spec w)
  hq : ∀ V c w, (dat V c).q w = fullShare
  howed : ∀ V c t, (dat V c).owed t = 0
  hrec : ∀ V c, (dat V c).recorded 0 = Set.univ
  hΦ0 : ∀ V c, Pipeline.ΦA cfg.spec c ⊢ (dat V c).Φ 0
  hΦN : ∀ V c, (dat V c).Φ (Fin.last cfg.N) ⊢ Pipeline.ΦA cfg.spec c
  hbody : ∀ V c, BodyObligation (dat V c) (defs₀ (F := F)) Variants.none () Set.univ

variable (m : (ℓ : Loc nD τ sig) → Buf (Elt F) ℓ)
variable (P0 : RegionProof F cfg0) (P1 : RegionProof F cfg1) (P2 : RegionProof F cfg2)

/-! ## The buffers' contents at each region's two ends -/

/-- Region 0 is entered from what the last host stretch leaves. -/
def val0 (c : Dev nD) : Valuation τ sig (Elt F) := V12 m c
def entry0 : Contents F := fun c b => val0 m c b
/-- What region 0 leaves in its output array. -/
def out0 (c : Dev nD) : Buf (Elt F) ((c : Thread nD τ).loc main_v9) := (P0.dat (entry0 m) c).arrAt 2 cfg0.N
/-- Region 1 is entered from region 0's entry contents with `main_v9` at what region 0 leaves there. -/
def val1 (c : Dev nD) : Valuation τ sig (Elt F) := Function.update (val0 m c) main_v9 (out0 m P0 c)
def entry1 : Contents F := fun c b => val1 m P0 c b
def out1 (c : Dev nD) : Buf (Elt F) ((c : Thread nD τ).loc main_v10) := (P1.dat (entry1 m P0) c).arrAt 2 cfg1.N
def val2 (c : Dev nD) : Valuation τ sig (Elt F) := Function.update (val1 m P0 c) main_v10 (out1 m P0 P1 c)
def entry2 : Contents F := fun c b => val2 m P0 P1 c b
def out2 (c : Dev nD) : Buf (Elt F) ((c : Thread nD τ).loc main_v11) := (P2.dat (entry2 m P0 P1) c).arrAt 2 cfg2.N
def val3 (c : Dev nD) : Valuation τ sig (Elt F) := Function.update (val2 m P0 P1 c) main_v11 (out2 m P0 P1 P2 c)

/-- What the last region leaves, read at the TensorCore's references. -/
def exit2 : Contents F := fun c b => val3 m P0 P1 P2 c b

/-- The regions' unknowns of the generated fold: whatever the item, the buffer as the last region leaves it. -/
def outs : Outs (F := F) := fun _ r c => val3 m P0 P1 P2 c r

/-- A write at one TensorCore reference leaves every other one's contents alone. -/
theorem update_at_ne {x y : Ref sig .tc} (h : x ≠ y) (f : Valuation τ sig (Elt F)) (v) :
    Function.update f (Proc.devRef .tc y) v (Proc.devRef .tc x) = f (Proc.devRef .tc x) :=
  Function.update_of_ne (StableHlo.devRef_ne_of_ne h) v f

theorem outs_main_v9 (J : ℕ) (c : Dev nD) : outs m P0 P1 P2 J main_v9 c = out0 m P0 c := by
  unfold outs val3 val2 val1
  rw [update_at_ne (by decide), update_at_ne (by decide), Function.update_self]
theorem outs_main_v10 (J : ℕ) (c : Dev nD) : outs m P0 P1 P2 J main_v10 c = out1 m P0 P1 c := by
  unfold outs val3 val2
  rw [update_at_ne (by decide), Function.update_self]
theorem outs_main_v11 (J : ℕ) (c : Dev nD) : outs m P0 P1 P2 J main_v11 c = out2 m P0 P1 P2 c := by
  unfold outs val3
  rw [Function.update_self]

/-- The generated fold at these unknowns is the chain of contents above. -/
theorem V13_eq (c : Dev nD) : V13 m (outs m P0 P1 P2) c = val1 m P0 c := by
  unfold V13 val1 val0; rw [outs_main_v9]
theorem V14_eq (c : Dev nD) : V14 m (outs m P0 P1 P2) c = val2 m P0 P1 c := by
  unfold V14 val2; rw [V13_eq, outs_main_v10]
theorem V15_eq (c : Dev nD) : V15 m (outs m P0 P1 P2) c = val3 m P0 P1 P2 c := by
  unfold V15 val3; rw [V14_eq, outs_main_v11]

/-! ## Each region's exit contents against its entry contents

Window 2 of each region is its output, windows 0 and 1 its inputs: an input's array is never written back, so it
leaves the region as it entered; the output's array leaves at the write-backs folded; no other buffer is touched. -/

theorem exit0_arr (c : Dev nD) : ∀ w : Fin cfg0.W, (P0.dat (entry0 m) c).arrAt w cfg0.N = entry1 m P0 c (Pipeline.arrRef spec0 w)
  | 0 => ((P0.dat (entry0 m) c).arrAt_in 0 rfl _).trans ((P0.hA (entry0 m) c 0).trans (update_at_ne (x := main_arg0) (y := main_v9) (by decide) (val0 m c) (out0 m P0 c)).symm)
  | 1 => ((P0.dat (entry0 m) c).arrAt_in 1 rfl _).trans ((P0.hA (entry0 m) c 1).trans (update_at_ne (x := main_v2) (y := main_v9) (by decide) (val0 m c) (out0 m P0 c)).symm)
  | 2 => (Function.update_self (Proc.devRef .tc main_v9) (out0 m P0 c) (val0 m c)).symm
  | ⟨_ + 3, h⟩ => absurd h (Nat.not_lt.2 (Nat.le_add_left _ _))
theorem exit0_rest (c : Dev nD) (b : Ref sig .tc) (hb : b ∉ Finset.univ.image (Pipeline.arrRef spec0)) :
    entry1 m P0 c b = entry0 m c b :=
  update_at_ne (fun e => hb (Finset.mem_image.mpr ⟨2, Finset.mem_univ _, e.symm⟩)) (val0 m c) (out0 m P0 c)

theorem exit1_arr (c : Dev nD) : ∀ w : Fin cfg1.W, (P1.dat (entry1 m P0) c).arrAt w cfg1.N = entry2 m P0 P1 c (Pipeline.arrRef spec1 w)
  | 0 => ((P1.dat (entry1 m P0) c).arrAt_in 0 rfl _).trans ((P1.hA (entry1 m P0) c 0).trans (update_at_ne (x := main_v9) (y := main_v10) (by decide) (val1 m P0 c) (out1 m P0 P1 c)).symm)
  | 1 => ((P1.dat (entry1 m P0) c).arrAt_in 1 rfl _).trans ((P1.hA (entry1 m P0) c 1).trans (update_at_ne (x := main_v5) (y := main_v10) (by decide) (val1 m P0 c) (out1 m P0 P1 c)).symm)
  | 2 => (Function.update_self (Proc.devRef .tc main_v10) (out1 m P0 P1 c) (val1 m P0 c)).symm
  | ⟨_ + 3, h⟩ => absurd h (Nat.not_lt.2 (Nat.le_add_left _ _))
theorem exit1_rest (c : Dev nD) (b : Ref sig .tc) (hb : b ∉ Finset.univ.image (Pipeline.arrRef spec1)) :
    entry2 m P0 P1 c b = entry1 m P0 c b :=
  update_at_ne (fun e => hb (Finset.mem_image.mpr ⟨2, Finset.mem_univ _, e.symm⟩)) (val1 m P0 c) (out1 m P0 P1 c)

theorem exit2_arr (c : Dev nD) : ∀ w : Fin cfg2.W, (P2.dat (entry2 m P0 P1) c).arrAt w cfg2.N = exit2 m P0 P1 P2 c (Pipeline.arrRef spec2 w)
  | 0 => ((P2.dat (entry2 m P0 P1) c).arrAt_in 0 rfl _).trans ((P2.hA (entry2 m P0 P1) c 0).trans (update_at_ne (x := main_v10) (y := main_v11) (by decide) (val2 m P0 P1 c) (out2 m P0 P1 P2 c)).symm)
  | 1 => ((P2.dat (entry2 m P0 P1) c).arrAt_in 1 rfl _).trans ((P2.hA (entry2 m P0 P1) c 1).trans (update_at_ne (x := main_v8) (y := main_v11) (by decide) (val2 m P0 P1 c) (out2 m P0 P1 P2 c)).symm)
  | 2 => (Function.update_self (Proc.devRef .tc main_v11) (out2 m P0 P1 P2 c) (val2 m P0 P1 c)).symm
  | ⟨_ + 3, h⟩ => absurd h (Nat.not_lt.2 (Nat.le_add_left _ _))
theorem exit2_rest (c : Dev nD) (b : Ref sig .tc) (hb : b ∉ Finset.univ.image (Pipeline.arrRef spec2)) :
    exit2 m P0 P1 P2 c b = entry2 m P0 P1 c b :=
  update_at_ne (fun e => hb (Finset.mem_image.mpr ⟨2, Finset.mem_univ _, e.symm⟩)) (val2 m P0 P1 c) (out2 m P0 P1 P2 c)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => P0.dat (entry0 m) c
  | ⟨1, _⟩ => fun c => P1.dat (entry1 m P0) c
  | ⟨2, _⟩ => fun c => P2.dat (entry2 m P0 P1) c

/-- No core owes another anything: no level is assigned. -/
abbrev L : GSem nD τ sig → Finset Unit := fun _ => ∅
abbrev lv : GSem nD τ sig → Unit → ℕ := fun _ _ => 0
/-- What rides beside the buffers from the launch to the return: the core's generator register at some state (a
    region's invariant takes it in and gives it back) and the core owing nothing. -/
abbrev rest (c : Dev nD) : sProp 𝕄 :=
  iprop((∃ r, prngReg c r) ∗ ∃ W, owes (c : Thread nD τ) (0 : CellTallies nD τ sig Unit) W)

/-- A core owing nothing is what a region's proof data ask for at the first point: they owe nothing there and bound
    the recorded pairs by nothing. -/
theorem owesAt_first {cfg : Cfg sig Λ₀} (P : RegionProof F cfg) (V : Contents F) (c : Dev nD) :
    (iprop(∃ W, owes (c : Thread nD τ) (0 : CellTallies nD τ sig Unit) W) : sProp 𝕄) ⊢ (P.dat V c).owesAt () 0 := by
  unfold Pipeline.Dat.owesAt Pipeline.owesWithin
  rw [P.howed V c 0]
  iintro ⟨%W, HO⟩; iexists W; isplitr
  · ipureintro; exact fun x _ => Or.inl ((P.hrec V c).symm ▸ Set.mem_univ x)
  iexact HO
/-- At the last point they owe nothing either. -/
theorem owesAt_last {cfg : Cfg sig Λ₀} (P : RegionProof F cfg) (V : Contents F) (c : Dev nD) :
    (P.dat V c).owesAt () (Fin.last cfg.N) ⊢ (iprop(∃ W, owes (c : Thread nD τ) (0 : CellTallies nD τ sig Unit) W) : sProp 𝕄) := by
  unfold Pipeline.Dat.owesAt Pipeline.owesWithin
  rw [P.howed V c (Fin.last cfg.N)]
  iintro ⟨%W, -, HO⟩; iexists W; iexact HO

/-! ## The regions as segments

Each region is entered from every unscoped buffer held at its entry contents beside `rest`, and left with them held
at its exit contents beside `rest`. On the way in, the windows' arrays are parted from the other unscoped buffers,
which bypass the region; the generator register goes into the invariant with the scoped buffers no window stages. On
the way out everything is put back, the arrays at what the write-backs leave. No kernel has a semaphore of its own or
a prefetched table, and nothing is owed at any point. -/

set_option backward.isDefEq.respectTransparency.types false in
/-- Region 0 (the first layer): from `val0` to `val1`. -/
def reg0 : Pipeline.RegionSeg (pcfgs (F := F)) adm (pdats m P0 P1 P2) () defs₀ Variants.none L lv 0 where
  win := launch0.win.to₀
  block_pos := launch0.block_pos
  stage_whole := launch0.stage_whole
  K := PEmpty
  osem k := k.elim
  ho := Pipeline.OwnSemFacts.none _
  hbody c := (P0.hbody (entry0 m) c).loose
  hwaits := Pipeline.hwaits_of_owed_zero _ _ _ _ L lv 0 fun c t => P0.howed (entry0 m) c t
  pre c := iprop(StableHlo.held (c : Thread nD τ) (Pipeline.ucRefs τ sig) (val0 m c) ∗ rest c)
  post c := iprop(StableHlo.held (c : Thread nD τ) (Pipeline.ucRefs τ sig) (val1 m P0 c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    -- the unscoped buffers at the entry contents are the three arrays at those contents and the others
    have part := Pipeline.arrays_of_unscopedBufs (p := 0) (pcfgs (F := F)) adm (pdats m P0 P1 P2) launch0.win launch0.arr_whole c
      ((pdats m P0 P1 P2 0 c).share_full (P0.hq (entry0 m) c)) (entry0 m c) (P0.hA (entry0 m) c)
    rw [show unscopedBufs c (entry0 m c) = StableHlo.held (c : Thread nD τ) (Pipeline.ucRefs τ sig) (val0 m c) from Pipeline.unscopedBufs_held c (val0 m c)] at part
    rw [Pipeline.ownSems0_none]
    iintro ⟨⟨Hbufs, Hgen, Howes⟩, -, -⟩
    ihave Hparted := part $$ Hbufs
    icases Hparted with ⟨Harrs, Hothers⟩
    imodintro
    isplitl [Harrs]; · iexact Harrs
    isplitr
    · -- no table is prefetched
      unfold Pipeline.prefHeld; rw [show (Finset.univ : Finset (Fin 0)) = ∅ from rfl, BI.bigSep_empty]; iempintro
    isplitl [Howes]; · iapply (owesAt_first P0 (entry0 m) c); iexact Howes
    isplitl [Hgen]; · iexact Hgen
    iexact Hothers
  hin c := by
    refine BIBase.Entails.trans ?_ (P0.hΦ0 (entry0 m) c)
    unfold Pipeline.ΦA
    iintro ⟨Hgen, -, Hscoped⟩
    isplitl [Hscoped]; · iexact Hscoped
    iexact Hgen
  hout c := by
    refine BIBase.Entails.trans (P0.hΦN (entry0 m) c) ?_
    rw [Pipeline.ownSems0_none]; unfold Pipeline.ΦA
    iintro ⟨Hscoped, Hgen⟩
    isplitl [Hgen]; · iexact Hgen
    isplitr; · iempintro
    iexact Hscoped
  hexit c := by
    -- the arrays at what the write-backs leave and the others as entered are the unscoped buffers at the exit contents
    have join := Pipeline.unscopedBufs_of_arrays (p := 0) (pcfgs (F := F)) adm (Ix := Unit) (Name := ℕ) (U := UR sig nD τ) (Lvl := ℕ)
      launch0.win launch0.arr_whole c (pdats m P0 P1 P2) ((pdats m P0 P1 P2 0 c).share_full (P0.hq (entry0 m) c))
      (entry0 m c) (entry1 m P0 c) ((pdats m P0 P1 P2 0 c).arrAt · cfg0.N) (exit0_arr m P0 c) (exit0_rest m P0 c)
    rw [show unscopedBufs c (entry1 m P0 c) = StableHlo.held (c : Thread nD τ) (Pipeline.ucRefs τ sig) (val1 m P0 c) from Pipeline.unscopedBufs_held c (val1 m P0 c)] at join
    iintro ⟨Harrs, Howes, Hgen, Hothers⟩
    imodintro
    isplitl [Harrs Hothers]
    · iapply join; isplitl [Harrs] <;> iassumption
    isplitl [Hgen]; · iexact Hgen
    iapply (owesAt_last P0 (entry0 m) c); iexact Howes

set_option backward.isDefEq.respectTransparency.types false in
/-- Region 1 (the second layer): from `val1` to `val2`. -/
def reg1 : Pipeline.RegionSeg (pcfgs (F := F)) adm (pdats m P0 P1 P2) () defs₀ Variants.none L lv 1 where
  win := launch1.win.to₀
  block_pos := launch1.block_pos
  stage_whole := launch1.stage_whole
  K := PEmpty
  osem k := k.elim
  ho := Pipeline.OwnSemFacts.none _
  hbody c := (P1.hbody (entry1 m P0) c).loose
  hwaits := Pipeline.hwaits_of_owed_zero _ _ _ _ L lv 1 fun c t => P1.howed (entry1 m P0) c t
  pre c := iprop(StableHlo.held (c : Thread nD τ) (Pipeline.ucRefs τ sig) (val1 m P0 c) ∗ rest c)
  post c := iprop(StableHlo.held (c : Thread nD τ) (Pipeline.ucRefs τ sig) (val2 m P0 P1 c) ∗ rest c)
  X c := iprop(∃ r, prngReg c r)
  Y c := iprop(∃ r, prngReg c r)
  Z c := Pipeline.unscopedRest (Ix := Unit) (Name := ℕ) (U := UR sig nD τ) (Lvl := ℕ) spec1 c (entry1 m P0 c)
  hentry c := by
    -- the unscoped buffers at the entry contents are the three arrays at those contents and the others
    have part := Pipeline.arrays_of_unscopedBufs (p := 1) (pcfgs (F := F)) adm (pdats m P0 P1 P2) launch1.win launch1.arr_whole c
      ((pdats m P0 P1 P2 1 c).share_full (P1.hq (entry1 m P0) c)) (entry1 m P0 c) (P1.hA (entry1 m P0) c)
    rw [show unscopedBufs c (entry1 m P0 c) = StableHlo.held (c : Thread nD τ) (Pipeline.ucRefs τ sig) (val1 m P0 c) from Pipeline.unscopedBufs_held c (val1 m P0 c)] at part
    rw [Pipeline.ownSems0_none]
    iintro ⟨⟨Hbufs, Hgen, Howes⟩, -, -⟩
    ihave Hparted := part $$ Hbufs
    icases Hparted with ⟨Harrs, Hothers⟩
    imodintro
    isplitl [Harrs]; · iexact Harrs
    isplitr
    · -- no table is prefetched
      unfold Pipeline.prefHeld; rw [show (Finset.univ : Finset (Fin 0)) = ∅ from rfl, BI.bigSep_empty]; iempintro
    isplitl [Howes]; · iapply (owesAt_first P1 (entry1 m P0) c); iexact Howes
    isplitl [Hgen]; · iexact Hgen
    iexact Hothers
  hin c := by
    refine BIBase.Entails.trans ?_ (P1.hΦ0 (entry1 m P0) c)
    unfold Pipeline.ΦA
    iintro ⟨Hgen, -, Hscoped⟩
    isplitl [Hscoped]; · iexact Hscoped
    iexact Hgen
  hout c := by
    refine BIBase.Entails.trans (P1.hΦN (entry1 m P0) c) ?_
    rw [Pipeline.ownSems0_none]; unfold Pipeline.ΦA
    iintro ⟨Hscoped, Hgen⟩
    isplitl [Hgen]; · iexact Hgen
    isplitr; · iempintro
    iexact Hscoped
  hexit c := by
    -- the arrays at what the write-backs leave and the others as entered are the unscoped buffers at the exit contents
    have join := Pipeline.unscopedBufs_of_arrays (p := 1) (pcfgs (F := F)) adm (Ix := Unit) (Name := ℕ) (U := UR sig nD τ) (Lvl := ℕ)
      launch1.win launch1.arr_whole c (pdats m P0 P1 P2) ((pdats m P0 P1 P2 1 c).share_full (P1.hq (entry1 m P0) c))
      (entry1 m P0 c) (entry2 m P0 P1 c) ((pdats m P0 P1 P2 1 c).arrAt · cfg1.N) (exit1_arr m P0 P1 c) (exit1_rest m P0 P1 c)
    rw [show unscopedBufs c (entry2 m P0 P1 c) = StableHlo.held (c : Thread nD τ) (Pipeline.ucRefs τ sig) (val2 m P0 P1 c) from Pipeline.unscopedBufs_held c (val2 m P0 P1 c)] at join
    iintro ⟨Harrs, Howes, Hgen, Hothers⟩
    imodintro
    isplitl [Harrs Hothers]
    · iapply join; isplitl [Harrs] <;> iassumption
    isplitl [Hgen]; · iexact Hgen
    iapply (owesAt_last P1 (entry1 m P0) c); iexact Howes

set_option backward.isDefEq.respectTransparency.types false in
/-- Region 2 (the third layer): from `val2` to `val3`. -/
def reg2 : Pipeline.RegionSeg (pcfgs (F := F)) adm (pdats m P0 P1 P2) () defs₀ Variants.none L lv 2 where
  win := launch2.win.to₀
  block_pos := launch2.block_pos
  stage_whole := launch2.stage_whole
  K := PEmpty
  osem k := k.elim
  ho := Pipeline.OwnSemFacts.none _
  hbody c := (P2.hbody (entry2 m P0 P1) c).loose
  hwaits := Pipeline.hwaits_of_owed_zero _ _ _ _ L lv 2 fun c t => P2.howed (entry2 m P0 P1) c t
  pre c := iprop(StableHlo.held (c : Thread nD τ) (Pipeline.ucRefs τ sig) (val2 m P0 P1 c) ∗ rest c)
  post c := iprop(StableHlo.held (c : Thread nD τ) (Pipeline.ucRefs τ sig) (val3 m P0 P1 P2 c) ∗ rest c)
  X c := iprop(∃ r, prngReg c r)
  Y c := iprop(∃ r, prngReg c r)
  Z c := Pipeline.unscopedRest (Ix := Unit) (Name := ℕ) (U := UR sig nD τ) (Lvl := ℕ) spec2 c (entry2 m P0 P1 c)
  hentry c := by
    -- the unscoped buffers at the entry contents are the three arrays at those contents and the others
    have part := Pipeline.arrays_of_unscopedBufs (p := 2) (pcfgs (F := F)) adm (pdats m P0 P1 P2) launch2.win launch2.arr_whole c
      ((pdats m P0 P1 P2 2 c).share_full (P2.hq (entry2 m P0 P1) c)) (entry2 m P0 P1 c) (P2.hA (entry2 m P0 P1) c)
    rw [show unscopedBufs c (entry2 m P0 P1 c) = StableHlo.held (c : Thread nD τ) (Pipeline.ucRefs τ sig) (val2 m P0 P1 c) from Pipeline.unscopedBufs_held c (val2 m P0 P1 c)] at part
    rw [Pipeline.ownSems0_none]
    iintro ⟨⟨Hbufs, Hgen, Howes⟩, -, -⟩
    ihave Hparted := part $$ Hbufs
    icases Hparted with ⟨Harrs, Hothers⟩
    imodintro
    isplitl [Harrs]; · iexact Harrs
    isplitr
    · -- no table is prefetched
      unfold Pipeline.prefHeld; rw [show (Finset.univ : Finset (Fin 0)) = ∅ from rfl, BI.bigSep_empty]; iempintro
    isplitl [Howes]; · iapply (owesAt_first P2 (entry2 m P0 P1) c); iexact Howes
    isplitl [Hgen]; · iexact Hgen
    iexact Hothers
  hin c := by
    refine BIBase.Entails.trans ?_ (P2.hΦ0 (entry2 m P0 P1) c)
    unfold Pipeline.ΦA
    iintro ⟨Hgen, -, Hscoped⟩
    isplitl [Hscoped]; · iexact Hscoped
    iexact Hgen
  hout c := by
    refine BIBase.Entails.trans (P2.hΦN (entry2 m P0 P1) c) ?_
    rw [Pipeline.ownSems0_none]; unfold Pipeline.ΦA
    iintro ⟨Hscoped, Hgen⟩
    isplitl [Hgen]; · iexact Hgen
    isplitr; · iempintro
    iexact Hscoped
  hexit c := by
    -- the arrays at what the write-backs leave and the others as entered are the unscoped buffers at the exit contents
    have join := Pipeline.unscopedBufs_of_arrays (p := 2) (pcfgs (F := F)) adm (Ix := Unit) (Name := ℕ) (U := UR sig nD τ) (Lvl := ℕ)
      launch2.win launch2.arr_whole c (pdats m P0 P1 P2) ((pdats m P0 P1 P2 2 c).share_full (P2.hq (entry2 m P0 P1) c))
      (entry2 m P0 P1 c) (exit2 m P0 P1 P2 c) ((pdats m P0 P1 P2 2 c).arrAt · cfg2.N) (exit2_arr m P0 P1 P2 c) (exit2_rest m P0 P1 P2 c)
    rw [show unscopedBufs c (exit2 m P0 P1 P2 c) = StableHlo.held (c : Thread nD τ) (Pipeline.ucRefs τ sig) (val3 m P0 P1 P2 c) from Pipeline.unscopedBufs_held c (val3 m P0 P1 P2 c)] at join
    iintro ⟨Harrs, Howes, Hgen, Hothers⟩
    imodintro
    isplitl [Harrs Hothers]
    · iapply join; isplitl [Harrs] <;> iassumption
    isplitl [Hgen]; · iexact Hgen
    iapply (owesAt_last P2 (entry2 m P0 P1) c); iexact Howes

end Cert.Kernel.ThreeRegions

end
-- ==== Proof.WordLayer0Body.lean ====
/-
  (The program as printed, its floats read as machine words: the statements below do not look inside the body's
  arithmetic, so they read the same as for the idealized program.)

  One grid point of the first layer's kernel, as a statement about its four buffers.

  As in the later layers the kernel walks a grid (i, j, k) of 8 x 4 x 8 points, k fastest, with a block of the
  activations (1024 x 512), a block of the ternary weights (512 x 1024), the output block (1024 x 1024) and an
  accumulator that lives across points. Its activations are continuous, so it splits them into a leading part and
  a remainder and adds TWO products to the accumulator at every point, one per part: the accumulator is stored
  twice. It zeroes the accumulator where k = 0 and where k = 7 stores the sign of the accumulator into the output
  block.

  Three statements, one per kind of point (k = 0; 0 < k < 7; k = 7), from the buffers' contents before the point
  to their contents after it; the new accumulator is the second addition applied to the first. Each store covers
  its whole buffer, so a load after a store reads the stored value, and the last store is what the buffer holds.
-/
import proofs.«113464_j3315714752880_2_alg».proof.Proof.Gen.Kernel.Launch
import proofs.«113464_j3315714752880_2_alg».proof.Proof.Gen.Kernel.Skeleton
import proofs.«113464_j3315714752880_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The accumulator is reset at the points whose last grid coordinate is 0. -/
abbrev isFirst (i : grid0.Coords) : Prop := (Scalar.cmpi .ne (Scalar.extui (Scalar.cmpi .eq (BitVec.ofNat 32 (i 2).val) 0#32)) 0#32) = 1#1
/-- The output block is stored at the points whose last grid coordinate is 7. -/
abbrev isLast (i : grid0.Coords) : Prop := k0_cond2 i = 1#1

/-- The two zero offsets, however they are spelt, are the zero function (one statement per block shape). -/
theorem offAcc : (![0, 0] : Fin S1024x1024.rank → ℕ) = fun _ => 0 := by
  funext a; match a with | ⟨0, _⟩ => rfl | ⟨1, _⟩ => rfl
theorem offLhs : (![0, 0] : Fin S1024x512.rank → ℕ) = fun _ => 0 := by
  funext a; match a with | ⟨0, _⟩ => rfl | ⟨1, _⟩ => rfl
theorem offRhs : (![0, 0] : Fin S512x1024.rank → ℕ) = fun _ => 0 := by
  funext a; match a with | ⟨0, _⟩ => rfl | ⟨1, _⟩ => rfl

/-- One store through the whole rectangle of a buffer, read back, is its payload, whatever the buffer held
    (any shape: nothing here looks inside the rectangle). -/
theorem read_store_unit {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e) :
    mr.view.read (Elt F) (mr.view.writes (Elt F) f [⟨Rect.unit off S.size inb, p⟩]) = p :=
  (View.read_writes_eq_canon _ _ _ (fun y => ⟨_, List.mem_singleton_self _, View.mem_set_unit_zero h inb y⟩)).trans
    (View.canon_unit_zero h inb p)

/-- A later store through the whole rectangle hides an earlier one. -/
theorem read_store_unit₂ {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e)
    (L : List (View.Piece (Elt F) S e)) :
    mr.view.read (Elt F) (mr.view.writes (Elt F) f (⟨Rect.unit off S.size inb, p⟩ :: L)) = p :=
  (View.read_writes_eq_canon _ _ _ (fun y => ⟨_, List.mem_cons_self, View.mem_set_unit_zero h inb y⟩)).trans
    (View.canon_cons_unit_zero h inb p L)

/-- A load through the whole rectangle after stores the last of which went through it reads that store's payload. -/
theorem readCov_unit_cons {S : Shape} {e : EltTy} {κ : Kind} {sp : Space} (v : View sig κ sp S e) {off : Fin S.rank → ℕ} (h : off = fun _ => 0)
    (inb : ∀ a, off a + S.size a ≤ S.size a) (p : S.Idx → Elt F e) (L : List (View.Piece (Elt F) S e)) :
    v.readCov (⟨Rect.unit off S.size inb, p⟩ :: L) (Rect.unit off S.size inb).toLoadRect = p := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- One point's two additions, applied to the accumulator `s`. -/
abbrev step (x : Vec F S1024x512 .f32) (w : Vec F S512x1024 .bf16) (s : Vec F S1024x1024 .f32) : Vec F S1024x1024 .f32 :=
  k0_pay5 x w (k0_pay4 x w s)

set_option maxHeartbeats 2000000 in
/-- A point that neither resets the accumulator nor stores the output: the accumulator gains this point's two products. -/
theorem body_mid (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : ¬isLast i)
    (x : Vec F S1024x512 .f32) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (step x w s)) -∗ K ⟨⟩))
      ⊢ wp frame (wpE (defs₀ (F := F)) Variants.none c none) E (cc0__layer0_kernel i arg3 harg3 arg4 harg4 arg5 harg5 arg6 harg6) K := by
  simp only [cc0__layer0_kernel_eq_skeleton]; unfold cc0__layer0_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 2000000 in
/-- A point that resets the accumulator: it ends at this point's two products over the zero block. -/
theorem body_first (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : isFirst i) (hc1 : ¬isLast i)
    (x : Vec F S1024x512 .f32) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (step x w (k0_pay1 (F := F)))) -∗ K ⟨⟩))
      ⊢ wp frame (wpE (defs₀ (F := F)) Variants.none c none) E (cc0__layer0_kernel i arg3 harg3 arg4 harg4 arg5 harg5 arg6 harg6) K := by
  simp only [cc0__layer0_kernel_eq_skeleton]; unfold cc0__layer0_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 2000000 in
/-- A point that stores the output: the accumulator gains this point's two products and the output block is its sign. -/
theorem body_last (c : Dev nD) (E : Set ℕ) (i : grid0.Coords)
    (arg3 : Memref sig .tc .vmem S1024x512 .f32) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : isLast i)
    (x : Vec F S1024x512 .f32) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare (k0_pay6 (step x w s)) ∗ owns (c : Thread nD τ) arg6 fullShare (step x w s)) -∗ K ⟨⟩))
      ⊢ wp frame (wpE (defs₀ (F := F)) Variants.none c none) E (cc0__layer0_kernel i arg3 harg3 arg4 harg4 arg5 harg5 arg6 harg6) K := by
  simp only [cc0__layer0_kernel_eq_skeleton]; unfold cc0__layer0_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_run_names
    rw [read_store_unit (S := S1024x1024) arg5 _ offAcc]
    simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]
  iexists _; isplitr
  swap; · iexact H6
  ipureintro
  sl_unfold_run_names
  rw [read_store_unit₂ (S := S1024x1024) arg6 _ offAcc]
  simp only [View.readAt_eq_ld, harg6.read_unread, harg3.read_unread, harg4.read_unread, readCov_unit_cons (S := S1024x1024) arg6.view offAcc inb_S1024x1024_S1024x1024_0_0, View.ld_unit_zero (S := S1024x1024) offAcc, View.ld_unit_zero (S := S1024x512) offLhs, View.ld_unit_zero (S := S512x1024) offRhs]

end Cert.Kernel.Layer0
end
-- ==== Proof.WordLayer0Data.lean ====
/-
  (The program as printed, its floats read as machine words: the statements below do not look inside the body's
  arithmetic, so they read the same as for the idealized program.)

  The first layer's kernel over its whole grid: what its buffers hold from point to point.

  The 256 grid points run in order, the reduction coordinate k fastest, so each output block (i, j) is visited
  in a run of eight consecutive points k = 0 … 7. The accumulator after point n is defined by recursion on n: the
  point's two products of its input blocks added to the zero block when n ≡ 0 (mod 8), to the accumulator of the
  point before otherwise. The output block's staging buffer is stored into, and written back to the array, only at
  the points n ≡ 7 (mod 8), where it receives the sign of the accumulator; at the other points it is handed back as
  it came. Between points the kernel's accumulator buffer holds that recursion's value, and every other scoped
  buffer and the generator register are left alone. From the three per-point statements this gives the
  pipeline's obligation at every point, and at the region's two ends the invariant is the plain one (the
  accumulator at anything).
-/
import proofs.«113464_j3315714752880_2_alg».proof.Proof.Gen.Kernel.Launch
import proofs.«113464_j3315714752880_2_alg».proof.Proof.Gen.Kernel.Skeleton
import proofs.«113464_j3315714752880_2_alg».proof.Proof.Gen.Kernel.Points
import proofs.«113464_j3315714752880_2_alg».proof.Proof.WordLayer0Body
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## Where on the grid the accumulator is reset and the output stored -/

/-- The last coordinate is the fastest: it is 0 at the points ≡ 0 (mod 8) — decided over the grid. -/
theorem first_iff : ∀ t : Fin cfg0.N, isFirst (grid0.coords t) ↔ t.val % 8 = 0 :=
  (by decide +kernel : ∀ t : Fin grid0.N, isFirst (grid0.coords t) ↔ t.val % 8 = 0)
/-- and 7 at the points ≡ 7 (mod 8). -/
theorem last_iff : ∀ t : Fin cfg0.N, isLast (grid0.coords t) ↔ t.val % 8 = 7 :=
  (by decide +kernel : ∀ t : Fin grid0.N, isLast (grid0.coords t) ↔ t.val % 8 = 7)
/-- The two inputs are used at every point. -/
theorem live_lhs : ∀ t : Fin cfg0.N, cfg0.idle 0 (grid0.coords t) = false := by decide +kernel
theorem live_rhs : ∀ t : Fin cfg0.N, cfg0.idle 1 (grid0.coords t) = false := by decide +kernel
/-- Away from the last coordinate's end the output block is neither stored into nor written back. -/
theorem idle_out : ∀ t : Fin cfg0.N, ¬isLast (grid0.coords t) → cfg0.idle 2 (grid0.coords t) = true := by decide +kernel
theorem keep_out : ∀ t : Fin cfg0.N, ¬isLast (grid0.coords t) → (cfg0.win 2).flush t = false := by decide +kernel
/-- At its end the output block is stored. -/
theorem live_out : ∀ t : Fin cfg0.N, isLast (grid0.coords t) → cfg0.idle 2 (grid0.coords t) = false := by decide +kernel

/-! ## The blocks and the running accumulator -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, for any proof data over these arrays that leaves it in place. -/
theorem before_lhs {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_rhs {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- One point's two additions, with the accumulator first. -/
abbrev upd (s : Vec F S1024x1024 .f32) (x : Vec F S1024x512 .f32) (w : Vec F S512x1024 .bf16) : Vec F S1024x1024 .f32 := step x w s

/-- The accumulator after point `n`: this point's product added to the zero block where the last coordinate is 0,
    to what the point before left otherwise. -/
def acc (c : Dev nD) : (n : ℕ) → n < cfg0.N → Vec F S1024x1024 .f32
  | 0, h => upd k0_pay1 (blk V c 0 ⟨0, h⟩) (blk V c 1 ⟨0, h⟩)
  | n + 1, h => upd (if (n + 1) % 8 = 0 then k0_pay1 else acc c n (Nat.lt_of_succ_lt h)) (blk V c 0 ⟨n + 1, h⟩) (blk V c 1 ⟨n + 1, h⟩)

theorem acc_first (c : Dev nD) (t : Fin cfg0.N) (h0 : t.val % 8 = 0) :
    acc V c t.val t.isLt = upd k0_pay1 (blk V c 0 t) (blk V c 1 t) := by
  obtain ⟨n, hn⟩ := t
  cases n with
  | zero => rfl
  | succ n =>
    show upd (if (n + 1) % 8 = 0 then k0_pay1 else acc V c n _) _ _ = _
    rw [if_pos h0]

theorem acc_step (c : Dev nD) (t : Fin cfg0.N) (h0 : ¬t.val % 8 = 0) :
    acc V c t.val t.isLt = upd (acc V c (t.val - 1) (Nat.lt_of_le_of_lt (Nat.sub_le _ _) t.isLt)) (blk V c 0 t) (blk V c 1 t) := by
  obtain ⟨n, hn⟩ := t
  cases n with
  | zero => exact absurd (Nat.zero_mod _) h0
  | succ n =>
    show upd (if (n + 1) % 8 = 0 then k0_pay1 else acc V c n _) _ _ = _
    rw [if_neg h0]; rfl

/-! ## The region's invariant -/

/-- The kernel's accumulator: a whole scoped buffer of its own. -/
abbrev scM : Memref sig .tc .vmem S1024x1024 .f32 := Memref.whole cc0_scratch0

/-- Every other scoped buffer that is no staging buffer of this call (the other calls' staging buffers and
    accumulators), each at some contents, and the generator register at some state: untouched by this call. -/
def others (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem scratch_listed : ([cc0_scratch0] : List (Ref sig .tc)).Forall fun b => b.isScoped = true ∧ ∀ (w : Fin 3) (s : Fin (spec0 w).nbuf), ((spec0 w).stage s).view.ref ≠ b := by
  simp only [List.Forall]; exact ⟨rfl, by decide⟩

/-- The class invariant with this call's accumulator singled out. -/
theorem PhiA_eq (c : Dev nD) : (Pipeline.ΦA spec0 c : sProp 𝕄)
    = iprop(iprop((∃ d, owns (c : Thread nD τ) scM fullShare d) ∗ Pipeline.scopedRestBut (Ix := Unit) (Name := ℕ) (U := UR sig nD τ) (Lvl := ℕ) (Val := Elt F) spec0 c [cc0_scratch0]) ∗ ∃ r, prngReg c r) := by
  unfold Pipeline.ΦA
  rw [Pipeline.scopedRest_split_of_list spec0 c [cc0_scratch0] scratch_listed (by decide)]
  simp only [bigSepL_singleton, scM, owns_whole]
  rfl

theorem PhiA_split (c : Dev nD) : (Pipeline.ΦA spec0 c : sProp 𝕄) ⊢ iprop((∃ d, owns (c : Thread nD τ) scM fullShare d) ∗ others (F := F) c) := by
  rw [PhiA_eq]; unfold others
  iintro ⟨⟨HS, Hb⟩, Hg⟩
  isplitl [HS]; · iexact HS
  isplitl [Hb]; · iexact Hb
  iexact Hg

theorem PhiA_join (c : Dev nD) : iprop((∃ d, owns (c : Thread nD τ) scM fullShare d) ∗ others (F := F) c) ⊢ (Pipeline.ΦA spec0 c : sProp 𝕄) := by
  rw [PhiA_eq]; unfold others
  iintro ⟨HS, Hb, Hg⟩
  isplitl [HS Hb]
  · isplitl [HS]; · iexact HS
    iexact Hb
  iexact Hg

/-- Before the first point the class invariant; after point `n` the accumulator at `acc n` beside the rest. -/
def inv (c : Dev nD) : (n : ℕ) → n ≤ cfg0.N → sProp 𝕄
  | 0, _ => Pipeline.ΦA spec0 c
  | n + 1, h => iprop(owns (c : Thread nD τ) scM fullShare (acc V c n h) ∗ others c)

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) scM fullShare (acc V c n hn) ∗ others c) := rfl
theorem inv_pos (c : Dev nD) (n : ℕ) (h : n ≤ cfg0.N) (hz : n ≠ 0) :
    inv V c n h = iprop(owns (c : Thread nD τ) scM fullShare (acc V c (n - 1) (by omega)) ∗ others c) := by
  cases n with
  | zero => exact absurd rfl hz
  | succ n => rfl

/-! ## The proof data -/

/-- The arrays as the region finds them; after a point the inputs' buffers at their blocks and the output's at the
    sign of the accumulator (consulted only where the last coordinate is 7); the invariant above; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay6 (acc V c t.val t.isLt)
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem after_lhs (c : Dev nD) (t : Fin cfg0.N) : (dat V c).after 0 t = blk V c 0 t := by dsimp only [dat]
theorem after_rhs (c : Dev nD) (t : Fin cfg0.N) : (dat V c).after 1 t = blk V c 1 t := by dsimp only [dat]
theorem after_out (c : Dev nD) (t : Fin cfg0.N) : (dat V c).after 2 t = k0_pay6 (acc V c t.val t.isLt) := by dsimp only [dat]
theorem Phi_castSucc (c : Dev nD) (t : Fin cfg0.N) : (dat V c).Φ t.castSucc = inv V c t.val (Nat.le_of_lt t.isLt) := by
  dsimp only [dat]; simp only [Fin.coe_castSucc]
theorem found_lhs (c : Dev nD) (t : Fin cfg0.N) (d) : (dat V c).before 0 t d = blk V c 0 t :=
  before_lhs V (dat V c) (A_eq V c 0) (after_lhs V c) t d
theorem found_rhs (c : Dev nD) (t : Fin cfg0.N) (d) : (dat V c).before 1 t d = blk V c 1 t :=
  before_rhs V (dat V c) (A_eq V c 1) (after_rhs V c) t d

/-! ## The body obligation -/

/-- Each window's current staging buffer at point `t`, as the pipeline passes it to the body. -/
abbrev msL (t : Fin cfg0.N) : Memref sig .tc .vmem S1024x512 .f32 := win0_0.stage (cfg0.slots t 0)
abbrev msR (t : Fin cfg0.N) : Memref sig .tc .vmem S512x1024 .bf16 := win0_1.stage (cfg0.slots t 1)
abbrev msO (t : Fin cfg0.N) : Memref sig .tc .vmem S1024x1024 .bf16 := win0_2.stage (cfg0.slots t 2)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (msL t) fullShare ((dat V c).before 0 t d))
    ∗ (∃ d, owns (c : Thread nD τ) (msR t) fullShare ((dat V c).before 1 t d))
    ∗ (∃ d, owns (c : Thread nD τ) (msO t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4000000 in
/-- The body at any point. The inputs' buffers hold their blocks; the position of the point in its run of eight says
    which of the three statements applies; the invariant hands over the accumulator at what the point before left
    (at anything before the very first point) and takes it back at this point's value; where the output block is
    not stored its buffer goes back as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_lhs, found_rhs]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msL t) fullShare ((dat V c).after 0 t) from by
    unfold Dat.leavesExact; rw [live_lhs t], after_lhs]
  rw [show (dat V c).leavesExact 1 t = owns (c : Thread nD τ) (msR t) fullShare ((dat V c).after 1 t) from by
    unfold Dat.leavesExact; rw [live_rhs t], after_rhs]
  have hN : t.val < 256 := lt_of_lt_of_eq t.isLt (show cfg0.N = 256 from N_0)
  by_cases h7 : t.val % 8 = 7
  · have h0 : ¬t.val % 8 = 0 := by omega
    have hz : t.val ≠ 0 := by omega
    rw [show (dat V c).leavesExact 2 t = owns (c : Thread nD τ) (msO t) fullShare ((dat V c).after 2 t) from by
      unfold Dat.leavesExact; rw [live_out t ((last_iff t).mpr h7)], after_out]
    rw [acc_step V c t h0, Phi_castSucc V c t, inv_pos V c _ _ hz]
    iintro ⟨⟨HS, Hr⟩, Ho, ⟨%d0, H0⟩, ⟨%d1, H1⟩, ⟨%d2, H2⟩⟩
    iapply (body_last c Set.univ (grid0.coords t) _ _ _ _ _ _ _ _ (fun h => h0 ((first_iff t).mp h)) ((last_iff t).mpr h7) (blk V c 0 t) (blk V c 1 t) _ _ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat V c) 2 t (idle_out t (fun h => h7 ((last_iff t).mp h))) (keep_out t (fun h => h7 ((last_iff t).mp h)))]
    by_cases h0 : t.val % 8 = 0
    · rw [acc_first V c t h0]
      by_cases hz : t.val = 0
      · rw [Phi_castSucc V c t, inv_zero V c _ _ hz]
        iintro ⟨HΦ, Ho, ⟨%d0, H0⟩, ⟨%d1, H1⟩, ⟨%d2, H2⟩⟩
        ihave HΦ' := (PhiA_split (F := F) c) $$ HΦ
        icases HΦ' with ⟨⟨%s, HS⟩, Hr⟩
        iapply (body_first c Set.univ (grid0.coords t) _ _ _ _ _ _ _ _ ((first_iff t).mpr h0) (fun h => h7 ((last_iff t).mp h)) (blk V c 0 t) (blk V c 1 t) _ s _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
      · rw [Phi_castSucc V c t, inv_pos V c _ _ hz]
        iintro ⟨⟨HS, Hr⟩, Ho, ⟨%d0, H0⟩, ⟨%d1, H1⟩, ⟨%d2, H2⟩⟩
        iapply (body_first c Set.univ (grid0.coords t) _ _ _ _ _ _ _ _ ((first_iff t).mpr h0) (fun h => h7 ((last_iff t).mp h)) (blk V c 0 t) (blk V c 1 t) _ _ _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
    · have hz : t.val ≠ 0 := fun e => h0 (by rw [e])
      rw [acc_step V c t h0, Phi_castSucc V c t, inv_pos V c _ _ hz]
      iintro ⟨⟨HS, Hr⟩, Ho, ⟨%d0, H0⟩, ⟨%d1, H1⟩, ⟨%d2, H2⟩⟩
      iapply (body_mid c Set.univ (grid0.coords t) _ _ _ _ _ _ _ _ (fun h => h0 ((first_iff t).mp h)) (fun h => h7 ((last_iff t).mp h)) (blk V c 0 t) (blk V c 1 t) _ _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends, and the data's plain fields -/

theorem Phi_first (c : Dev nD) : (dat V c).Φ 0 = Pipeline.ΦA spec0 c := rfl

/-- After the last point the accumulator's contents are forgotten: the class invariant again. -/
theorem Phi_last (c : Dev nD) : (dat V c).Φ (Fin.last cfg0.N) ⊢ (Pipeline.ΦA spec0 c : sProp 𝕄) := by
  rw [show (dat V c).Φ (Fin.last cfg0.N) = inv V c (Fin.last cfg0.N).val (Nat.le_of_lt_succ (Fin.last cfg0.N).isLt) from rfl,
    inv_pos V c _ _ (by rw [Fin.val_last]; have : cfg0.N = 256 := N_0; omega)]
  iintro ⟨HS, Hr⟩
  iapply (PhiA_join (F := F) c)
  isplitl [HS]; · iexists _; iexact HS
  iexact Hr

theorem q_full (c : Dev nD) (w : Fin cfg0.W) : (dat V c).q w = fullShare := rfl
theorem owed_zero (c : Dev nD) (t : Fin (cfg0.N + 1)) : (dat V c).owed t = 0 := rfl

end Cert.Kernel.Layer0
end
-- ==== Proof.WordLayer1Body.lean ====
/-
  (The program as printed, its floats read as machine words: the statements below do not look inside the body's
  arithmetic, so they read the same as for the idealized program.)

  One grid point of the second layer's kernel, as a statement about its four buffers.

  The kernel walks a grid (i, j, k) of 8 x 4 x 8 points, k fastest. At a point it holds a block of the activations
  (1024 x 512, rows i, columns k), a block of the ternary weights (512 x 1024, rows k, columns j), the output block
  (1024 x 1024, rows i, columns j) and an accumulator of the output block's shape that lives across points. It
  zeroes the accumulator where k = 0, adds the product of the two input blocks to it at every point, and where
  k = 7 stores the sign of the accumulator into the output block.

  Three statements, one per kind of point (k = 0; 0 < k < 7; k = 7): from the buffers' contents before the point
  to their contents after it, the new accumulator being the body's own arithmetic (the program's named pure terms)
  of the old accumulator and the two input blocks. Each store covers its whole buffer, so what a buffer reads
  after a store is the stored value, whatever it held before.
-/
import proofs.«113464_j3315714752880_2_alg».proof.Proof.Gen.Kernel.Launch
import proofs.«113464_j3315714752880_2_alg».proof.Proof.Gen.Kernel.Skeleton
import proofs.«113464_j3315714752880_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The accumulator is reset at the points whose last grid coordinate is 0. -/
abbrev isFirst (i : grid1.Coords) : Prop := (Scalar.cmpi .ne (Scalar.extui (Scalar.cmpi .eq (BitVec.ofNat 32 (i 2).val) 0#32)) 0#32) = 1#1
/-- The output block is stored at the points whose last grid coordinate is 7. -/
abbrev isLast (i : grid1.Coords) : Prop := k1_cond2 i = 1#1

/-- The two zero offsets, however they are spelt, are the zero function (one statement per block shape). -/
theorem offAcc : (![0, 0] : Fin S1024x1024.rank → ℕ) = fun _ => 0 := by
  funext a; match a with | ⟨0, _⟩ => rfl | ⟨1, _⟩ => rfl
theorem offLhs : (![0, 0] : Fin S1024x512.rank → ℕ) = fun _ => 0 := by
  funext a; match a with | ⟨0, _⟩ => rfl | ⟨1, _⟩ => rfl
theorem offRhs : (![0, 0] : Fin S512x1024.rank → ℕ) = fun _ => 0 := by
  funext a; match a with | ⟨0, _⟩ => rfl | ⟨1, _⟩ => rfl

/-- One store through the whole rectangle of a buffer, read back, is its payload, whatever the buffer held
    (any shape: nothing here looks inside the rectangle). -/
theorem read_store_unit {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e) :
    mr.view.read (Elt F) (mr.view.writes (Elt F) f [⟨Rect.unit off S.size inb, p⟩]) = p :=
  (View.read_writes_eq_canon _ _ _ (fun y => ⟨_, List.mem_singleton_self _, View.mem_set_unit_zero h inb y⟩)).trans
    (View.canon_unit_zero h inb p)

/-- A later store through the whole rectangle hides an earlier one. -/
theorem read_store_unit₂ {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e)
    (L : List (View.Piece (Elt F) S e)) :
    mr.view.read (Elt F) (mr.view.writes (Elt F) f (⟨Rect.unit off S.size inb, p⟩ :: L)) = p :=
  (View.read_writes_eq_canon _ _ _ (fun y => ⟨_, List.mem_cons_self, View.mem_set_unit_zero h inb y⟩)).trans
    (View.canon_cons_unit_zero h inb p L)

set_option maxHeartbeats 1000000 in
/-- A point that neither resets the accumulator nor stores the output: the accumulator gains this point's product. -/
theorem body_mid (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : ¬isLast i)
    (x : Vec F S1024x512 .bf16) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k1_pay2 s x w)) -∗ K ⟨⟩))
      ⊢ wp frame (wpE (defs₀ (F := F)) Variants.none c none) E (cc1__layer_kernel i arg3 harg3 arg4 harg4 arg5 harg5 arg6 harg6) K := by
  simp only [cc1__layer_kernel_eq_skeleton]; unfold cc1__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that resets the accumulator: it ends at this point's product over the zero block. -/
theorem body_first (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : isFirst i) (hc1 : ¬isLast i)
    (x : Vec F S1024x512 .bf16) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k1_pay2 (k1_pay1 (F := F)) x w)) -∗ K ⟨⟩))
      ⊢ wp frame (wpE (defs₀ (F := F)) Variants.none c none) E (cc1__layer_kernel i arg3 harg3 arg4 harg4 arg5 harg5 arg6 harg6) K := by
  simp only [cc1__layer_kernel_eq_skeleton]; unfold cc1__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that stores the output: the accumulator gains this point's product and the output block is its sign. -/
theorem body_last (c : Dev nD) (E : Set ℕ) (i : grid1.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .bf16) (harg5 : arg5.IsWhole) (arg6 : Memref sig .tc .vmem S1024x1024 .f32) (harg6 : arg6.IsWhole)
    (hc0 : ¬isFirst i) (hc1 : isLast i)
    (x : Vec F S1024x512 .bf16) (w : Vec F S512x1024 .bf16) (y : Vec F S1024x1024 .bf16) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare (k1_pay3 (k1_pay2 s x w)) ∗ owns (c : Thread nD τ) arg6 fullShare (k1_pay2 s x w)) -∗ K ⟨⟩))
      ⊢ wp frame (wpE (defs₀ (F := F)) Variants.none c none) E (cc1__layer_kernel i arg3 harg3 arg4 harg4 arg5 harg5 arg6 harg6) K := by
  simp only [cc1__layer_kernel_eq_skeleton]; unfold cc1__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_run_names
    rw [read_store_unit (S := S1024x1024) arg5 _ offAcc]
    simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]
  iexists _; isplitr
  swap; · iexact H6
  ipureintro
  sl_unfold_run_names
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

end Cert.Kernel.Layer1
end
-- ==== Proof.WordLayer1Data.lean ====
/-
  (The program as printed, its floats read as machine words: the statements below do not look inside the body's
  arithmetic, so they read the same as for the idealized program.)

  The second layer's kernel over its whole grid: what its buffers hold from point to point.

  The 256 grid points run in order, the reduction coordinate k fastest, so each output block (i, j) is visited
  in a run of eight consecutive points k = 0 … 7. The accumulator after point n is defined by recursion on n: the
  point's product of its two input blocks added to the zero block when n ≡ 0 (mod 8), to the accumulator of the
  point before otherwise. The output block's staging buffer is stored into, and written back to the array, only at
  the points n ≡ 7 (mod 8), where it receives the sign of the accumulator; at the other points it is handed back as
  it came. Between points the kernel's accumulator buffer holds that recursion's value, and every other scoped
  buffer and the generator register are left alone. From the three per-point statements this gives the
  pipeline's obligation at every point, and at the region's two ends the invariant is the plain one (the
  accumulator at anything).
-/
import proofs.«113464_j3315714752880_2_alg».proof.Proof.Gen.Kernel.Launch
import proofs.«113464_j3315714752880_2_alg».proof.Proof.Gen.Kernel.Skeleton
import proofs.«113464_j3315714752880_2_alg».proof.Proof.Gen.Kernel.Points
import proofs.«113464_j3315714752880_2_alg».proof.Proof.WordLayer1Body
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## Where on the grid the accumulator is reset and the output stored -/

/-- The last coordinate is the fastest: it is 0 at the points ≡ 0 (mod 8) — decided over the grid. -/
theorem first_iff : ∀ t : Fin cfg1.N, isFirst (grid1.coords t) ↔ t.val % 8 = 0 :=
  (by decide +kernel : ∀ t : Fin grid1.N, isFirst (grid1.coords t) ↔ t.val % 8 = 0)
/-- and 7 at the points ≡ 7 (mod 8). -/
theorem last_iff : ∀ t : Fin cfg1.N, isLast (grid1.coords t) ↔ t.val % 8 = 7 :=
  (by decide +kernel : ∀ t : Fin grid1.N, isLast (grid1.coords t) ↔ t.val % 8 = 7)
/-- The two inputs are used at every point. -/
theorem live_lhs : ∀ t : Fin cfg1.N, cfg1.idle 0 (grid1.coords t) = false := by decide +kernel
theorem live_rhs : ∀ t : Fin cfg1.N, cfg1.idle 1 (grid1.coords t) = false := by decide +kernel
/-- Away from the last coordinate's end the output block is neither stored into nor written back. -/
theorem idle_out : ∀ t : Fin cfg1.N, ¬isLast (grid1.coords t) → cfg1.idle 2 (grid1.coords t) = true := by decide +kernel
theorem keep_out : ∀ t : Fin cfg1.N, ¬isLast (grid1.coords t) → (cfg1.win 2).flush t = false := by decide +kernel
/-- At its end the output block is stored. -/
theorem live_out : ∀ t : Fin cfg1.N, isLast (grid1.coords t) → cfg1.idle 2 (grid1.coords t) = false := by decide +kernel

/-! ## The blocks and the running accumulator -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, for any proof data over these arrays that leaves it in place. -/
theorem before_lhs {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_rhs {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The accumulator after point `n`: this point's product added to the zero block where the last coordinate is 0,
    to what the point before left otherwise. -/
def acc (c : Dev nD) : (n : ℕ) → n < cfg1.N → Vec F S1024x1024 .f32
  | 0, h => k1_pay2 k1_pay1 (blk V c 0 ⟨0, h⟩) (blk V c 1 ⟨0, h⟩)
  | n + 1, h => k1_pay2 (if (n + 1) % 8 = 0 then k1_pay1 else acc c n (Nat.lt_of_succ_lt h)) (blk V c 0 ⟨n + 1, h⟩) (blk V c 1 ⟨n + 1, h⟩)

theorem acc_first (c : Dev nD) (t : Fin cfg1.N) (h0 : t.val % 8 = 0) :
    acc V c t.val t.isLt = k1_pay2 k1_pay1 (blk V c 0 t) (blk V c 1 t) := by
  obtain ⟨n, hn⟩ := t
  cases n with
  | zero => rfl
  | succ n =>
    show k1_pay2 (if (n + 1) % 8 = 0 then k1_pay1 else acc V c n _) _ _ = _
    rw [if_pos h0]

theorem acc_step (c : Dev nD) (t : Fin cfg1.N) (h0 : ¬t.val % 8 = 0) :
    acc V c t.val t.isLt = k1_pay2 (acc V c (t.val - 1) (Nat.lt_of_le_of_lt (Nat.sub_le _ _) t.isLt)) (blk V c 0 t) (blk V c 1 t) := by
  obtain ⟨n, hn⟩ := t
  cases n with
  | zero => exact absurd (Nat.zero_mod _) h0
  | succ n =>
    show k1_pay2 (if (n + 1) % 8 = 0 then k1_pay1 else acc V c n _) _ _ = _
    rw [if_neg h0]; rfl

/-! ## The region's invariant -/

/-- The kernel's accumulator: a whole scoped buffer of its own. -/
abbrev scM : Memref sig .tc .vmem S1024x1024 .f32 := Memref.whole cc1_scratch0

/-- Every other scoped buffer that is no staging buffer of this call (the other calls' staging buffers and
    accumulators), each at some contents, and the generator register at some state: untouched by this call. -/
def others (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scratch_listed : ([cc1_scratch0] : List (Ref sig .tc)).Forall fun b => b.isScoped = true ∧ ∀ (w : Fin 3) (s : Fin (spec1 w).nbuf), ((spec1 w).stage s).view.ref ≠ b := by
  simp only [List.Forall]; exact ⟨rfl, by decide⟩

/-- The class invariant with this call's accumulator singled out. -/
theorem PhiA_eq (c : Dev nD) : (Pipeline.ΦA spec1 c : sProp 𝕄)
    = iprop(iprop((∃ d, owns (c : Thread nD τ) scM fullShare d) ∗ Pipeline.scopedRestBut (Ix := Unit) (Name := ℕ) (U := UR sig nD τ) (Lvl := ℕ) (Val := Elt F) spec1 c [cc1_scratch0]) ∗ ∃ r, prngReg c r) := by
  unfold Pipeline.ΦA
  rw [Pipeline.scopedRest_split_of_list spec1 c [cc1_scratch0] scratch_listed (by decide)]
  simp only [bigSepL_singleton, scM, owns_whole]
  rfl

theorem PhiA_split (c : Dev nD) : (Pipeline.ΦA spec1 c : sProp 𝕄) ⊢ iprop((∃ d, owns (c : Thread nD τ) scM fullShare d) ∗ others (F := F) c) := by
  rw [PhiA_eq]; unfold others
  iintro ⟨⟨HS, Hb⟩, Hg⟩
  isplitl [HS]; · iexact HS
  isplitl [Hb]; · iexact Hb
  iexact Hg

theorem PhiA_join (c : Dev nD) : iprop((∃ d, owns (c : Thread nD τ) scM fullShare d) ∗ others (F := F) c) ⊢ (Pipeline.ΦA spec1 c : sProp 𝕄) := by
  rw [PhiA_eq]; unfold others
  iintro ⟨HS, Hb, Hg⟩
  isplitl [HS Hb]
  · isplitl [HS]; · iexact HS
    iexact Hb
  iexact Hg

/-- Before the first point the class invariant; after point `n` the accumulator at `acc n` beside the rest. -/
def inv (c : Dev nD) : (n : ℕ) → n ≤ cfg1.N → sProp 𝕄
  | 0, _ => Pipeline.ΦA spec1 c
  | n + 1, h => iprop(owns (c : Thread nD τ) scM fullShare (acc V c n h) ∗ others c)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) scM fullShare (acc V c n hn) ∗ others c) := rfl
theorem inv_pos (c : Dev nD) (n : ℕ) (h : n ≤ cfg1.N) (hz : n ≠ 0) :
    inv V c n h = iprop(owns (c : Thread nD τ) scM fullShare (acc V c (n - 1) (by omega)) ∗ others c) := by
  cases n with
  | zero => exact absurd rfl hz
  | succ n => rfl

/-! ## The proof data -/

/-- The arrays as the region finds them; after a point the inputs' buffers at their blocks and the output's at the
    sign of the accumulator (consulted only where the last coordinate is 7); the invariant above; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => k1_pay3 (acc V c t.val t.isLt)
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem after_lhs (c : Dev nD) (t : Fin cfg1.N) : (dat V c).after 0 t = blk V c 0 t := by dsimp only [dat]
theorem after_rhs (c : Dev nD) (t : Fin cfg1.N) : (dat V c).after 1 t = blk V c 1 t := by dsimp only [dat]
theorem after_out (c : Dev nD) (t : Fin cfg1.N) : (dat V c).after 2 t = k1_pay3 (acc V c t.val t.isLt) := by dsimp only [dat]
theorem Phi_castSucc (c : Dev nD) (t : Fin cfg1.N) : (dat V c).Φ t.castSucc = inv V c t.val (Nat.le_of_lt t.isLt) := by
  dsimp only [dat]; simp only [Fin.coe_castSucc]
theorem found_lhs (c : Dev nD) (t : Fin cfg1.N) (d) : (dat V c).before 0 t d = blk V c 0 t :=
  before_lhs V (dat V c) (A_eq V c 0) (after_lhs V c) t d
theorem found_rhs (c : Dev nD) (t : Fin cfg1.N) (d) : (dat V c).before 1 t d = blk V c 1 t :=
  before_rhs V (dat V c) (A_eq V c 1) (after_rhs V c) t d

/-! ## The body obligation -/

/-- Each window's current staging buffer at point `t`, as the pipeline passes it to the body. -/
abbrev msL (t : Fin cfg1.N) : Memref sig .tc .vmem S1024x512 .bf16 := win1_0.stage (cfg1.slots t 0)
abbrev msR (t : Fin cfg1.N) : Memref sig .tc .vmem S512x1024 .bf16 := win1_1.stage (cfg1.slots t 1)
abbrev msO (t : Fin cfg1.N) : Memref sig .tc .vmem S1024x1024 .bf16 := win1_2.stage (cfg1.slots t 2)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (msL t) fullShare ((dat V c).before 0 t d))
    ∗ (∃ d, owns (c : Thread nD τ) (msR t) fullShare ((dat V c).before 1 t d))
    ∗ (∃ d, owns (c : Thread nD τ) (msO t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4000000 in
/-- The body at any point. The inputs' buffers hold their blocks; the position of the point in its run of eight says
    which of the three statements applies; the invariant hands over the accumulator at what the point before left
    (at anything before the very first point) and takes it back at this point's value; where the output block is
    not stored its buffer goes back as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_lhs, found_rhs]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msL t) fullShare ((dat V c).after 0 t) from by
    unfold Dat.leavesExact; rw [live_lhs t], after_lhs]
  rw [show (dat V c).leavesExact 1 t = owns (c : Thread nD τ) (msR t) fullShare ((dat V c).after 1 t) from by
    unfold Dat.leavesExact; rw [live_rhs t], after_rhs]
  have hN : t.val < 256 := lt_of_lt_of_eq t.isLt (show cfg1.N = 256 from N_1)
  by_cases h7 : t.val % 8 = 7
  · have h0 : ¬t.val % 8 = 0 := by omega
    have hz : t.val ≠ 0 := by omega
    rw [show (dat V c).leavesExact 2 t = owns (c : Thread nD τ) (msO t) fullShare ((dat V c).after 2 t) from by
      unfold Dat.leavesExact; rw [live_out t ((last_iff t).mpr h7)], after_out]
    rw [acc_step V c t h0, Phi_castSucc V c t, inv_pos V c _ _ hz]
    iintro ⟨⟨HS, Hr⟩, Ho, ⟨%d0, H0⟩, ⟨%d1, H1⟩, ⟨%d2, H2⟩⟩
    iapply (body_last c Set.univ (grid1.coords t) _ _ _ _ _ _ _ _ (fun h => h0 ((first_iff t).mp h)) ((last_iff t).mpr h7) (blk V c 0 t) (blk V c 1 t) _ _ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat V c) 2 t (idle_out t (fun h => h7 ((last_iff t).mp h))) (keep_out t (fun h => h7 ((last_iff t).mp h)))]
    by_cases h0 : t.val % 8 = 0
    · rw [acc_first V c t h0]
      by_cases hz : t.val = 0
      · rw [Phi_castSucc V c t, inv_zero V c _ _ hz]
        iintro ⟨HΦ, Ho, ⟨%d0, H0⟩, ⟨%d1, H1⟩, ⟨%d2, H2⟩⟩
        ihave HΦ' := (PhiA_split (F := F) c) $$ HΦ
        icases HΦ' with ⟨⟨%s, HS⟩, Hr⟩
        iapply (body_first c Set.univ (grid1.coords t) _ _ _ _ _ _ _ _ ((first_iff t).mpr h0) (fun h => h7 ((last_iff t).mp h)) (blk V c 0 t) (blk V c 1 t) _ s _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
      · rw [Phi_castSucc V c t, inv_pos V c _ _ hz]
        iintro ⟨⟨HS, Hr⟩, Ho, ⟨%d0, H0⟩, ⟨%d1, H1⟩, ⟨%d2, H2⟩⟩
        iapply (body_first c Set.univ (grid1.coords t) _ _ _ _ _ _ _ _ ((first_iff t).mpr h0) (fun h => h7 ((last_iff t).mp h)) (blk V c 0 t) (blk V c 1 t) _ _ _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
    · have hz : t.val ≠ 0 := fun e => h0 (by rw [e])
      rw [acc_step V c t h0, Phi_castSucc V c t, inv_pos V c _ _ hz]
      iintro ⟨⟨HS, Hr⟩, Ho, ⟨%d0, H0⟩, ⟨%d1, H1⟩, ⟨%d2, H2⟩⟩
      iapply (body_mid c Set.univ (grid1.coords t) _ _ _ _ _ _ _ _ (fun h => h0 ((first_iff t).mp h)) (fun h => h7 ((last_iff t).mp h)) (blk V c 0 t) (blk V c 1 t) _ _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends, and the data's plain fields -/

theorem Phi_first (c : Dev nD) : (dat V c).Φ 0 = Pipeline.ΦA spec1 c := rfl

/-- After the last point the accumulator's contents are forgotten: the class invariant again. -/
theorem Phi_last (c : Dev nD) : (dat V c).Φ (Fin.last cfg1.N) ⊢ (Pipeline.ΦA spec1 c : sProp 𝕄) := by
  rw [show (dat V c).Φ (Fin.last cfg1.N) = inv V c (Fin.last cfg1.N).val (Nat.le_of_lt_succ (Fin.last cfg1.N).isLt) from rfl,
    inv_pos V c _ _ (by rw [Fin.val_last]; have : cfg1.N = 256 := N_1; omega)]
  iintro ⟨HS, Hr⟩
  iapply (PhiA_join (F := F) c)
  isplitl [HS]; · iexists _; iexact HS
  iexact Hr

theorem q_full (c : Dev nD) (w : Fin cfg1.W) : (dat V c).q w = fullShare := rfl
theorem owed_zero (c : Dev nD) (t : Fin (cfg1.N + 1)) : (dat V c).owed t = 0 := rfl

end Cert.Kernel.Layer1
end
-- ==== Proof.WordLayer2Body.lean ====
/-
  (The program as printed, its floats read as machine words: the statements below do not look inside the body's
  arithmetic, so they read the same as for the idealized program.)

  One grid point of the third layer's kernel, as a statement about its four buffers.

  The kernel walks a grid (i, j, k) of 8 x 4 x 8 points, k fastest. At a point it holds a block of the activations
  (1024 x 512, rows i, columns k), a block of the ternary weights (512 x 1024, rows k, columns j), the output block
  (1024 x 1024, rows i, columns j) and an accumulator of the output block's shape that lives across points. It
  zeroes the accumulator where k = 0, adds the product of the two input blocks to it at every point, and where
  k = 7 stores the sign of the accumulator into the output block.

  Three statements, one per kind of point (k = 0; 0 < k < 7; k = 7): from the buffers' contents before the point
  to their contents after it, the new accumulator being the body's own arithmetic (the program's named pure terms)
  of the old accumulator and the two input blocks. Each store covers its whole buffer, so what a buffer reads
  after a store is the stored value, whatever it held before.
-/
import proofs.«113464_j3315714752880_2_alg».proof.Proof.Gen.Kernel.Launch
import proofs.«113464_j3315714752880_2_alg».proof.Proof.Gen.Kernel.Skeleton
import proofs.«113464_j3315714752880_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The accumulator is reset at the points whose last grid coordinate is 0. -/
abbrev isFirst (i : grid2.Coords) : Prop := (Scalar.cmpi .ne (Scalar.extui (Scalar.cmpi .eq (BitVec.ofNat 32 (i 2).val) 0#32)) 0#32) = 1#1
/-- The output block is stored at the points whose last grid coordinate is 7. -/
abbrev isLast (i : grid2.Coords) : Prop := k2_cond2 i = 1#1

/-- The two zero offsets, however they are spelt, are the zero function (one statement per block shape). -/
theorem offAcc : (![0, 0] : Fin S1024x1024.rank → ℕ) = fun _ => 0 := by
  funext a; match a with | ⟨0, _⟩ => rfl | ⟨1, _⟩ => rfl
theorem offLhs : (![0, 0] : Fin S1024x512.rank → ℕ) = fun _ => 0 := by
  funext a; match a with | ⟨0, _⟩ => rfl | ⟨1, _⟩ => rfl
theorem offRhs : (![0, 0] : Fin S512x1024.rank → ℕ) = fun _ => 0 := by
  funext a; match a with | ⟨0, _⟩ => rfl | ⟨1, _⟩ => rfl

/-- One store through the whole rectangle of a buffer, read back, is its payload, whatever the buffer held
    (any shape: nothing here looks inside the rectangle). -/
theorem read_store_unit {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e) :
    mr.view.read (Elt F) (mr.view.writes (Elt F) f [⟨Rect.unit off S.size inb, p⟩]) = p :=
  (View.read_writes_eq_canon _ _ _ (fun y => ⟨_, List.mem_singleton_self _, View.mem_set_unit_zero h inb y⟩)).trans
    (View.canon_unit_zero h inb p)

/-- A later store through the whole rectangle hides an earlier one. -/
theorem read_store_unit₂ {S : Shape} {e : EltTy} (mr : Memref sig .tc .vmem S e) (f : mr.view.ty.Contents (Elt F))
    {off : Fin S.rank → ℕ} (h : off = fun _ => 0) (inb : ∀ a, off a + S.size a ≤ S.size a) (p : S.Idx → Elt F e)
    (L : List (View.Piece (Elt F) S e)) :
    mr.view.read (Elt F) (mr.view.writes (Elt F) f (⟨Rect.unit off S.size inb, p⟩ :: L)) = p :=
  (View.read_writes_eq_canon _ _ _ (fun y => ⟨_, List.mem_cons_self, View.mem_set_unit_zero h inb y⟩)).trans
    (View.canon_cons_unit_zero h inb p L)

set_option maxHeartbeats 1000000 in
/-- A point that neither resets the accumulator nor stores the output: the accumulator gains this point's product. -/
theorem body_mid (c : Dev nD) (E : Set ℕ) (i : grid2.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬isFirst i) (hc1 : ¬isLast i)
    (x : Vec F S1024x512 .bf16) (w : Vec F S512x1024 .bf16) (y : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k2_pay2 s x w)) -∗ K ⟨⟩))
      ⊢ wp frame (wpE (defs₀ (F := F)) Variants.none c none) E (cc2__layer_kernel i arg3 harg3 arg4 harg4 arg5 harg5 arg6 harg6) K := by
  simp only [cc2__layer_kernel_eq_skeleton]; unfold cc2__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that resets the accumulator: it ends at this point's product over the zero block. -/
theorem body_first (c : Dev nD) (E : Set ℕ) (i : grid2.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : isFirst i) (hc1 : ¬isLast i)
    (x : Vec F S1024x512 .bf16) (w : Vec F S512x1024 .bf16) (y : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare y ∗ owns (c : Thread nD τ) arg6 fullShare (k2_pay2 (k2_pay1 (F := F)) x w)) -∗ K ⟨⟩))
      ⊢ wp frame (wpE (defs₀ (F := F)) Variants.none c none) E (cc2__layer_kernel i arg3 harg3 arg4 harg4 arg5 harg5 arg6 harg6) K := by
  simp only [cc2__layer_kernel_eq_skeleton]; unfold cc2__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  iexists _; isplitr
  swap; · iexact H6
  ipureintro
  sl_unfold_run_names
  rw [read_store_unit₂ (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

set_option maxHeartbeats 1000000 in
/-- A point that stores the output: the accumulator gains this point's product and the output block is its sign. -/
theorem body_last (c : Dev nD) (E : Set ℕ) (i : grid2.Coords)
    (arg3 : Memref sig .tc .vmem S1024x512 .bf16) (harg3 : arg3.IsWhole) (arg4 : Memref sig .tc .vmem S512x1024 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬isFirst i) (hc1 : isLast i)
    (x : Vec F S1024x512 .bf16) (w : Vec F S512x1024 .bf16) (y : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare y ∗ owns (c : Thread nD τ) arg6 fullShare s
        ∗ (iprop(owns (c : Thread nD τ) arg3 fullShare x ∗ owns (c : Thread nD τ) arg4 fullShare w ∗ owns (c : Thread nD τ) arg5 fullShare (k2_pay3 (k2_pay2 s x w)) ∗ owns (c : Thread nD τ) arg6 fullShare (k2_pay2 s x w)) -∗ K ⟨⟩))
      ⊢ wp frame (wpE (defs₀ (F := F)) Variants.none c none) E (cc2__layer_kernel i arg3 harg3 arg4 harg4 arg5 harg5 arg6 harg6) K := by
  simp only [cc2__layer_kernel_eq_skeleton]; unfold cc2__layer_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_run_names
    rw [read_store_unit (S := S1024x1024) arg5 _ offAcc]
    simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]
  iexists _; isplitr
  swap; · iexact H6
  ipureintro
  sl_unfold_run_names
  rw [read_store_unit (S := S1024x1024) arg6 _ offAcc]
  simp only [View.readAt_eq_ld, harg6.read_unread, harg3.read_unread, harg4.read_unread, View.readCov_unit_zero (S := S1024x1024) arg6.view offAcc inb_S1024x1024_S1024x1024_0_0, View.ld_unit_zero (S := S1024x1024) offAcc, View.ld_unit_zero (S := S1024x512) offLhs, View.ld_unit_zero (S := S512x1024) offRhs]

end Cert.Kernel.Layer2
end
-- ==== Proof.WordLayer2Data.lean ====
/-
  (The program as printed, its floats read as machine words: the statements below do not look inside the body's
  arithmetic, so they read the same as for the idealized program.)

  The third layer's kernel over its whole grid: what its buffers hold from point to point.

  The 256 grid points run in order, the reduction coordinate k fastest, so each output block (i, j) is visited
  in a run of eight consecutive points k = 0 … 7. The accumulator after point n is defined by recursion on n: the
  point's product of its two input blocks added to the zero block when n ≡ 0 (mod 8), to the accumulator of the
  point before otherwise. The output block's staging buffer is stored into, and written back to the array, only at
  the points n ≡ 7 (mod 8), where it receives the sign of the accumulator; at the other points it is handed back as
  it came. Between points the kernel's accumulator buffer holds that recursion's value, and every other scoped
  buffer and the generator register are left alone. From the three per-point statements this gives the
  pipeline's obligation at every point, and at the region's two ends the invariant is the plain one (the
  accumulator at anything).
-/
import proofs.«113464_j3315714752880_2_alg».proof.Proof.Gen.Kernel.Launch
import proofs.«113464_j3315714752880_2_alg».proof.Proof.Gen.Kernel.Skeleton
import proofs.«113464_j3315714752880_2_alg».proof.Proof.Gen.Kernel.Points
import proofs.«113464_j3315714752880_2_alg».proof.Proof.WordLayer2Body
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## Where on the grid the accumulator is reset and the output stored -/

/-- The last coordinate is the fastest: it is 0 at the points ≡ 0 (mod 8) — decided over the grid. -/
theorem first_iff : ∀ t : Fin cfg2.N, isFirst (grid2.coords t) ↔ t.val % 8 = 0 :=
  (by decide +kernel : ∀ t : Fin grid2.N, isFirst (grid2.coords t) ↔ t.val % 8 = 0)
/-- and 7 at the points ≡ 7 (mod 8). -/
theorem last_iff : ∀ t : Fin cfg2.N, isLast (grid2.coords t) ↔ t.val % 8 = 7 :=
  (by decide +kernel : ∀ t : Fin grid2.N, isLast (grid2.coords t) ↔ t.val % 8 = 7)
/-- The two inputs are used at every point. -/
theorem live_lhs : ∀ t : Fin cfg2.N, cfg2.idle 0 (grid2.coords t) = false := by decide +kernel
theorem live_rhs : ∀ t : Fin cfg2.N, cfg2.idle 1 (grid2.coords t) = false := by decide +kernel
/-- Away from the last coordinate's end the output block is neither stored into nor written back. -/
theorem idle_out : ∀ t : Fin cfg2.N, ¬isLast (grid2.coords t) → cfg2.idle 2 (grid2.coords t) = true := by decide +kernel
theorem keep_out : ∀ t : Fin cfg2.N, ¬isLast (grid2.coords t) → (cfg2.win 2).flush t = false := by decide +kernel
/-- At its end the output block is stored. -/
theorem live_out : ∀ t : Fin cfg2.N, isLast (grid2.coords t) → cfg2.idle 2 (grid2.coords t) = false := by decide +kernel

/-! ## The blocks and the running accumulator -/

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, for any proof data over these arrays that leaves it in place. -/
theorem before_lhs {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_rhs {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The accumulator after point `n`: this point's product added to the zero block where the last coordinate is 0,
    to what the point before left otherwise. -/
def acc (c : Dev nD) : (n : ℕ) → n < cfg2.N → Vec F S1024x1024 .f32
  | 0, h => k2_pay2 k2_pay1 (blk V c 0 ⟨0, h⟩) (blk V c 1 ⟨0, h⟩)
  | n + 1, h => k2_pay2 (if (n + 1) % 8 = 0 then k2_pay1 else acc c n (Nat.lt_of_succ_lt h)) (blk V c 0 ⟨n + 1, h⟩) (blk V c 1 ⟨n + 1, h⟩)

theorem acc_first (c : Dev nD) (t : Fin cfg2.N) (h0 : t.val % 8 = 0) :
    acc V c t.val t.isLt = k2_pay2 k2_pay1 (blk V c 0 t) (blk V c 1 t) := by
  obtain ⟨n, hn⟩ := t
  cases n with
  | zero => rfl
  | succ n =>
    show k2_pay2 (if (n + 1) % 8 = 0 then k2_pay1 else acc V c n _) _ _ = _
    rw [if_pos h0]

theorem acc_step (c : Dev nD) (t : Fin cfg2.N) (h0 : ¬t.val % 8 = 0) :
    acc V c t.val t.isLt = k2_pay2 (acc V c (t.val - 1) (Nat.lt_of_le_of_lt (Nat.sub_le _ _) t.isLt)) (blk V c 0 t) (blk V c 1 t) := by
  obtain ⟨n, hn⟩ := t
  cases n with
  | zero => exact absurd (Nat.zero_mod _) h0
  | succ n =>
    show k2_pay2 (if (n + 1) % 8 = 0 then k2_pay1 else acc V c n _) _ _ = _
    rw [if_neg h0]; rfl

/-! ## The region's invariant -/

/-- The kernel's accumulator: a whole scoped buffer of its own. -/
abbrev scM : Memref sig .tc .vmem S1024x1024 .f32 := Memref.whole cc2_scratch0

/-- Every other scoped buffer that is no staging buffer of this call (the other calls' staging buffers and
    accumulators), each at some contents, and the generator register at some state: untouched by this call. -/
def others (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scratch_listed : ([cc2_scratch0] : List (Ref sig .tc)).Forall fun b => b.isScoped = true ∧ ∀ (w : Fin 3) (s : Fin (spec2 w).nbuf), ((spec2 w).stage s).view.ref ≠ b := by
  simp only [List.Forall]; exact ⟨rfl, by decide⟩

/-- The class invariant with this call's accumulator singled out. -/
theorem PhiA_eq (c : Dev nD) : (Pipeline.ΦA spec2 c : sProp 𝕄)
    = iprop(iprop((∃ d, owns (c : Thread nD τ) scM fullShare d) ∗ Pipeline.scopedRestBut (Ix := Unit) (Name := ℕ) (U := UR sig nD τ) (Lvl := ℕ) (Val := Elt F) spec2 c [cc2_scratch0]) ∗ ∃ r, prngReg c r) := by
  unfold Pipeline.ΦA
  rw [Pipeline.scopedRest_split_of_list spec2 c [cc2_scratch0] scratch_listed (by decide)]
  simp only [bigSepL_singleton, scM, owns_whole]
  rfl

theorem PhiA_split (c : Dev nD) : (Pipeline.ΦA spec2 c : sProp 𝕄) ⊢ iprop((∃ d, owns (c : Thread nD τ) scM fullShare d) ∗ others (F := F) c) := by
  rw [PhiA_eq]; unfold others
  iintro ⟨⟨HS, Hb⟩, Hg⟩
  isplitl [HS]; · iexact HS
  isplitl [Hb]; · iexact Hb
  iexact Hg

theorem PhiA_join (c : Dev nD) : iprop((∃ d, owns (c : Thread nD τ) scM fullShare d) ∗ others (F := F) c) ⊢ (Pipeline.ΦA spec2 c : sProp 𝕄) := by
  rw [PhiA_eq]; unfold others
  iintro ⟨HS, Hb, Hg⟩
  isplitl [HS Hb]
  · isplitl [HS]; · iexact HS
    iexact Hb
  iexact Hg

/-- Before the first point the class invariant; after point `n` the accumulator at `acc n` beside the rest. -/
def inv (c : Dev nD) : (n : ℕ) → n ≤ cfg2.N → sProp 𝕄
  | 0, _ => Pipeline.ΦA spec2 c
  | n + 1, h => iprop(owns (c : Thread nD τ) scM fullShare (acc V c n h) ∗ others c)

theorem inv_zero (c : Dev nD) (n : ℕ) (h : n ≤ cfg2.N) (hz : n = 0) : inv V c n h = Pipeline.ΦA spec2 c := by
  subst hz; rfl
theorem inv_succ (c : Dev nD) (n : ℕ) (hn : n < cfg2.N) :
    inv V c (n + 1) hn = iprop(owns (c : Thread nD τ) scM fullShare (acc V c n hn) ∗ others c) := rfl
theorem inv_pos (c : Dev nD) (n : ℕ) (h : n ≤ cfg2.N) (hz : n ≠ 0) :
    inv V c n h = iprop(owns (c : Thread nD τ) scM fullShare (acc V c (n - 1) (by omega)) ∗ others c) := by
  cases n with
  | zero => exact absurd rfl hz
  | succ n => rfl

/-! ## The proof data -/

/-- The arrays as the region finds them; after a point the inputs' buffers at their blocks and the output's at the
    sign of the accumulator (consulted only where the last coordinate is 7); the invariant above; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => k2_pay3 (acc V c t.val t.isLt)
  Φ t := inv V c t.val (Nat.le_of_lt_succ t.isLt)
  q _ := fullShare
  owed _ := 0

theorem A_eq (c : Dev nD) (w : Fin cfg2.W) : (dat V c).A w = V c (Pipeline.arrRef spec2 w) := by dsimp only [dat]
theorem after_lhs (c : Dev nD) (t : Fin cfg2.N) : (dat V c).after 0 t = blk V c 0 t := by dsimp only [dat]
theorem after_rhs (c : Dev nD) (t : Fin cfg2.N) : (dat V c).after 1 t = blk V c 1 t := by dsimp only [dat]
theorem after_out (c : Dev nD) (t : Fin cfg2.N) : (dat V c).after 2 t = k2_pay3 (acc V c t.val t.isLt) := by dsimp only [dat]
theorem Phi_castSucc (c : Dev nD) (t : Fin cfg2.N) : (dat V c).Φ t.castSucc = inv V c t.val (Nat.le_of_lt t.isLt) := by
  dsimp only [dat]; simp only [Fin.coe_castSucc]
theorem found_lhs (c : Dev nD) (t : Fin cfg2.N) (d) : (dat V c).before 0 t d = blk V c 0 t :=
  before_lhs V (dat V c) (A_eq V c 0) (after_lhs V c) t d
theorem found_rhs (c : Dev nD) (t : Fin cfg2.N) (d) : (dat V c).before 1 t d = blk V c 1 t :=
  before_rhs V (dat V c) (A_eq V c 1) (after_rhs V c) t d

/-! ## The body obligation -/

/-- Each window's current staging buffer at point `t`, as the pipeline passes it to the body. -/
abbrev msL (t : Fin cfg2.N) : Memref sig .tc .vmem S1024x512 .bf16 := win2_0.stage (cfg2.slots t 0)
abbrev msR (t : Fin cfg2.N) : Memref sig .tc .vmem S512x1024 .bf16 := win2_1.stage (cfg2.slots t 1)
abbrev msO (t : Fin cfg2.N) : Memref sig .tc .vmem S1024x1024 .f32 := win2_2.stage (cfg2.slots t 2)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (msL t) fullShare ((dat V c).before 0 t d))
    ∗ (∃ d, owns (c : Thread nD τ) (msR t) fullShare ((dat V c).before 1 t d))
    ∗ (∃ d, owns (c : Thread nD τ) (msO t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4000000 in
/-- The body at any point. The inputs' buffers hold their blocks; the position of the point in its run of eight says
    which of the three statements applies; the invariant hands over the accumulator at what the point before left
    (at anything before the very first point) and takes it back at this point's value; where the output block is
    not stored its buffer goes back as it came. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [found_lhs, found_rhs]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (msL t) fullShare ((dat V c).after 0 t) from by
    unfold Dat.leavesExact; rw [live_lhs t], after_lhs]
  rw [show (dat V c).leavesExact 1 t = owns (c : Thread nD τ) (msR t) fullShare ((dat V c).after 1 t) from by
    unfold Dat.leavesExact; rw [live_rhs t], after_rhs]
  have hN : t.val < 256 := lt_of_lt_of_eq t.isLt (show cfg2.N = 256 from N_2)
  by_cases h7 : t.val % 8 = 7
  · have h0 : ¬t.val % 8 = 0 := by omega
    have hz : t.val ≠ 0 := by omega
    rw [show (dat V c).leavesExact 2 t = owns (c : Thread nD τ) (msO t) fullShare ((dat V c).after 2 t) from by
      unfold Dat.leavesExact; rw [live_out t ((last_iff t).mpr h7)], after_out]
    rw [acc_step V c t h0, Phi_castSucc V c t, inv_pos V c _ _ hz]
    iintro ⟨⟨HS, Hr⟩, Ho, ⟨%d0, H0⟩, ⟨%d1, H1⟩, ⟨%d2, H2⟩⟩
    iapply (body_last c Set.univ (grid2.coords t) _ _ _ _ _ _ _ _ (fun h => h0 ((first_iff t).mp h)) ((last_iff t).mpr h7) (blk V c 0 t) (blk V c 1 t) _ _ _)
    isplitl [H0]; · iexact H0
    isplitl [H1]; · iexact H1
    isplitl [H2]; · iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat V c) 2 t (idle_out t (fun h => h7 ((last_iff t).mp h))) (keep_out t (fun h => h7 ((last_iff t).mp h)))]
    by_cases h0 : t.val % 8 = 0
    · rw [acc_first V c t h0]
      by_cases hz : t.val = 0
      · rw [Phi_castSucc V c t, inv_zero V c _ _ hz]
        iintro ⟨HΦ, Ho, ⟨%d0, H0⟩, ⟨%d1, H1⟩, ⟨%d2, H2⟩⟩
        ihave HΦ' := (PhiA_split (F := F) c) $$ HΦ
        icases HΦ' with ⟨⟨%s, HS⟩, Hr⟩
        iapply (body_first c Set.univ (grid2.coords t) _ _ _ _ _ _ _ _ ((first_iff t).mpr h0) (fun h => h7 ((last_iff t).mp h)) (blk V c 0 t) (blk V c 1 t) _ s _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
      · rw [Phi_castSucc V c t, inv_pos V c _ _ hz]
        iintro ⟨⟨HS, Hr⟩, Ho, ⟨%d0, H0⟩, ⟨%d1, H1⟩, ⟨%d2, H2⟩⟩
        iapply (body_first c Set.univ (grid2.coords t) _ _ _ _ _ _ _ _ ((first_iff t).mpr h0) (fun h => h7 ((last_iff t).mp h)) (blk V c 0 t) (blk V c 1 t) _ _ _)
        isplitl [H0]; · iexact H0
        isplitl [H1]; · iexact H1
        isplitl [H2]; · iexact H2
        isplitl [HS]; · iexact HS
        iintro ⟨H0, H1, H2, HS⟩
        isplitl [HS Hr]
        · isplitl [HS]; · iexact HS
          iexact Hr
        isplitl [Ho]; · iexact Ho
        isplitl [H0]; · iexact H0
        isplitl [H1]; · iexact H1
        iexists _; iexact H2
    · have hz : t.val ≠ 0 := fun e => h0 (by rw [e])
      rw [acc_step V c t h0, Phi_castSucc V c t, inv_pos V c _ _ hz]
      iintro ⟨⟨HS, Hr⟩, Ho, ⟨%d0, H0⟩, ⟨%d1, H1⟩, ⟨%d2, H2⟩⟩
      iapply (body_mid c Set.univ (grid2.coords t) _ _ _ _ _ _ _ _ (fun h => h0 ((first_iff t).mp h)) (fun h => h7 ((last_iff t).mp h)) (blk V c 0 t) (blk V c 1 t) _ _ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant at the region's two ends, and the data's plain fields -/

theorem Phi_first (c : Dev nD) : (dat V c).Φ 0 = Pipeline.ΦA spec2 c := rfl

/-- After the last point the accumulator's contents are forgotten: the class invariant again. -/
theorem Phi_last (c : Dev nD) : (dat V c).Φ (Fin.last cfg2.N) ⊢ (Pipeline.ΦA spec2 c : sProp 𝕄) := by
  rw [show (dat V c).Φ (Fin.last cfg2.N) = inv V c (Fin.last cfg2.N).val (Nat.le_of_lt_succ (Fin.last cfg2.N).isLt) from rfl,
    inv_pos V c _ _ (by rw [Fin.val_last]; have : cfg2.N = 256 := N_2; omega)]
  iintro ⟨HS, Hr⟩
  iapply (PhiA_join (F := F) c)
  isplitl [HS]; · iexists _; iexact HS
  iexact Hr

theorem q_full (c : Dev nD) (w : Fin cfg2.W) : (dat V c).q w = fullShare := rfl
theorem owed_zero (c : Dev nD) (t : Fin (cfg2.N + 1)) : (dat V c).owed t = 0 := rfl

end Cert.Kernel.Layer2
end
-- ==== Proof.WordRegionProofs.lean ====
/-
  (The program as printed, its floats read as machine words: the statements below do not look inside the body's
  arithmetic, so they read the same as for the idealized program.)

  The three kernel regions' proof data, gathered in the form the program's run over its three regions takes them:
  for each layer, the contents of its buffers from point to point (the running accumulator), the pipeline's
  obligation met at every point, and the plain invariant at the region's two ends.
-/
import proofs.«113464_j3315714752880_2_alg».proof.Proof.WordThreeRegionSegs
import proofs.«113464_j3315714752880_2_alg».proof.Proof.WordLayer0Data
import proofs.«113464_j3315714752880_2_alg».proof.Proof.WordLayer1Data
import proofs.«113464_j3315714752880_2_alg».proof.Proof.WordLayer2Data

noncomputable section

namespace Cert.Kernel.ThreeRegions

open Idealize.ShloMosaic Idealize.ShloMosaic.TcCoe
open Idealize.SL Idealize.SL.BI
open scoped Idealize.SL.BI
open Cert.Kernel Cert.Kernel.Gen

variable {F : FTy → Type} [BitOps F]

/-- The first layer's region. -/
def proof0 : RegionProof F cfg0 where
  dat := Layer0.dat
  hA := Layer0.A_eq
  hq := Layer0.q_full
  howed := Layer0.owed_zero
  hrec := fun _ _ => rfl
  hΦ0 := fun V c => by rw [Layer0.Phi_first]
  hΦN := Layer0.Phi_last
  hbody := Layer0.body_obligation

/-- The second layer's region. -/
def proof1 : RegionProof F cfg1 where
  dat := Layer1.dat
  hA := Layer1.A_eq
  hq := Layer1.q_full
  howed := Layer1.owed_zero
  hrec := fun _ _ => rfl
  hΦ0 := fun V c => by rw [Layer1.Phi_first]
  hΦN := Layer1.Phi_last
  hbody := Layer1.body_obligation

/-- The third layer's region. -/
def proof2 : RegionProof F cfg2 where
  dat := Layer2.dat
  hA := Layer2.A_eq
  hq := Layer2.q_full
  howed := Layer2.owed_zero
  hrec := fun _ _ => rfl
  hΦ0 := fun V c => by rw [Layer2.Phi_first]
  hΦN := Layer2.Phi_last
  hbody := Layer2.body_obligation

end Cert.Kernel.ThreeRegions

end
-- ==== Proof.WordThreeRegionRun.lean ====
/-
  (The program as printed, its floats read as machine words: the statements below do not look inside the body's
  arithmetic, so they read the same as for the idealized program.)

  The run of the whole program from the three regions' proof data.

  Launched from any memory with zero counters, every weakly fair execution terminates; at the end each argument
  array holds its launch contents (no host operation and no region writes one), and the result array holds what the
  last region's write-backs leave of it. The contents a region is entered from are read back buffer by buffer: an
  input that an earlier region produced holds that region's output, and every other buffer what the host operations
  before the first region left.
-/
import proofs.«113464_j3315714752880_2_alg».proof.Proof.WordThreeRegionSegs

noncomputable section

namespace Cert.Kernel.ThreeRegions

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)
variable (P0 : RegionProof F cfg0) (P1 : RegionProof F cfg1) (P2 : RegionProof F cfg2)

/-! ## Reading the chain of contents back

What a region finds in each of its operands, in terms of the stage before: its first operand is the previous
region's output as that region leaves it (the launch's first argument for region 0), its second a host result no
region touches. -/

theorem entry0_apply (c : Dev nD) (b : Ref sig .tc) : entry0 m c b = V12 m c b := rfl
theorem entry1_main_v9 (c : Dev nD) : entry1 m P0 c main_v9 = (P0.dat (entry0 m) c).arrAt 2 cfg0.N :=
  (exit0_arr m P0 c 2).symm
theorem entry1_of_ne (c : Dev nD) {b : Ref sig .tc} (hb : b ≠ main_v9) : entry1 m P0 c b = V12 m c b :=
  update_at_ne hb (val0 m c) (out0 m P0 c)
theorem entry1_main_v5 (c : Dev nD) : entry1 m P0 c main_v5 = V12 m c main_v5 := entry1_of_ne m P0 c (by decide)
theorem entry2_main_v10 (c : Dev nD) : entry2 m P0 P1 c main_v10 = (P1.dat (entry1 m P0) c).arrAt 2 cfg1.N :=
  (exit1_arr m P0 P1 c 2).symm
theorem entry2_of_ne (c : Dev nD) {b : Ref sig .tc} (hb : b ≠ main_v10) : entry2 m P0 P1 c b = entry1 m P0 c b :=
  update_at_ne hb (val1 m P0 c) (out1 m P0 P1 c)
theorem entry2_main_v8 (c : Dev nD) : entry2 m P0 P1 c main_v8 = V12 m c main_v8 :=
  (entry2_of_ne m P0 P1 c (by decide)).trans (entry1_of_ne m P0 c (by decide))
theorem exit2_main_v11 (c : Dev nD) : exit2 m P0 P1 P2 c main_v11 = (P2.dat (entry2 m P0 P1) c).arrAt 2 cfg2.N :=
  (exit2_arr m P0 P1 P2 c 2).symm

/-- The same, at the generated fold's own names. -/
theorem V13_main_v9 (c : Dev nD) : V13 m (outs m P0 P1 P2) c main_v9 = (P0.dat (entry0 m) c).arrAt 2 cfg0.N :=
  (congrFun (V13_eq m P0 P1 P2 c) _).trans (entry1_main_v9 m P0 c)
theorem V13_main_v5 (c : Dev nD) : V13 m (outs m P0 P1 P2) c main_v5 = V12 m c main_v5 :=
  V13_of m (outs m P0 P1 P2) c main_v5 (by decide)
theorem V14_main_v10 (c : Dev nD) : V14 m (outs m P0 P1 P2) c main_v10 = (P1.dat (entry1 m P0) c).arrAt 2 cfg1.N :=
  (congrFun (V14_eq m P0 P1 P2 c) _).trans (entry2_main_v10 m P0 P1 c)
theorem V14_main_v8 (c : Dev nD) : V14 m (outs m P0 P1 P2) c main_v8 = V12 m c main_v8 :=
  (V14_of m (outs m P0 P1 P2) c main_v8 (by decide)).trans (V13_of m (outs m P0 P1 P2) c main_v8 (by decide))
theorem V15_main_v11 (c : Dev nD) : V15 m (outs m P0 P1 P2) c main_v11 = (P2.dat (entry2 m P0 P1) c).arrAt 2 cfg2.N :=
  (congrFun (V15_eq m P0 P1 P2 c) _).trans (exit2_main_v11 m P0 P1 P2 c)
/-- Each region is entered at the generated fold's valuation before it. -/
theorem entry1_eq : entry1 m P0 = fun c (b : Ref sig .tc) => V13 m (outs m P0 P1 P2) c b := by
  funext c b; exact (congrFun (V13_eq m P0 P1 P2 c) _).symm
theorem entry2_eq : entry2 m P0 P1 = fun c (b : Ref sig .tc) => V14 m (outs m P0 P1 P2) c b := by
  funext c b; exact (congrFun (V14_eq m P0 P1 P2 c) _).symm

/-! ## The launch -/

/-- The launch's ghost element: the rounds library's, at every pipeline's staging cells. -/
abbrev u₀ : UR sig nD τ := initOf (Pipeline.cells cfgs cellOf_inj) (Pipeline.launchToks cfgs cellOf_inj)

/-- It is all the launch has to give: no core gets a ghost resource of its own. -/
theorem launch_elem : (ownU u₀ : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  rw [BI.bigSep_emp_const]
  iintro Hu; imodintro
  isplitl [Hu]
  · iapply (show (ownU u₀ : sProp 𝕄) ⊢ BI.own (emb₁ u₀) from .rfl); iexact Hu
  iempintro

/-- What the launch deals a core, the buffers apart, makes `rest`: the generator register at its launch state, the core
    owing nothing. -/
theorem launch_rest (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => rest c) : sProp 𝕄) := by
  refine Pipeline.initEach L lv fun c => ?_
  iintro ⟨⟨-, Howes, -, Hgen, -⟩, -⟩
  imodintro
  isplitl [Hgen]; · iexists _; iexact Hgen
  iexists ∅; iexact Howes

theorem rest_owes (c : Dev nD) :
    rest c ⊢ (iprop(∃ W, owes (c : Thread nD τ) (0 : CellTallies nD τ sig Unit) W) : sProp 𝕄) := by
  iintro ⟨-, Howes⟩; iexact Howes

/-! ## The frame -/

include P0 P1 P2 in
set_option backward.isDefEq.respectTransparency.types false in
/-- The program runs and its four argument arrays end as launched: the generated conditional frame at the three
    records, each entered from the fold's valuation before it and left at the one after it. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m (EP := emb₁) (ι := ()) (𝒱₀ := Variants.none) (L := L) (lv := lv) (hL := fun _ _ => rfl) (ρ := ρ)
    (outs := outs m P0 P1 P2) (pdats := pdats m P0 P1 P2) (O₀ := fun _ => 0) (G := fun _ => (BI.emp : sProp 𝕄)) (u₀ := u₀)
    (hu₀ := launch_elem) (E := fun _ c => rest c) (hE0 := launch_rest ρ) (hE3 := rest_owes)
    (R0 := reg0 m P0 P1 P2) (hpre0 := fun c => .rfl)
    (hpost0 := fun c => by rw [V13_eq m P0 P1 P2 c]; exact .rfl)
    (R1 := reg1 m P0 P1 P2) (hpre1 := fun c => by rw [V13_eq m P0 P1 P2 c]; exact .rfl)
    (hpost1 := fun c => by rw [V14_eq m P0 P1 P2 c]; exact .rfl)
    (R2 := reg2 m P0 P1 P2) (hpre2 := fun c => by rw [V14_eq m P0 P1 P2 c]; exact .rfl)
    (hpost2 := fun c => by rw [V15_eq m P0 P1 P2 c]; exact .rfl)

/-! ## The run, with the result

The generated conditional frame reads only the arguments off the last valuation. Here the same segments are launched
once more and every unscoped buffer is read off it: the arguments as before, and the result array `main_v11` at what
the last region's write-backs leave. -/

/-- An unscoped TensorCore reference is among the buffers the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- Every unscoped buffer ends at the last valuation of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = val3 m P0 P1 P2 c b) := by
  refine Pipeline.θ_run_regions_kit_dev (pcfgs (F := F)) adm (pdats m P0 P1 P2) () cellOf_inj emb₁ defs₀ Variants.none L lv m ρ main
    (segs m Variants.none L lv (fun _ c => rest c) () (pdats m P0 P1 P2) (reg0 m P0 P1 P2) (reg1 m P0 P1 P2) (reg2 m P0 P1 P2))
    (fun c Q => ?hmain) (fun c => ?hnd) (fun _ => 0) (fun _ _ => rfl) (fun _ => (BI.emp : sProp 𝕄)) u₀ launch_elem
    (T₀ := fun c => iprop(StableHlo.held (c : Thread nD τ) (Pipeline.ucRefs τ sig) (V0 m c) ∗ rest c))
    (Tₙ := fun c => StableHlo.held (c : Thread nD τ) (Pipeline.ucRefs τ sig) (val3 m P0 P1 P2 c))
    (hch := fun c => ⟨.rfl, .rfl, .rfl, .rfl, .rfl, .rfl, .rfl, .rfl, .rfl, .rfl, .rfl, .rfl, .rfl, .rfl, .rfl,
      sep_mono .rfl (rest_owes c)⟩)
    (hinit := ?hinit)
    (QY := fun c s => ∀ b ∈ Pipeline.ucRefs τ sig, s.mem ((c : Thread nD τ).1, b) = val3 m P0 P1 P2 c b)
    (hfin := fun c s' => ?hfin) (hQ := fun _ h => h)
  case hmain =>
    -- @main is the chain of its items, and so is the run of the segments
    rewrite [main_chain c, Pipeline.Seg.run_eq_chain]
    exact .rfl
  case hnd =>
    simp only [segs, Pipeline.Seg.pipes_host, Pipeline.Seg.pipes_region, Pipeline.Seg.pipes_nil]; decide
  case hinit =>
    -- per core: the unscoped buffers are held at the launch contents, the rest of the deal makes `rest`
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hbufs, -, Howes, -, Hgen, -⟩, -⟩
    imodintro
    isplitl [Hbufs]; · iexact Hbufs
    isplitl [Hgen]; · iexists _; iexact Hgen
    iexists ∅; iexact Howes
  case hfin =>
    unfold StableHlo.held
    iintro ⟨Hbufs, HSI⟩
    imodintro
    iapply (pointsTo_read_all (Pipeline.ucRefs τ sig) (fun b => ((c : Thread nD τ).1, b)) (val3 m P0 P1 P2 c) s')
    isplitl [Hbufs] <;> iassumption

/-- THE RUN WITH ITS VALUE: the program terminates, the result array holds what the third region's write-backs leave
    — that region entered from the second's result, the second from the first's —, and the arguments are as launched. -/
theorem run_value (ρ : Dev nD → PrngReg) :
    θ_run defs (onTc (τ := τ) (main (F := F))) ⟨m, fun _ => 0, ρ⟩ (fun r => ∀ c : Dev nD,
      r.2.mem ((c.tc : Thread nD τ).loc main_v11) = (P2.dat (entry2 m P0 P1) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  OrdCont.mono (θ_run defs (onTc (τ := τ) (main (F := F))) ⟨m, fun _ => 0, ρ⟩) (fun r h c =>
    ⟨(h c _ (mem_uc main_v11 (by decide))).trans (exit2_main_v11 m P0 P1 P2 c),
     (h c _ (mem_uc main_arg0 (by decide))).trans ((congrFun (V15_eq m P0 P1 P2 c).symm _).trans (V15_main_arg0 m (outs m P0 P1 P2) c)),
     (h c _ (mem_uc main_arg1 (by decide))).trans ((congrFun (V15_eq m P0 P1 P2 c).symm _).trans (V15_main_arg1 m (outs m P0 P1 P2) c)),
     (h c _ (mem_uc main_arg2 (by decide))).trans ((congrFun (V15_eq m P0 P1 P2 c).symm _).trans (V15_main_arg2 m (outs m P0 P1 P2) c)),
     (h c _ (mem_uc main_arg3 (by decide))).trans ((congrFun (V15_eq m P0 P1 P2 c).symm _).trans (V15_main_arg3 m (outs m P0 P1 P2) c))⟩) (run_all m P0 P1 P2 ρ)

end Cert.Kernel.ThreeRegions

end
-- ==== Proof.Spec.lean ====
/-
  The specification of both programs over the extended reals, and the scalar facts that make the reference meet it.

  A weight w is quantized to Q w = min 1 (max (-1) (round w)), the rounding to the nearest integer with ties to
  even; sgn is the three-valued sign in the shape a kernel computes it, "where |a| > 0 take -1 or 1 by a < 0, else
  a itself". One layer sends an activation array h [8192, 4096] and a quantized weight array q [4096, 4096] to
  sgn (∑ k, h[r, k] · q[k, c]) at [r, c]; the network is three layers, G x W0 W1 W2.

  The reference spells the same values with straight-through estimators: w + (Q w − w) for Q w, and
  c + (sign y − c) for sign y, where c = min 1 (max (-1) y) and y is the accumulated sum times 2⁻⁴. On the extended
  reals r + (s − r) = s whenever r is a real (for r infinite the difference is not defined), c always lies in
  [-1, 1] and so is a real, w is a real by hypothesis, and a positive real factor does not move the sign.
-/
import Idealize.ShloMosaic.PureOps.Ideal
import Idealize.ShloMosaic.PureOps.Ideal.Laws
import Idealize.ShloMosaic.Lib.ValueIdx

noncomputable section

namespace Cert.TernSpec

open Idealize.ShloMosaic Idealize.ShloMosaic.ValueIdx
open scoped BigOperators

/-- The activations' shape, [8192, 4096]. -/
abbrev SAct : Shape := ⟨2, ![8192, 4096]⟩
/-- A weight array's shape, [4096, 4096]. -/
abbrev SWt : Shape := ⟨2, ![4096, 4096]⟩

/-! ## The three float literals -/

/-- The word of 1.0 denotes 1. -/
theorem ofBits_one : Ideal.ofBits .f32 0x3F800000#32 = 1 := IdealRules.sign_bit.ideal_onePat .f32
/-- The word of -1.0 denotes -1. -/
theorem ofBits_negOne : Ideal.ofBits .f32 0xBF800000#32 = -1 := IdealRules.sign_bit.ideal_negOnePat .f32
/-- The word of 0.0625 denotes the real 1/16. -/
theorem ofBits_sixteenth : Ideal.ofBits .f32 0x3D800000#32 = ((1 / 16 : ℝ) : EReal) := by
  simp [Ideal.ofBits, Ideal.ieee, -EReal.coe_mul]; norm_num

/-! ## The quantizer, the sign, one layer, the network -/

/-- Round to the nearest integer, ties to even, then clamp into [-1, 1]: the order of the operands is the one
    the clamp is printed in, the bound first. -/
def Q (w : EReal) : EReal :=
  min (Ideal.ofBits .f32 0x3F800000#32) (max (Ideal.ofBits .f32 0xBF800000#32) (Ideal.liftRound Ideal.roundHalfEven w))

/-- The quantizer on a whole weight array. -/
def QW (W : SWt.Idx → EReal) : SWt.Idx → EReal := fun i => Q (W i)

/-- The sign as a kernel computes it: where |a| > 0, -1 or 1 by a < 0; elsewhere a itself (which is then 0). -/
def sgn (a : EReal) : EReal :=
  Scalar.select (FloatOps.cmpf (F := Ideal) (φ := .f32) .ogt (FloatOps.absf (F := Ideal) (φ := .f32) a) (Scalar.ofBits .f32 0x00000000#32))
    (Scalar.select (FloatOps.cmpf (F := Ideal) (φ := .f32) .olt a (Scalar.ofBits .f32 0x00000000#32))
      (Scalar.ofBits (F := Ideal) .f32 0xBF800000#32) (Scalar.ofBits (F := Ideal) .f32 0x3F800000#32)) a

/-- One layer: the sign of the row-by-column product, over the 4096 terms of the contracted axis. -/
def L (h : SAct.Idx → EReal) (q : SWt.Idx → EReal) : SAct.Idx → EReal :=
  fun i => sgn (∑ k : Fin 4096, h (ix2 (n0 := 8192) (n1 := 4096) (i 0) k) * q (ix2 (n0 := 4096) (n1 := 4096) k (i 1)))

/-- The network: three layers, each with its own quantized weights. -/
def G (x : SAct.Idx → EReal) (W0 W1 W2 : SWt.Idx → EReal) : SAct.Idx → EReal :=
  L (L (L x (QW W0)) (QW W1)) (QW W2)

/-- A layer at the index of row r and column c. -/
theorem L_apply (h : SAct.Idx → EReal) (q : SWt.Idx → EReal) (r : Fin 8192) (c : Fin 4096) :
    L h q (ix2 r c) = sgn (∑ k : Fin 4096, h (ix2 r k) * q (ix2 k c)) := rfl

/-! ## The sign -/

/-- The kernel's sign is the sign of the extended reals: -1 below zero (at -∞ too), 1 above (at +∞ too), 0 at 0. -/
theorem sgn_eq_sign (a : EReal) : sgn a = Ideal.sign a := Ideal.jnp_sign_eq_sign_f32 a

/-- The sign by cases on the order. -/
theorem sgn_eq_ite (a : EReal) : sgn a = if a < 0 then -1 else if 0 < a then 1 else 0 := by
  rw [sgn_eq_sign]
  by_cases hlt : a < 0
  · rw [if_pos hlt, Ideal.sign_of_neg hlt]
  · by_cases hgt : 0 < a
    · rw [if_neg hlt, if_pos hgt, Ideal.sign_of_pos hgt]
    · rw [if_neg hlt, if_neg hgt, le_antisymm (not_lt.mp hgt) (not_lt.mp hlt), Ideal.sign_zero]

/-- The printed select over a whole array, read at an index, is sgn of the element there. -/
theorem sgn_vector_apply {s : Shape} (x : FVec Ideal s .f32) (i : s.Idx) :
    (select (cmpf .ogt (absf x) (broadcast s (Scalar.ofBits .f32 0x00000000#32)))
        (select (cmpf .olt x (constant s .f32 0x00000000#32)) (constant s .f32 0xBF800000#32)
          (constant s .f32 0x3F800000#32)) x) i = sgn (x i) := rfl

/-- The host's sign operation is the same function. -/
theorem hostSign_eq_sgn (a : EReal) : FloatOps.hostUnary (F := Ideal) (φ := .f32) .sign a = sgn a :=
  (sgn_eq_sign a).symm

/-- A positive real factor does not move the sign, at the infinities either. -/
theorem sign_mul_pos (a : EReal) {c : ℝ} (hc : 0 < c) : Ideal.sign (a * (c : EReal)) = Ideal.sign a := by
  induction a using EReal.rec with
  | bot => rw [EReal.bot_mul_coe_of_pos hc]
  | top => rw [EReal.top_mul_coe_of_pos hc]
  | coe r => rw [← EReal.coe_mul, Ideal.sign_coe, Ideal.sign_coe, sign_mul, sign_pos hc, mul_one]

/-- The scaling by 2⁻⁴ does not move the sign. -/
theorem sgn_mul_sixteenth (a : EReal) : sgn (a * Ideal.ofBits .f32 0x3D800000#32) = sgn a := by
  rw [sgn_eq_sign, sgn_eq_sign, ofBits_sixteenth]
  exact sign_mul_pos a (by norm_num)

/-! ## The straight-through estimators -/

/-- Adding back what was subtracted: r + (s − r) = s for a real r and any extended real s. -/
theorem add_sub_cancel_real (r : ℝ) (s : EReal) : (r : EReal) + (s - (r : EReal)) = s := by
  induction s using EReal.rec with
  | bot => simp
  | top => simp
  | coe t => rw [← EReal.coe_sub, ← EReal.coe_add]; congr 1; ring

/-- A value clamped into [-1, 1] is a real, whatever was clamped. -/
theorem clamp_real (y : EReal) :
    ∃ r : ℝ, min (Ideal.ofBits .f32 0x3F800000#32) (max (Ideal.ofBits .f32 0xBF800000#32) y) = (r : EReal) := by
  have e1 : (1 : EReal) = ((1 : ℝ) : EReal) := EReal.coe_one.symm
  have e2 : (-1 : EReal) = ((-1 : ℝ) : EReal) := by rw [EReal.coe_neg, EReal.coe_one]
  rw [ofBits_one, ofBits_negOne, e2, e1]
  have hlo : ((-1 : ℝ) : EReal) ≤ min ((1 : ℝ) : EReal) (max ((-1 : ℝ) : EReal) y) :=
    le_min (EReal.coe_le_coe_iff.mpr (by norm_num)) (le_max_left _ _)
  have hhi : min ((1 : ℝ) : EReal) (max ((-1 : ℝ) : EReal) y) ≤ ((1 : ℝ) : EReal) := min_le_left _ _
  exact ⟨_, (EReal.coe_toReal (ne_top_of_le_ne_top (EReal.coe_ne_top 1) hhi)
    (ne_bot_of_le_ne_bot (EReal.coe_ne_bot (-1)) hlo)).symm⟩

/-- The weights' estimator: w + (Q w − w) is Q w for a real w. -/
theorem ternarize_eq (w : EReal) (hw : ∃ r : ℝ, w = (r : EReal)) : w + (Q w - w) = Q w := by
  obtain ⟨r, rfl⟩ := hw
  exact add_sub_cancel_real r _

/-- The activations' estimator on the scaled sum: with y = a · 2⁻⁴ and c the clamp of y,
    c + (sign y − c) is the sign of a. -/
theorem binarize_eq (a : EReal) :
    min (Ideal.ofBits .f32 0x3F800000#32) (max (Ideal.ofBits .f32 0xBF800000#32) (a * Ideal.ofBits .f32 0x3D800000#32))
      + (Ideal.sign (a * Ideal.ofBits .f32 0x3D800000#32)
          - min (Ideal.ofBits .f32 0x3F800000#32) (max (Ideal.ofBits .f32 0xBF800000#32) (a * Ideal.ofBits .f32 0x3D800000#32)))
      = sgn a := by
  obtain ⟨r, hr⟩ := clamp_real (a * Ideal.ofBits .f32 0x3D800000#32)
  rw [hr, add_sub_cancel_real, ← sgn_eq_sign, sgn_mul_sixteenth]

end Cert.TernSpec

end
-- ==== Proof.Finite.lean ====
/-
  From the precondition to "every entry of every argument array is a real".

  The precondition is the conjunction, over the four argument arrays, of "all of |a| < +∞": each conjunct a
  reduction by "and" of the elementwise comparison against the word of +∞, the whole read at the one index of a
  rank-0 result. A reduction by "and" that came out 1 met a 1 at every index; the comparison being 1 at an index says
  max a (-a) < ⊤ there; and that fails at both infinities, where max a (-a) is ⊤. So the entry is a real.
-/
import proofs.«113464_j3315714752880_2_alg».proof.Defs
import Idealize.ShloMosaic.Lib.ReduceAll
import Idealize.ShloMosaic.Lib.Pipeline.Value
import Idealize.ShloMosaic.Lib.ValueIdx

noncomputable section

namespace Cert.Finite

open Idealize.ShloMosaic Idealize.ShloMosaic.ValueIdx Idealize.SL.Sem Cert.Pre_finite_inputs

/-- A rank-0 array has one index. -/
instance subsingleton_scalar_idx : Subsingleton S_.Idx := ⟨fun _ _ => funext fun d => d.elim0⟩

/-- The word of +∞ denotes ⊤. -/
theorem ofBits_inf : Ideal.ofBits .f32 0x7F800000#32 = ⊤ := by simp [Ideal.ofBits, Ideal.ieee]

/-- An extended real whose absolute value is below +∞ is a real: at ⊥ and at ⊤ the absolute value is ⊤. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- One array: if "all of |a| < +∞" is 1 then every entry of a is a real. -/
theorem real_of_all {s : Shape} (bc : S_.BroadcastsInDim s (![] : Fin 0 → Fin s.rank)) {axes : List (Fin s.rank)}
    (hr : s.ReducesTo axes S_) (hu : 0 < S_.numel) (a : FVec Ideal s .f32)
    (e : Host.reduce IntOp.andi (cmpf .olt (Host.absf a) (broadcastInDim s ![] bc (constant (F := Ideal) S_ .f32 0x7F800000#32)))
          (constantI S_ 1 1#1) hr hu ix0 = 1#1)
    (i : s.Idx) : ∃ r : ℝ, a i = (r : EReal) := by
  have h1 := Host.reduce_andi_all _ _ hr hu ix0 e i
  have hb : broadcastInDim s ![] bc (constant (F := Ideal) S_ .f32 0x7F800000#32) i = Ideal.ofBits .f32 0x7F800000#32 :=
    broadcastInDim_apply _ bc _ i ix0 (fun d => d.elim0)
  have h2 : Ideal.cmp .olt (max (a i) (-(a i)))
      (broadcastInDim s ![] bc (constant (F := Ideal) S_ .f32 0x7F800000#32) i) = 1#1 := h1
  rw [hb] at h2
  exact real_of_abs_lt_inf (a i) h2

variable [Facts]

/-- The printed predicate, all ones, makes every entry of its four arguments a real. -/
theorem real_of_fn (a0 : FVec Ideal S8192x4096 .f32) (a1 a2 a3 : FVec Ideal S4096x4096 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all _ _ _ a0 e0, real_of_all _ _ _ a1 e1, real_of_all _ _ _ a2 e2, real_of_all _ _ _ a3 e3⟩

/-- Under the kernel's precondition, on every device, every entry of each of the four argument arrays is a real. -/
theorem real_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal S8192x4096 .f32) i = (r : EReal))
    ∧ (∀ i, ∃ r : ℝ, (m ((c.tc : Thread Cert.KernelIdeal.nD Cert.KernelIdeal.τ).loc Cert.KernelIdeal.main_arg1)
        : FVec Ideal S4096x4096 .f32) i = (r : EReal))
    ∧ (∀ i, ∃ r : ℝ, (m ((c.tc : Thread Cert.KernelIdeal.nD Cert.KernelIdeal.τ).loc Cert.KernelIdeal.main_arg2)
        : FVec Ideal S4096x4096 .f32) i = (r : EReal))
    ∧ (∀ i, ∃ r : ℝ, (m ((c.tc : Thread Cert.KernelIdeal.nD Cert.KernelIdeal.τ).loc Cert.KernelIdeal.main_arg3)
        : FVec Ideal S4096x4096 .f32) i = (r : EReal)) :=
  real_of_fn _ _ _ _ (hpre c)

end Cert.Finite

end
-- ==== Proof.RefIsG.lean ====
/-
  The reference computes G.

  Each of the reference's three layers is one function of an activation array h and a weight array w: quantize w
  through its straight-through estimator, multiply, scale by 2⁻⁴, and take the sign through the activations'
  estimator. Read at an index, with w finite, the weights' estimator gives Q w, the product is the sum over the
  4096 terms of the contracted axis, and the activations' estimator gives the sign of that sum: the layer of the
  specification. The second and third layers are the first one's function at other arguments.
-/
import proofs.«113464_j3315714752880_2_alg».proof.Proof.Gen.ReferenceIdeal.Read
import proofs.«113464_j3315714752880_2_alg».proof.Proof.Spec

noncomputable section

namespace Cert.RefIsG

open Cert.ReferenceIdeal Cert.ReferenceIdeal.Gen Cert.ReferenceIdeal.Read Cert.TernSpec
open Idealize.ShloMosaic Idealize.ShloMosaic.TcCoe Idealize.ShloMosaic.ValueIdx Idealize.SL.Sem
open scoped BigOperators

/-- The left operand's index at term k of the product: row of the result, column k. -/
theorem lidx_eq (i : S8192x4096.Idx) (k : Fin 4096) :
    lidx_main_v4 i k = ix2 (n0 := 8192) (n1 := 4096) (i 0) k :=
  funext fun a => Fin.ext (by match a with | ⟨0, _⟩ => rfl | ⟨1, _⟩ => rfl)

/-- The right operand's index at term k of the product: row k, column of the result. -/
theorem ridx_eq (i : S8192x4096.Idx) (k : Fin 4096) :
    ridx_main_v4 i k = ix2 (n0 := 4096) (n1 := 4096) k (i 1) :=
  funext fun a => Fin.ext (by match a with | ⟨0, _⟩ => rfl | ⟨1, _⟩ => rfl)

/-- The weights' estimator at an index: the quantized weight, for a finite weight. -/
theorem ternarized_apply (w : FVec Ideal S4096x4096 .f32) (hw : ∀ j, ∃ r : ℝ, w j = (r : EReal)) (j : S4096x4096.Idx) :
    val_main_v3 (F := Ideal) w j = Q (w j) := by
  rw [val_main_v3_apply, val_main_v2_apply, val_main_v1_apply, val_main_call1_v4_apply, val_main_call1_v3_apply,
    val_main_cst_0_apply, val_main_call1_v2_apply, val_main_call1_v1_apply, val_main_call1_v0_apply, val_main_cst_apply,
    val_main_v0_apply]
  exact ternarize_eq (w j) (hw j)

/-- One layer of the reference is one layer of the specification at the quantized weights. -/
theorem layer_eq (h : FVec Ideal S8192x4096 .f32) (w : FVec Ideal S4096x4096 .f32)
    (hw : ∀ j, ∃ r : ℝ, w j = (r : EReal)) :
    val_main_v10 (F := Ideal) h w = L h (QW w) := by
  funext i
  rw [val_main_v10_apply, val_main_v9_apply, val_main_v8_apply, val_main_v7_apply, val_main_call2_v4_apply,
    val_main_call2_v3_apply, val_main_cst_3_apply, val_main_call2_v2_apply, val_main_call2_v1_apply,
    val_main_call2_v0_apply, val_main_cst_2_apply, val_main_v6_apply, val_main_v5_apply, val_main_cst_1_apply,
    val_main_v4_apply]
  refine (binarize_eq _).trans ?_
  show sgn _ = sgn _
  refine congrArg sgn (Finset.sum_congr rfl fun k _ => ?_)
  rw [ternarized_apply w hw, lidx_eq, ridx_eq]
  rfl

/-- The second layer is the first layer's function of the first layer's result and the second weights. -/
theorem layer2_eq (x : FVec Ideal S8192x4096 .f32) (W0 W1 : FVec Ideal S4096x4096 .f32) :
    val_main_v21 (F := Ideal) x W0 W1 = val_main_v10 (F := Ideal) (val_main_v10 (F := Ideal) x W0) W1 := rfl

/-- The third layer is the first layer's function of the second layer's result and the third weights. -/
theorem layer3_eq (x : FVec Ideal S8192x4096 .f32) (W0 W1 W2 : FVec Ideal S4096x4096 .f32) :
    val_main_v32 (F := Ideal) x W0 W1 W2 = val_main_v10 (F := Ideal) (val_main_v21 (F := Ideal) x W0 W1) W2 := rfl

/-- The reference's result, as a function of its four arguments with finite weights, is G. -/
theorem ref_eq_G (x : FVec Ideal S8192x4096 .f32) (W0 W1 W2 : FVec Ideal S4096x4096 .f32)
    (h0 : ∀ j, ∃ r : ℝ, W0 j = (r : EReal)) (h1 : ∀ j, ∃ r : ℝ, W1 j = (r : EReal))
    (h2 : ∀ j, ∃ r : ℝ, W2 j = (r : EReal)) :
    val_main_v32 (F := Ideal) x W0 W1 W2 = G x W0 W1 W2 := by
  rw [layer3_eq, layer2_eq, layer_eq _ W0 h0, layer_eq _ W1 h1, layer_eq _ W2 h2]
  rfl

/-- The term the reference's run ends at, on a device, is G of the argument arrays' launch contents. -/
theorem result_eq_G (m : (ℓ : Loc nD τ sig) → Buf (Elt Ideal) ℓ) (c : Dev nD)
    (h0 : ∀ j, ∃ r : ℝ, (m ((c.tc : Thread nD τ).loc main_arg1) : FVec Ideal S4096x4096 .f32) j = (r : EReal))
    (h1 : ∀ j, ∃ r : ℝ, (m ((c.tc : Thread nD τ).loc main_arg2) : FVec Ideal S4096x4096 .f32) j = (r : EReal))
    (h2 : ∀ j, ∃ r : ℝ, (m ((c.tc : Thread nD τ).loc main_arg3) : FVec Ideal S4096x4096 .f32) j = (r : EReal)) :
    Cert.ReferenceIdeal.Value.res_main_v32 (F := Ideal) m c
      = G (m ((c.tc : Thread nD τ).loc main_arg0)) (m ((c.tc : Thread nD τ).loc main_arg1))
          (m ((c.tc : Thread nD τ).loc main_arg2)) (m ((c.tc : Thread nD τ).loc main_arg3)) := by
  rw [val_main_v32_eq]
  exact ref_eq_G _ _ _ _ h0 h1 h2

end Cert.RefIsG

end
-- ==== Proof.MatmulAt.lean ====
/-
  The kernel's matrix product of a [1024, 512] block and a [512, 1024] block into a zero accumulator, read at the
  index of row p and column q: the sum over the block's 512 terms of the row's entries times the column's. The
  contraction is over one axis, so its index is that axis's coordinate; the left operand is read at (p, j), the
  right at (j, q).
-/
import proofs.«113464_j3315714752880_2_alg».proof.Proof.Gen.KernelIdeal
import Idealize.ShloMosaic.PureOps.Ideal.Laws
import Idealize.ShloMosaic.Lib.ValueIdx

noncomputable section

namespace Cert.MatmulAt

open Cert.KernelIdeal Cert.KernelIdeal.Gen Idealize.ShloMosaic Idealize.ShloMosaic.ValueIdx
open scoped BigOperators

theorem lhs_0 (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

theorem lhs_1 (i : S1024x1024.Idx) (k : dot_S1024x512_S512x1024_S1024x1024_1_0_0_1_n_n.contr.Idx) :
    (dot_S1024x512_S512x1024_S1024x1024_1_0_0_1_n_n.lhsIdx i k 1).val = (k ⟨0, by decide⟩).val :=
  dot_S1024x512_S512x1024_S1024x1024_1_0_0_1_n_n.lhsIdx_val_of_single rfl i k

theorem rhs_0 (i : S1024x1024.Idx) (k : dot_S1024x512_S512x1024_S1024x1024_1_0_0_1_n_n.contr.Idx) :
    (dot_S1024x512_S512x1024_S1024x1024_1_0_0_1_n_n.rhsIdx i k 0).val = (k ⟨0, by decide⟩).val :=
  dot_S1024x512_S512x1024_S1024x1024_1_0_0_1_n_n.rhsIdx_val_of_single rfl i k

theorem rhs_1 (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product into the zero accumulator at (p, q) is ∑ j, a[p, j] · b[j, q]. -/
theorem matmul_zero_apply {φ₁ φ₂ : FTy} (a : FVec Ideal S1024x512 φ₁) (b : FVec Ideal S512x1024 φ₂) (p q : Fin 1024) :
    matmul dot_S1024x512_S512x1024_S1024x1024_1_0_0_1_n_n none a b (constant S1024x1024 .f32 0x00000000#32) (ix2 p q)
      = ∑ j : Fin 512, a (ix2 p j) * b (ix2 j q) := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k :=
    funext fun d => Fin.ext (by
      match d with
      | ⟨0, _⟩ => exact lhs_0 _ _
      | ⟨1, _⟩ => exact (lhs_1 _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q :=
    funext fun d => Fin.ext (by
      match d with
      | ⟨0, _⟩ => exact (rhs_0 _ _).trans hk
      | ⟨1, _⟩ => exact rhs_1 _ _)
  rw [el, er]

end Cert.MatmulAt

end
-- ==== Proof.Payload.lean ====
/-
  What the kernels' bodies compute, read at the index of row p and column q of a [1024, 1024] block.

  An accumulating step adds to the accumulator's entry the sum, over the 512 terms of the block of the contracted
  axis, of the left block's row times the right block's column; in the first layer the left block is x in one
  pass and x − x in the other. The closing step takes the kernel's sign of the accumulator's entry. A change of
  float format and a shape cast to the same shape are the identity over the extended reals.
-/
import proofs.«113464_j3315714752880_2_alg».proof.Proof.Gen.KernelIdeal.Skeleton
import proofs.«113464_j3315714752880_2_alg».proof.Proof.MatmulAt
import proofs.«113464_j3315714752880_2_alg».proof.Proof.Spec
import Idealize.ShloMosaic.Lib.Pipeline.Value

noncomputable section

namespace Cert.Payload

open Cert.KernelIdeal Cert.KernelIdeal.Gen Idealize.ShloMosaic Idealize.ShloMosaic.ValueIdx Cert.TernSpec Cert.MatmulAt
open scoped BigOperators

/-- First layer, the pass over x: the accumulator plus the block's product. -/
theorem layer0_hi_apply (x : Vec Ideal S1024x512 .f32) (w : Vec Ideal S512x1024 .bf16) (acc : Vec Ideal S1024x1024 .f32)
    (p q : Fin 1024) :
    k0_pay3 (F := Ideal) x w acc (ix2 p q) = acc (ix2 p q) + ∑ j : Fin 512, x (ix2 p j) * w (ix2 j q) := by
  unfold k0_pay3 k0_pay2
  simp only [shapeCast_self]
  rw [addf_apply, matmul_zero_apply]
  rfl

/-- First layer, the pass over x − x. -/
theorem layer0_lo_apply (x : Vec Ideal S1024x512 .f32) (w : Vec Ideal S512x1024 .bf16) (acc : Vec Ideal S1024x1024 .f32)
    (p q : Fin 1024) :
    k0_pay4 (F := Ideal) x w acc (ix2 p q)
      = acc (ix2 p q) + ∑ j : Fin 512, (x (ix2 p j) - x (ix2 p j)) * w (ix2 j q) := by
  unfold k0_pay4 k0_pay2
  simp only [shapeCast_self]
  rw [addf_apply, matmul_zero_apply]
  rfl

/-- Second layer's accumulating step. -/
theorem layer1_acc_apply (acc : Vec Ideal S1024x1024 .f32) (h : Vec Ideal S1024x512 .bf16) (w : Vec Ideal S512x1024 .bf16)
    (p q : Fin 1024) :
    k1_pay2 (F := Ideal) acc h w (ix2 p q) = acc (ix2 p q) + ∑ j : Fin 512, h (ix2 p j) * w (ix2 j q) := by
  unfold k1_pay2
  simp only [shapeCast_self]
  rw [addf_apply, matmul_zero_apply]

/-- Third layer's accumulating step. -/
theorem layer2_acc_apply (acc : Vec Ideal S1024x1024 .f32) (h : Vec Ideal S1024x512 .bf16) (w : Vec Ideal S512x1024 .bf16)
    (p q : Fin 1024) :
    k2_pay2 (F := Ideal) acc h w (ix2 p q) = acc (ix2 p q) + ∑ j : Fin 512, h (ix2 p j) * w (ix2 j q) := by
  unfold k2_pay2
  simp only [shapeCast_self]
  rw [addf_apply, matmul_zero_apply]

/-- The accumulator a layer starts from is zero everywhere. -/
theorem layer0_init_apply (i : S1024x1024.Idx) : k0_pay1 (F := Ideal) i = 0 := by
  unfold k0_pay1
  simp only [shapeCast_self]
  exact Ideal.ofBits_zero_f32
theorem layer1_init_apply (i : S1024x1024.Idx) : k1_pay1 (F := Ideal) i = 0 := by
  unfold k1_pay1
  simp only [shapeCast_self]
  exact Ideal.ofBits_zero_f32
theorem layer2_init_apply (i : S1024x1024.Idx) : k2_pay1 (F := Ideal) i = 0 := by
  unfold k2_pay1
  simp only [shapeCast_self]
  exact Ideal.ofBits_zero_f32

/-- The closing step of each layer is the kernel's sign of the accumulator, entry by entry. -/
theorem layer0_sign_apply (acc : Vec Ideal S1024x1024 .f32) (i : S1024x1024.Idx) :
    k0_pay5 (F := Ideal) acc i = sgn (acc i) := rfl
theorem layer1_sign_apply (acc : Vec Ideal S1024x1024 .f32) (i : S1024x1024.Idx) :
    k1_pay3 (F := Ideal) acc i = sgn (acc i) := rfl
theorem layer2_sign_apply (acc : Vec Ideal S1024x1024 .f32) (i : S1024x1024.Idx) :
    k2_pay3 (F := Ideal) acc i = sgn (acc i) := rfl

end Cert.Payload

end
-- ==== Proof.SumAlg.lean ====
/-
  Sums over the contracted axis, re-associated.

  A kernel that walks the 4096 terms of a product in 8 blocks of 512 adds up, block by block, the sums over a
  block; addition on the extended reals is a commutative monoid, so the blocks' sums add up to the sum over all
  4096 terms, with no finiteness asked of the terms. And a pass over x − x contributes nothing when x is a real:
  then x − x is 0 (at an infinity the difference is not defined), and 0 times any extended real is 0.
-/
import Idealize.ShloMosaic.PureOps.Ideal

noncomputable section

namespace Cert.SumAlg

open scoped BigOperators

/-- The sum over 4096 terms is the sum over 8 blocks of the sums over the 512 terms of a block, term j of block kb
    being term 512 · kb + j. -/
theorem sum_blocks {M : Type*} [AddCommMonoid M] (f : Fin 4096 → M) :
    ∑ kb : Fin 8, ∑ j : Fin 512, f ⟨512 * kb.val + j.val, by have := kb.isLt; have := j.isLt; omega⟩
      = ∑ k : Fin 4096, f k := by
  have e : ∑ k : Fin 4096, f k = ∑ p : Fin 8 × Fin 512, f (finProdFinEquiv p) :=
    (Equiv.sum_comp (finProdFinEquiv (m := 8) (n := 512)) f).symm
  rw [e, Fintype.sum_prod_type]
  refine Finset.sum_congr rfl fun kb _ => Finset.sum_congr rfl fun j _ => congrArg f (Fin.ext ?_)
  show 512 * kb.val + j.val = j.val + 512 * kb.val
  exact Nat.add_comm _ _

/-- A real minus itself is 0 on the extended reals. -/
theorem sub_self_real (r : ℝ) : (r : EReal) - (r : EReal) = 0 := by
  rw [← EReal.coe_sub, sub_self, EReal.coe_zero]

/-- The pass over x − x vanishes when every x is a real, whatever the other factors. -/
theorem sum_sub_self_mul {ι : Type*} [Fintype ι] (x q : ι → EReal) (hx : ∀ j, ∃ r : ℝ, x j = (r : EReal)) :
    ∑ j, (x j - x j) * q j = 0 := by
  refine Finset.sum_eq_zero fun j _ => ?_
  obtain ⟨r, hr⟩ := hx j
  rw [hr, sub_self_real, zero_mul]

/-- The two passes of a layer that splits x into x and x − x add up to the one product, for real x. -/
theorem sum_split_passes {ι : Type*} [Fintype ι] (x q : ι → EReal) (hx : ∀ j, ∃ r : ℝ, x j = (r : EReal)) :
    ∑ j, x j * q j + ∑ j, (x j - x j) * q j = ∑ j, x j * q j := by
  rw [sum_sub_self_mul x q hx, add_zero]

end Cert.SumAlg

end
-- ==== Proof.Layer0Value.lean ====
/-
  The first layer's kernel: what its output array holds after the region.

  The grid is 8 x 4 x 8, the last coordinate fastest: point t = 32 i + 8 j + k holds rows 1024 i … of x in columns
  512 k …, rows 512 k … of the quantized weights in columns 1024 j …, and the output block at rows 1024 i …, columns
  1024 j …. At each point the accumulator gains two products: the block of x against the weights' block, and the
  block of x − x against it. Every entry of x is a real by hypothesis, so x − x is 0 and the second product
  contributes nothing, whatever the weights. Over the run of eight points k = 0 … 7 the accumulator, read at (p, q)
  of the block, is therefore 0 plus the eight points' sums of 512 terms, which add up to the sum over all 4096
  terms of row 1024 i + p of x against column 1024 j + q of the weights. The point k = 7 stores the kernel's sign of
  that into the output block and writes it back, and those points' blocks tile the output array. So the array ends
  holding the specification's layer of x and the quantized weights.
-/
import proofs.«113464_j3315714752880_2_alg».proof.Proof.Layer0Data
import proofs.«113464_j3315714752880_2_alg».proof.Proof.Payload
import proofs.«113464_j3315714752880_2_alg».proof.Proof.SumAlg

set_option maxRecDepth 16384

noncomputable section

namespace Cert.KernelIdeal.Layer0Value

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Layer0 Cert.TernSpec
open scoped BigOperators

variable (V : (c : Dev nD) → (b : Ref sig .tc) → Buf (Elt Ideal) ((c : Thread nD τ).loc b))

/-! ## Where each window's block sits, decided once over the grid -/

/-- The left window's block index at point t: (t / 32, t % 8). -/
theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
/-- The right window's: (t % 8, t / 8 % 4). -/
theorem idx1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
/-- The output window's: (t / 32, t / 8 % 4). -/
theorem idx2 : ∀ t : Fin cfg0.N, win0_2.index t 0 = t.val / 32 ∧ win0_2.index t 1 = t.val / 8 % 4 :=
  (by decide +kernel : ∀ t : Fin grid0.N, win0_2.index t 0 = t.val / 32 ∧ win0_2.index t 1 = t.val / 8 % 4)

/-! ## A block read at an index is the array at block index times block size plus the coordinate -/

/-- The left block at (p, j). -/
theorem blk0_apply (c : Dev nD) (t : Fin cfg0.N) (p : Fin 1024) (j : Fin 512) (R : Fin 8192) (K : Fin 4096)
    (hR : R.val = 1024 * (t.val / 32) + p.val) (hK : K.val = 512 * (t.val % 8) + j.val) :
    (blk V c 0 t : Vec Ideal S1024x512 .f32) (ix2 p j) = (V c main_arg0 : SAct.Idx → EReal) (ix2 R K) := by
  unfold blk
  rw [View.read_apply]
  show (V c main_arg0 : SAct.Idx → EReal) (((cfg0.win 0).blk t).view.emb (ix2 p j)) = _
  refine congrArg _ (funext fun a => Fin.ext ?_)
  match a with
  | ⟨0, _⟩ =>
    show win0_0.index t 0 * 1024 + 1 * p.val = R.val
    rw [(idx0 t).1, hR]; omega
  | ⟨1, _⟩ =>
    show win0_0.index t 1 * 512 + 1 * j.val = K.val
    rw [(idx0 t).2, hK]; omega

/-- The right block at (j, q). -/
theorem blk1_apply (c : Dev nD) (t : Fin cfg0.N) (j : Fin 512) (q : Fin 1024) (K : Fin 4096) (C : Fin 4096)
    (hK : K.val = 512 * (t.val % 8) + j.val) (hC : C.val = 1024 * (t.val / 8 % 4) + q.val) :
    (blk V c 1 t : Vec Ideal S512x1024 .bf16) (ix2 j q) = (V c main_v2 : SWt.Idx → EReal) (ix2 K C) := by
  unfold blk
  rw [View.read_apply]
  show (V c main_v2 : SWt.Idx → EReal) (((cfg0.win 1).blk t).view.emb (ix2 j q)) = _
  refine congrArg _ (funext fun a => Fin.ext ?_)
  match a with
  | ⟨0, _⟩ =>
    show win0_1.index t 0 * 512 + 1 * j.val = K.val
    rw [(idx1 t).1, hK]; omega
  | ⟨1, _⟩ =>
    show win0_1.index t 1 * 1024 + 1 * q.val = C.val
    rw [(idx1 t).2, hC]; omega

/-- Where (p, q) of the output block sits in the output array. -/
theorem emb2 (t : Fin cfg0.N) (p q : Fin 1024) (R : Fin 8192) (C : Fin 4096)
    (hR : R.val = 1024 * (t.val / 32) + p.val) (hC : C.val = 1024 * (t.val / 8 % 4) + q.val) :
    (((cfg0.win 2).blk t).view.emb (ix2 p q) : SAct.Idx) = ix2 R C := by
  refine funext fun a => Fin.ext ?_
  match a with
  | ⟨0, _⟩ =>
    show win0_2.index t 0 * 1024 + 1 * p.val = R.val
    rw [(idx2 t).1, hR]; omega
  | ⟨1, _⟩ =>
    show win0_2.index t 1 * 1024 + 1 * q.val = C.val
    rw [(idx2 t).2, hC]; omega

/-! ## The accumulator after a run, read at an index -/

/-- The arrays the two input windows read, as plain arrays of extended reals. -/
abbrev arrL (c : Dev nD) : SAct.Idx → EReal := V c main_arg0
abbrev arrR (c : Dev nD) : SWt.Idx → EReal := V c main_v2

/-- The two input blocks at a point, as plain arrays of extended reals. -/
abbrev lhsBlk (c : Dev nD) (t : Fin cfg0.N) : S1024x512.Idx → EReal := blk V c 0 t
abbrev rhsBlk (c : Dev nD) (t : Fin cfg0.N) : S512x1024.Idx → EReal := blk V c 1 t

/-- Point n's product of its two blocks, read at an index of the output block; 0 past the grid. -/
def prodAt (c : Dev nD) (n : ℕ) (i : S1024x1024.Idx) : EReal :=
  if h : n < cfg0.N then
    ∑ j : Fin 512, lhsBlk V c ⟨n, h⟩ (ix2 (n0 := 1024) (n1 := 512) (i 0) j)
      * rhsBlk V c ⟨n, h⟩ (ix2 (n0 := 512) (n1 := 1024) j (i 1))
  else 0

/-- A block entry of x is a real, as the array's entries are. -/
theorem lhs_real (c : Dev nD) (hx : ∀ i, ∃ r : ℝ, arrL V c i = (r : EReal)) (n : ℕ) (h : n < cfg0.N) (p : Fin 1024) (j : Fin 512) :
    ∃ r : ℝ, lhsBlk V c ⟨n, h⟩ (ix2 p j) = (r : EReal) := by
  have hn : n < 256 := lt_of_lt_of_eq h N_0
  have hp : p.val < 1024 := p.isLt
  have hj : j.val < 512 := j.isLt
  have hRlt : 1024 * (n / 32) + p.val < 8192 := by omega
  have hKlt : 512 * (n % 8) + j.val < 4096 := by omega
  obtain ⟨r, hr⟩ := hx (ix2 ⟨_, hRlt⟩ ⟨_, hKlt⟩)
  exact ⟨r, (blk0_apply V c ⟨n, h⟩ p j ⟨_, hRlt⟩ ⟨_, hKlt⟩ rfl rfl).trans hr⟩

/-- One point's two additions at an index: what was there plus the point's product; the pass over x − x adds 0. -/
theorem step_apply (c : Dev nD) (hx : ∀ i, ∃ r : ℝ, arrL V c i = (r : EReal)) (n : ℕ) (h : n < cfg0.N)
    (s : Vec Ideal S1024x1024 .f32) (i : S1024x1024.Idx) :
    upd (F := Ideal) s (blk V c 0 ⟨n, h⟩) (blk V c 1 ⟨n, h⟩) i = s i + prodAt V c n i := by
  obtain ⟨p, q, rfl⟩ : ∃ (p q : Fin 1024), i = ix2 p q := ⟨i 0, i 1, eq_ix2 i⟩
  have hz : ∑ j : Fin 512, (lhsBlk V c ⟨n, h⟩ (ix2 p j) - lhsBlk V c ⟨n, h⟩ (ix2 p j)) * rhsBlk V c ⟨n, h⟩ (ix2 j q) = 0 :=
    Cert.SumAlg.sum_sub_self_mul (fun j => lhsBlk V c ⟨n, h⟩ (ix2 p j)) (fun j => rhsBlk V c ⟨n, h⟩ (ix2 j q))
      (fun j => lhs_real V c hx n h p j)
  refine (Cert.Payload.layer0_lo_apply _ _ _ p q).trans ?_
  refine (congrArg₂ (· + ·) (Cert.Payload.layer0_hi_apply _ _ s p q) hz).trans ?_
  rw [add_zero]
  unfold prodAt
  rw [dif_pos h]

/-- At the last point of a run the accumulator is 0 plus the products of the run's eight points. -/
theorem acc_flush_apply (c : Dev nD) (hx : ∀ i, ∃ r : ℝ, arrL V c i = (r : EReal)) (t : Fin cfg0.N) (h7 : t.val % 8 = 7) (i : S1024x1024.Idx) :
    acc V c t.val t.isLt i = 0 + ∑ s ∈ Finset.range 8, prodAt V c (8 * (t.val / 8) + s) i := by
  have h' : 8 * (t.val / 8) + t.val % 8 < cfg0.N := by rw [Nat.div_add_mod]; exact t.isLt
  rw [Pipeline.eq_accAt_of_mod (f := acc V c) 8
    (fun n h => upd (k0_pay1 (F := Ideal)) (blk V c 0 ⟨n, h⟩) (blk V c 1 ⟨n, h⟩))
    (fun n h s => upd s (blk V c 0 ⟨n, h⟩) (blk V c 1 ⟨n, h⟩))
    (fun n h e => acc_first V c ⟨n, h⟩ e) (fun n h e => acc_step V c ⟨n + 1, h⟩ e) (by norm_num) t.val t.isLt h']
  have key := Pipeline.accAt_add_apply (N := cfg0.N)
    (fun n h => upd (F := Ideal) (k0_pay1 (F := Ideal)) (blk V c 0 ⟨n, h⟩) (blk V c 1 ⟨n, h⟩))
    (fun n h s => upd (F := Ideal) s (blk V c 0 ⟨n, h⟩) (blk V c 1 ⟨n, h⟩))
    (fun _ => (0 : EReal)) (prodAt V c) (8 * (t.val / 8)) 7
    (fun h i => by rw [step_apply V c hx _ h, Cert.Payload.layer0_init_apply])
    (fun n h s i _ _ => step_apply V c hx n h s i)
    (t.val % 8) (by omega) h' i
  rw [key, h7]

/-- Point n's product at (p, q) of the output block: the 512 terms of block n % 8 of the contracted axis, row R of the
    left array against column C of the right one. -/
theorem prodAt_apply (c : Dev nD) (n : ℕ) (h : n < cfg0.N) (p q : Fin 1024) (R : Fin 8192) (C : Fin 4096)
    (hR : R.val = 1024 * (n / 32) + p.val) (hC : C.val = 1024 * (n / 8 % 4) + q.val) :
    prodAt V c n (ix2 p q)
      = ∑ j : Fin 512, arrL V c (ix2 R ⟨512 * (n % 8) + j.val, by have := j.isLt; omega⟩)
          * arrR V c (ix2 ⟨512 * (n % 8) + j.val, by have := j.isLt; omega⟩ C) := by
  unfold prodAt
  rw [dif_pos h]
  refine Finset.sum_congr rfl fun j _ => ?_
  exact congrArg₂ (· * ·)
    (blk0_apply V c ⟨n, h⟩ p j R ⟨512 * (n % 8) + j.val, by have := j.isLt; omega⟩ hR rfl)
    (blk1_apply V c ⟨n, h⟩ j q ⟨512 * (n % 8) + j.val, by have := j.isLt; omega⟩ C rfl hC)

/-- The eight points of a run add up to the whole product. -/
theorem run_sum (c : Dev nD) (t : Fin cfg0.N) (p q : Fin 1024) (R : Fin 8192) (C : Fin 4096)
    (hR : R.val = 1024 * (t.val / 32) + p.val) (hC : C.val = 1024 * (t.val / 8 % 4) + q.val) :
    ∑ s ∈ Finset.range 8, prodAt V c (8 * (t.val / 8) + s) (ix2 p q)
      = ∑ k : Fin 4096, arrL V c (ix2 R k) * arrR V c (ix2 k C) := by
  have hN : cfg0.N = 256 := N_0
  have ht : t.val < 256 := lt_of_lt_of_eq t.isLt hN
  rw [Finset.sum_range, ← Cert.SumAlg.sum_blocks (fun k => arrL V c (ix2 R k) * arrR V c (ix2 k C))]
  refine Finset.sum_congr rfl fun s _ => ?_
  have hs : s.val < 8 := s.isLt
  have hn : 8 * (t.val / 8) + s.val < cfg0.N :=
    lt_of_lt_of_eq (by omega : 8 * (t.val / 8) + s.val < 256) hN.symm
  rw [prodAt_apply V c _ hn p q R C (by rw [hR]; omega) (by rw [hC]; omega)]
  refine Finset.sum_congr rfl fun j _ => ?_
  have e : (8 * (t.val / 8) + s.val) % 8 = s.val := by omega
  refine congrArg₂ (· * ·) (congrArg _ ?_) (congrArg _ ?_)
  · exact congrArg (ix2 R) (Fin.ext (by show 512 * ((8 * (t.val / 8) + s.val) % 8) + j.val = 512 * s.val + j.val; rw [e]))
  · exact congrArg (fun k => ix2 k C) (Fin.ext (by show 512 * ((8 * (t.val / 8) + s.val) % 8) + j.val = 512 * s.val + j.val; rw [e]))

/-! ## The output array -/

/-- What a flushing point writes back is its block of the specification's layer over the two input arrays. -/
theorem flushed_eq (c : Dev nD) (hx : ∀ i, ∃ r : ℝ, arrL V c i = (r : EReal)) (t : Fin cfg0.N) (hf : (cfg0.win 2).flush t = true) :
    (dat V c).flushed 2 t = ((cfg0.win 2).blk t).view.read (Elt Ideal) (L (V c main_arg0) (V c main_v2)) := by
  have h7 : t.val % 8 = 7 := (flush0_2 t).mp hf
  have hN : cfg0.N = 256 := N_0
  have ht : t.val < 256 := lt_of_lt_of_eq t.isLt hN
  funext y
  obtain ⟨p, q, rfl⟩ : ∃ (p q : Fin 1024), y = ix2 p q := ⟨y 0, y 1, eq_ix2 y⟩
  have hp : p.val < 1024 := p.isLt
  have hq : q.val < 1024 := q.isLt
  have hRlt : 1024 * (t.val / 32) + p.val < 8192 := by omega
  have hClt : 1024 * (t.val / 8 % 4) + q.val < 4096 := by omega
  rw [View.read_apply]
  show _ = L (V c main_arg0) (V c main_v2) (((cfg0.win 2).blk t).view.emb (ix2 p q))
  refine Eq.trans ?_ (congrArg (L (V c main_arg0) (V c main_v2)) (emb2 t p q ⟨_, hRlt⟩ ⟨_, hClt⟩ rfl rfl)).symm
  rw [L_apply]
  refine Eq.trans ?_ (congrArg sgn (run_sum V c t p q ⟨_, hRlt⟩ ⟨_, hClt⟩ rfl rfl))
  show k0_pay5 (acc V c t.val t.isLt) (ix2 p q) = _
  rw [Cert.Payload.layer0_sign_apply, acc_flush_apply V c hx t h7, zero_add]

/-- Every index of the output array lies in the block of the last point of its run. -/
theorem cover (c : Dev nD) (i : SAct.Idx) :
    ∃ t : Fin cfg0.N, (cfg0.win 2).flush t = true ∧ i ∈ ((cfg0.win 2).blk t).view.set := by
  have hN : cfg0.N = 256 := N_0
  have h0 : (i 0).val < 8192 := (i 0).isLt
  have h1 : (i 1).val < 4096 := (i 1).isLt
  have hn : 32 * ((i 0).val / 1024) + 8 * ((i 1).val / 1024) + 7 < cfg0.N :=
    lt_of_lt_of_eq (by omega : 32 * ((i 0).val / 1024) + 8 * ((i 1).val / 1024) + 7 < 256) hN.symm
  refine ⟨⟨_, hn⟩, (flush0_2 _).mpr (by show (32 * ((i 0).val / 1024) + 8 * ((i 1).val / 1024) + 7) % 8 = 7; omega), ?_⟩
  show i ∈ ((View.whole main_v9).slice (win0_2.rect ⟨_, hn⟩)).set
  rw [View.set_slice_whole, Rect.mem_set_unit]
  intro a
  match a with
  | ⟨0, _⟩ =>
    show win0_2.index ⟨_, hn⟩ 0 * 1024 ≤ (i 0).val ∧ (i 0).val < win0_2.index ⟨_, hn⟩ 0 * 1024 + 1024
    rw [(idx2 ⟨_, hn⟩).1]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_2.index ⟨_, hn⟩ 1 * 1024 ≤ (i 1).val ∧ (i 1).val < win0_2.index ⟨_, hn⟩ 1 * 1024 + 1024
    rw [(idx2 ⟨_, hn⟩).2]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- After the region the output array holds the specification's layer of the two input arrays as the region found them. -/
theorem out_eq (c : Dev nD) (hx : ∀ i, ∃ r : ℝ, (V c main_arg0 : SAct.Idx → EReal) i = (r : EReal)) :
    (dat (F := Ideal) V c).arrAt 2 cfg0.N = L (V c main_arg0) (V c main_v2) :=
  (dat V c).arrAt_eq_of_cover 2 (L (V c main_arg0) (V c main_v2)) (flushed_eq V c hx) (cover c)

end Cert.KernelIdeal.Layer0Value
end
-- ==== Proof.Layer1Value.lean ====
/-
  The second layer's kernel: what its output array holds after the region.

  The grid is 8 x 4 x 8, the last coordinate fastest: point t = 32 i + 8 j + k holds rows 1024 i … of the left
  array in columns 512 k …, rows 512 k … of the right array in columns 1024 j …, and the output block at rows
  1024 i …, columns 1024 j …. Over the run of eight points k = 0 … 7 the accumulator starts from zero and gains, at
  each point, the product of the two blocks; read at (p, q) of the block, after the run it is 0 plus the eight
  points' sums of 512 terms, which add up to the sum over all 4096 terms of row 1024 i + p of the left array
  against column 1024 j + q of the right one. The point k = 7 stores the kernel's sign of that into the output block and
  writes it back, and those points' blocks tile the output array. So the array ends holding the specification's
  layer of the two input arrays.
-/
import proofs.«113464_j3315714752880_2_alg».proof.Proof.Layer1Data
import proofs.«113464_j3315714752880_2_alg».proof.Proof.Payload
import proofs.«113464_j3315714752880_2_alg».proof.Proof.SumAlg

set_option maxRecDepth 16384

noncomputable section

namespace Cert.KernelIdeal.Layer1Value

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Layer1 Cert.TernSpec
open scoped BigOperators

variable (V : (c : Dev nD) → (b : Ref sig .tc) → Buf (Elt Ideal) ((c : Thread nD τ).loc b))

/-! ## Where each window's block sits, decided once over the grid -/

/-- The left window's block index at point t: (t / 32, t % 8). -/
theorem idx0 : ∀ t : Fin cfg1.N, win1_0.index t 0 = t.val / 32 ∧ win1_0.index t 1 = t.val % 8 :=
  (by decide +kernel : ∀ t : Fin grid1.N, win1_0.index t 0 = t.val / 32 ∧ win1_0.index t 1 = t.val % 8)
/-- The right window's: (t % 8, t / 8 % 4). -/
theorem idx1 : ∀ t : Fin cfg1.N, win1_1.index t 0 = t.val % 8 ∧ win1_1.index t 1 = t.val / 8 % 4 :=
  (by decide +kernel : ∀ t : Fin grid1.N, win1_1.index t 0 = t.val % 8 ∧ win1_1.index t 1 = t.val / 8 % 4)
/-- The output window's: (t / 32, t / 8 % 4). -/
theorem idx2 : ∀ t : Fin cfg1.N, win1_2.index t 0 = t.val / 32 ∧ win1_2.index t 1 = t.val / 8 % 4 :=
  (by decide +kernel : ∀ t : Fin grid1.N, win1_2.index t 0 = t.val / 32 ∧ win1_2.index t 1 = t.val / 8 % 4)

/-! ## A block read at an index is the array at block index times block size plus the coordinate -/

/-- The left block at (p, j). -/
theorem blk0_apply (c : Dev nD) (t : Fin cfg1.N) (p : Fin 1024) (j : Fin 512) (R : Fin 8192) (K : Fin 4096)
    (hR : R.val = 1024 * (t.val / 32) + p.val) (hK : K.val = 512 * (t.val % 8) + j.val) :
    (blk V c 0 t : Vec Ideal S1024x512 .bf16) (ix2 p j) = (V c main_v9 : SAct.Idx → EReal) (ix2 R K) := by
  unfold blk
  rw [View.read_apply]
  show (V c main_v9 : SAct.Idx → EReal) (((cfg1.win 0).blk t).view.emb (ix2 p j)) = _
  refine congrArg _ (funext fun a => Fin.ext ?_)
  match a with
  | ⟨0, _⟩ =>
    show win1_0.index t 0 * 1024 + 1 * p.val = R.val
    rw [(idx0 t).1, hR]; omega
  | ⟨1, _⟩ =>
    show win1_0.index t 1 * 512 + 1 * j.val = K.val
    rw [(idx0 t).2, hK]; omega

/-- The right block at (j, q). -/
theorem blk1_apply (c : Dev nD) (t : Fin cfg1.N) (j : Fin 512) (q : Fin 1024) (K : Fin 4096) (C : Fin 4096)
    (hK : K.val = 512 * (t.val % 8) + j.val) (hC : C.val = 1024 * (t.val / 8 % 4) + q.val) :
    (blk V c 1 t : Vec Ideal S512x1024 .bf16) (ix2 j q) = (V c main_v5 : SWt.Idx → EReal) (ix2 K C) := by
  unfold blk
  rw [View.read_apply]
  show (V c main_v5 : SWt.Idx → EReal) (((cfg1.win 1).blk t).view.emb (ix2 j q)) = _
  refine congrArg _ (funext fun a => Fin.ext ?_)
  match a with
  | ⟨0, _⟩ =>
    show win1_1.index t 0 * 512 + 1 * j.val = K.val
    rw [(idx1 t).1, hK]; omega
  | ⟨1, _⟩ =>
    show win1_1.index t 1 * 1024 + 1 * q.val = C.val
    rw [(idx1 t).2, hC]; omega

/-- Where (p, q) of the output block sits in the output array. -/
theorem emb2 (t : Fin cfg1.N) (p q : Fin 1024) (R : Fin 8192) (C : Fin 4096)
    (hR : R.val = 1024 * (t.val / 32) + p.val) (hC : C.val = 1024 * (t.val / 8 % 4) + q.val) :
    (((cfg1.win 2).blk t).view.emb (ix2 p q) : SAct.Idx) = ix2 R C := by
  refine funext fun a => Fin.ext ?_
  match a with
  | ⟨0, _⟩ =>
    show win1_2.index t 0 * 1024 + 1 * p.val = R.val
    rw [(idx2 t).1, hR]; omega
  | ⟨1, _⟩ =>
    show win1_2.index t 1 * 1024 + 1 * q.val = C.val
    rw [(idx2 t).2, hC]; omega

/-! ## The accumulator after a run, read at an index -/

/-- The two input blocks at a point, as plain arrays of extended reals. -/
abbrev lhsBlk (c : Dev nD) (t : Fin cfg1.N) : S1024x512.Idx → EReal := blk V c 0 t
abbrev rhsBlk (c : Dev nD) (t : Fin cfg1.N) : S512x1024.Idx → EReal := blk V c 1 t

/-- Point n's product of its two blocks, read at an index of the output block; 0 past the grid. -/
def prodAt (c : Dev nD) (n : ℕ) (i : S1024x1024.Idx) : EReal :=
  if h : n < cfg1.N then
    ∑ j : Fin 512, lhsBlk V c ⟨n, h⟩ (ix2 (n0 := 1024) (n1 := 512) (i 0) j)
      * rhsBlk V c ⟨n, h⟩ (ix2 (n0 := 512) (n1 := 1024) j (i 1))
  else 0

/-- One accumulating step at an index: what was there plus the point's product. -/
theorem step_apply (c : Dev nD) (n : ℕ) (h : n < cfg1.N) (s : Vec Ideal S1024x1024 .f32) (i : S1024x1024.Idx) :
    k1_pay2 (F := Ideal) s (blk V c 0 ⟨n, h⟩) (blk V c 1 ⟨n, h⟩) i = s i + prodAt V c n i := by
  obtain ⟨p, q, rfl⟩ : ∃ (p q : Fin 1024), i = ix2 p q := ⟨i 0, i 1, eq_ix2 i⟩
  refine (Cert.Payload.layer1_acc_apply s _ _ p q).trans ?_
  unfold prodAt
  rw [dif_pos h]

/-- At the last point of a run the accumulator is 0 plus the products of the run's eight points. -/
theorem acc_flush_apply (c : Dev nD) (t : Fin cfg1.N) (h7 : t.val % 8 = 7) (i : S1024x1024.Idx) :
    acc V c t.val t.isLt i = 0 + ∑ s ∈ Finset.range 8, prodAt V c (8 * (t.val / 8) + s) i := by
  have h' : 8 * (t.val / 8) + t.val % 8 < cfg1.N := by rw [Nat.div_add_mod]; exact t.isLt
  rw [Pipeline.eq_accAt_of_mod (f := acc V c) 8
    (fun n h => k1_pay2 (k1_pay1 (F := Ideal)) (blk V c 0 ⟨n, h⟩) (blk V c 1 ⟨n, h⟩))
    (fun n h s => k1_pay2 s (blk V c 0 ⟨n, h⟩) (blk V c 1 ⟨n, h⟩))
    (fun n h e => acc_first V c ⟨n, h⟩ e) (fun n h e => acc_step V c ⟨n + 1, h⟩ e) (by norm_num) t.val t.isLt h']
  have key := Pipeline.accAt_add_apply (N := cfg1.N)
    (fun n h => k1_pay2 (F := Ideal) (k1_pay1 (F := Ideal)) (blk V c 0 ⟨n, h⟩) (blk V c 1 ⟨n, h⟩))
    (fun n h s => k1_pay2 (F := Ideal) s (blk V c 0 ⟨n, h⟩) (blk V c 1 ⟨n, h⟩))
    (fun _ => (0 : EReal)) (prodAt V c) (8 * (t.val / 8)) 7
    (fun h i => by rw [step_apply V c _ h, Cert.Payload.layer1_init_apply])
    (fun n h s i _ _ => step_apply V c n h s i)
    (t.val % 8) (by omega) h' i
  rw [key, h7]

/-- The arrays the two input windows read, as plain arrays of extended reals. -/
abbrev arrL (c : Dev nD) : SAct.Idx → EReal := V c main_v9
abbrev arrR (c : Dev nD) : SWt.Idx → EReal := V c main_v5

/-- Point n's product at (p, q) of the output block: the 512 terms of block n % 8 of the contracted axis, row R of the
    left array against column C of the right one. -/
theorem prodAt_apply (c : Dev nD) (n : ℕ) (h : n < cfg1.N) (p q : Fin 1024) (R : Fin 8192) (C : Fin 4096)
    (hR : R.val = 1024 * (n / 32) + p.val) (hC : C.val = 1024 * (n / 8 % 4) + q.val) :
    prodAt V c n (ix2 p q)
      = ∑ j : Fin 512, arrL V c (ix2 R ⟨512 * (n % 8) + j.val, by have := j.isLt; omega⟩)
          * arrR V c (ix2 ⟨512 * (n % 8) + j.val, by have := j.isLt; omega⟩ C) := by
  unfold prodAt
  rw [dif_pos h]
  refine Finset.sum_congr rfl fun j _ => ?_
  exact congrArg₂ (· * ·)
    (blk0_apply V c ⟨n, h⟩ p j R ⟨512 * (n % 8) + j.val, by have := j.isLt; omega⟩ hR rfl)
    (blk1_apply V c ⟨n, h⟩ j q ⟨512 * (n % 8) + j.val, by have := j.isLt; omega⟩ C rfl hC)

/-- The eight points of a run add up to the whole product. -/
theorem run_sum (c : Dev nD) (t : Fin cfg1.N) (p q : Fin 1024) (R : Fin 8192) (C : Fin 4096)
    (hR : R.val = 1024 * (t.val / 32) + p.val) (hC : C.val = 1024 * (t.val / 8 % 4) + q.val) :
    ∑ s ∈ Finset.range 8, prodAt V c (8 * (t.val / 8) + s) (ix2 p q)
      = ∑ k : Fin 4096, arrL V c (ix2 R k) * arrR V c (ix2 k C) := by
  have hN : cfg1.N = 256 := N_1
  have ht : t.val < 256 := lt_of_lt_of_eq t.isLt hN
  rw [Finset.sum_range, ← Cert.SumAlg.sum_blocks (fun k => arrL V c (ix2 R k) * arrR V c (ix2 k C))]
  refine Finset.sum_congr rfl fun s _ => ?_
  have hs : s.val < 8 := s.isLt
  have hn : 8 * (t.val / 8) + s.val < cfg1.N :=
    lt_of_lt_of_eq (by omega : 8 * (t.val / 8) + s.val < 256) hN.symm
  rw [prodAt_apply V c _ hn p q R C (by rw [hR]; omega) (by rw [hC]; omega)]
  refine Finset.sum_congr rfl fun j _ => ?_
  have e : (8 * (t.val / 8) + s.val) % 8 = s.val := by omega
  refine congrArg₂ (· * ·) (congrArg _ ?_) (congrArg _ ?_)
  · exact congrArg (ix2 R) (Fin.ext (by show 512 * ((8 * (t.val / 8) + s.val) % 8) + j.val = 512 * s.val + j.val; rw [e]))
  · exact congrArg (fun k => ix2 k C) (Fin.ext (by show 512 * ((8 * (t.val / 8) + s.val) % 8) + j.val = 512 * s.val + j.val; rw [e]))

/-! ## The output array -/

/-- What a flushing point writes back is its block of the specification's layer over the two input arrays. -/
theorem flushed_eq (c : Dev nD) (t : Fin cfg1.N) (hf : (cfg1.win 2).flush t = true) :
    (dat V c).flushed 2 t = ((cfg1.win 2).blk t).view.read (Elt Ideal) (L (V c main_v9) (V c main_v5)) := by
  have h7 : t.val % 8 = 7 := (flush1_2 t).mp hf
  have hN : cfg1.N = 256 := N_1
  have ht : t.val < 256 := lt_of_lt_of_eq t.isLt hN
  funext y
  obtain ⟨p, q, rfl⟩ : ∃ (p q : Fin 1024), y = ix2 p q := ⟨y 0, y 1, eq_ix2 y⟩
  have hp : p.val < 1024 := p.isLt
  have hq : q.val < 1024 := q.isLt
  have hRlt : 1024 * (t.val / 32) + p.val < 8192 := by omega
  have hClt : 1024 * (t.val / 8 % 4) + q.val < 4096 := by omega
  rw [View.read_apply]
  show _ = L (V c main_v9) (V c main_v5) (((cfg1.win 2).blk t).view.emb (ix2 p q))
  refine Eq.trans ?_ (congrArg (L (V c main_v9) (V c main_v5)) (emb2 t p q ⟨_, hRlt⟩ ⟨_, hClt⟩ rfl rfl)).symm
  rw [L_apply]
  refine Eq.trans ?_ (congrArg sgn (run_sum V c t p q ⟨_, hRlt⟩ ⟨_, hClt⟩ rfl rfl))
  show k1_pay3 (acc V c t.val t.isLt) (ix2 p q) = _
  rw [Cert.Payload.layer1_sign_apply, acc_flush_apply V c t h7, zero_add]

/-- Every index of the output array lies in the block of the last point of its run. -/
theorem cover (c : Dev nD) (i : SAct.Idx) :
    ∃ t : Fin cfg1.N, (cfg1.win 2).flush t = true ∧ i ∈ ((cfg1.win 2).blk t).view.set := by
  have hN : cfg1.N = 256 := N_1
  have h0 : (i 0).val < 8192 := (i 0).isLt
  have h1 : (i 1).val < 4096 := (i 1).isLt
  have hn : 32 * ((i 0).val / 1024) + 8 * ((i 1).val / 1024) + 7 < cfg1.N :=
    lt_of_lt_of_eq (by omega : 32 * ((i 0).val / 1024) + 8 * ((i 1).val / 1024) + 7 < 256) hN.symm
  refine ⟨⟨_, hn⟩, (flush1_2 _).mpr (by show (32 * ((i 0).val / 1024) + 8 * ((i 1).val / 1024) + 7) % 8 = 7; omega), ?_⟩
  show i ∈ ((View.whole main_v10).slice (win1_2.rect ⟨_, hn⟩)).set
  rw [View.set_slice_whole, Rect.mem_set_unit]
  intro a
  match a with
  | ⟨0, _⟩ =>
    show win1_2.index ⟨_, hn⟩ 0 * 1024 ≤ (i 0).val ∧ (i 0).val < win1_2.index ⟨_, hn⟩ 0 * 1024 + 1024
    rw [(idx2 ⟨_, hn⟩).1]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win1_2.index ⟨_, hn⟩ 1 * 1024 ≤ (i 1).val ∧ (i 1).val < win1_2.index ⟨_, hn⟩ 1 * 1024 + 1024
    rw [(idx2 ⟨_, hn⟩).2]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- After the region the output array holds the specification's layer of the two input arrays as the region found them. -/
theorem out_eq (c : Dev nD) :
    (dat (F := Ideal) V c).arrAt 2 cfg1.N = L (V c main_v9) (V c main_v5) :=
  (dat V c).arrAt_eq_of_cover 2 (L (V c main_v9) (V c main_v5)) (flushed_eq V c) (cover c)

end Cert.KernelIdeal.Layer1Value
end
-- ==== Proof.Layer2Value.lean ====
/-
  The third layer's kernel: what its output array holds after the region.

  The grid is 8 x 4 x 8, the last coordinate fastest: point t = 32 i + 8 j + k holds rows 1024 i … of the left
  array in columns 512 k …, rows 512 k … of the right array in columns 1024 j …, and the output block at rows
  1024 i …, columns 1024 j …. Over the run of eight points k = 0 … 7 the accumulator starts from zero and gains, at
  each point, the product of the two blocks; read at (p, q) of the block, after the run it is 0 plus the eight
  points' sums of 512 terms, which add up to the sum over all 4096 terms of row 1024 i + p of the left array
  against column 1024 j + q of the right one. The point k = 7 stores the kernel's sign of that into the output block and
  writes it back, and those points' blocks tile the output array. So the array ends holding the specification's
  layer of the two input arrays.
-/
import proofs.«113464_j3315714752880_2_alg».proof.Proof.Layer2Data
import proofs.«113464_j3315714752880_2_alg».proof.Proof.Payload
import proofs.«113464_j3315714752880_2_alg».proof.Proof.SumAlg

set_option maxRecDepth 16384

noncomputable section

namespace Cert.KernelIdeal.Layer2Value

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Layer2 Cert.TernSpec
open scoped BigOperators

variable (V : (c : Dev nD) → (b : Ref sig .tc) → Buf (Elt Ideal) ((c : Thread nD τ).loc b))

/-! ## Where each window's block sits, decided once over the grid -/

/-- The left window's block index at point t: (t / 32, t % 8). -/
theorem idx0 : ∀ t : Fin cfg2.N, win2_0.index t 0 = t.val / 32 ∧ win2_0.index t 1 = t.val % 8 :=
  (by decide +kernel : ∀ t : Fin grid2.N, win2_0.index t 0 = t.val / 32 ∧ win2_0.index t 1 = t.val % 8)
/-- The right window's: (t % 8, t / 8 % 4). -/
theorem idx1 : ∀ t : Fin cfg2.N, win2_1.index t 0 = t.val % 8 ∧ win2_1.index t 1 = t.val / 8 % 4 :=
  (by decide +kernel : ∀ t : Fin grid2.N, win2_1.index t 0 = t.val % 8 ∧ win2_1.index t 1 = t.val / 8 % 4)
/-- The output window's: (t / 32, t / 8 % 4). -/
theorem idx2 : ∀ t : Fin cfg2.N, win2_2.index t 0 = t.val / 32 ∧ win2_2.index t 1 = t.val / 8 % 4 :=
  (by decide +kernel : ∀ t : Fin grid2.N, win2_2.index t 0 = t.val / 32 ∧ win2_2.index t 1 = t.val / 8 % 4)

/-! ## A block read at an index is the array at block index times block size plus the coordinate -/

/-- The left block at (p, j). -/
theorem blk0_apply (c : Dev nD) (t : Fin cfg2.N) (p : Fin 1024) (j : Fin 512) (R : Fin 8192) (K : Fin 4096)
    (hR : R.val = 1024 * (t.val / 32) + p.val) (hK : K.val = 512 * (t.val % 8) + j.val) :
    (blk V c 0 t : Vec Ideal S1024x512 .bf16) (ix2 p j) = (V c main_v10 : SAct.Idx → EReal) (ix2 R K) := by
  unfold blk
  rw [View.read_apply]
  show (V c main_v10 : SAct.Idx → EReal) (((cfg2.win 0).blk t).view.emb (ix2 p j)) = _
  refine congrArg _ (funext fun a => Fin.ext ?_)
  match a with
  | ⟨0, _⟩ =>
    show win2_0.index t 0 * 1024 + 1 * p.val = R.val
    rw [(idx0 t).1, hR]; omega
  | ⟨1, _⟩ =>
    show win2_0.index t 1 * 512 + 1 * j.val = K.val
    rw [(idx0 t).2, hK]; omega

/-- The right block at (j, q). -/
theorem blk1_apply (c : Dev nD) (t : Fin cfg2.N) (j : Fin 512) (q : Fin 1024) (K : Fin 4096) (C : Fin 4096)
    (hK : K.val = 512 * (t.val % 8) + j.val) (hC : C.val = 1024 * (t.val / 8 % 4) + q.val) :
    (blk V c 1 t : Vec Ideal S512x1024 .bf16) (ix2 j q) = (V c main_v8 : SWt.Idx → EReal) (ix2 K C) := by
  unfold blk
  rw [View.read_apply]
  show (V c main_v8 : SWt.Idx → EReal) (((cfg2.win 1).blk t).view.emb (ix2 j q)) = _
  refine congrArg _ (funext fun a => Fin.ext ?_)
  match a with
  | ⟨0, _⟩ =>
    show win2_1.index t 0 * 512 + 1 * j.val = K.val
    rw [(idx1 t).1, hK]; omega
  | ⟨1, _⟩ =>
    show win2_1.index t 1 * 1024 + 1 * q.val = C.val
    rw [(idx1 t).2, hC]; omega

/-- Where (p, q) of the output block sits in the output array. -/
theorem emb2 (t : Fin cfg2.N) (p q : Fin 1024) (R : Fin 8192) (C : Fin 4096)
    (hR : R.val = 1024 * (t.val / 32) + p.val) (hC : C.val = 1024 * (t.val / 8 % 4) + q.val) :
    (((cfg2.win 2).blk t).view.emb (ix2 p q) : SAct.Idx) = ix2 R C := by
  refine funext fun a => Fin.ext ?_
  match a with
  | ⟨0, _⟩ =>
    show win2_2.index t 0 * 1024 + 1 * p.val = R.val
    rw [(idx2 t).1, hR]; omega
  | ⟨1, _⟩ =>
    show win2_2.index t 1 * 1024 + 1 * q.val = C.val
    rw [(idx2 t).2, hC]; omega

/-! ## The accumulator after a run, read at an index -/

/-- The two input blocks at a point, as plain arrays of extended reals. -/
abbrev lhsBlk (c : Dev nD) (t : Fin cfg2.N) : S1024x512.Idx → EReal := blk V c 0 t
abbrev rhsBlk (c : Dev nD) (t : Fin cfg2.N) : S512x1024.Idx → EReal := blk V c 1 t

/-- Point n's product of its two blocks, read at an index of the output block; 0 past the grid. -/
def prodAt (c : Dev nD) (n : ℕ) (i : S1024x1024.Idx) : EReal :=
  if h : n < cfg2.N then
    ∑ j : Fin 512, lhsBlk V c ⟨n, h⟩ (ix2 (n0 := 1024) (n1 := 512) (i 0) j)
      * rhsBlk V c ⟨n, h⟩ (ix2 (n0 := 512) (n1 := 1024) j (i 1))
  else 0

/-- One accumulating step at an index: what was there plus the point's product. -/
theorem step_apply (c : Dev nD) (n : ℕ) (h : n < cfg2.N) (s : Vec Ideal S1024x1024 .f32) (i : S1024x1024.Idx) :
    k2_pay2 (F := Ideal) s (blk V c 0 ⟨n, h⟩) (blk V c 1 ⟨n, h⟩) i = s i + prodAt V c n i := by
  obtain ⟨p, q, rfl⟩ : ∃ (p q : Fin 1024), i = ix2 p q := ⟨i 0, i 1, eq_ix2 i⟩
  refine (Cert.Payload.layer2_acc_apply s _ _ p q).trans ?_
  unfold prodAt
  rw [dif_pos h]

/-- At the last point of a run the accumulator is 0 plus the products of the run's eight points. -/
theorem acc_flush_apply (c : Dev nD) (t : Fin cfg2.N) (h7 : t.val % 8 = 7) (i : S1024x1024.Idx) :
    acc V c t.val t.isLt i = 0 + ∑ s ∈ Finset.range 8, prodAt V c (8 * (t.val / 8) + s) i := by
  have h' : 8 * (t.val / 8) + t.val % 8 < cfg2.N := by rw [Nat.div_add_mod]; exact t.isLt
  rw [Pipeline.eq_accAt_of_mod (f := acc V c) 8
    (fun n h => k2_pay2 (k2_pay1 (F := Ideal)) (blk V c 0 ⟨n, h⟩) (blk V c 1 ⟨n, h⟩))
    (fun n h s => k2_pay2 s (blk V c 0 ⟨n, h⟩) (blk V c 1 ⟨n, h⟩))
    (fun n h e => acc_first V c ⟨n, h⟩ e) (fun n h e => acc_step V c ⟨n + 1, h⟩ e) (by norm_num) t.val t.isLt h']
  have key := Pipeline.accAt_add_apply (N := cfg2.N)
    (fun n h => k2_pay2 (F := Ideal) (k2_pay1 (F := Ideal)) (blk V c 0 ⟨n, h⟩) (blk V c 1 ⟨n, h⟩))
    (fun n h s => k2_pay2 (F := Ideal) s (blk V c 0 ⟨n, h⟩) (blk V c 1 ⟨n, h⟩))
    (fun _ => (0 : EReal)) (prodAt V c) (8 * (t.val / 8)) 7
    (fun h i => by rw [step_apply V c _ h, Cert.Payload.layer2_init_apply])
    (fun n h s i _ _ => step_apply V c n h s i)
    (t.val % 8) (by omega) h' i
  rw [key, h7]

/-- The arrays the two input windows read, as plain arrays of extended reals. -/
abbrev arrL (c : Dev nD) : SAct.Idx → EReal := V c main_v10
abbrev arrR (c : Dev nD) : SWt.Idx → EReal := V c main_v8

/-- Point n's product at (p, q) of the output block: the 512 terms of block n % 8 of the contracted axis, row R of the
    left array against column C of the right one. -/
theorem prodAt_apply (c : Dev nD) (n : ℕ) (h : n < cfg2.N) (p q : Fin 1024) (R : Fin 8192) (C : Fin 4096)
    (hR : R.val = 1024 * (n / 32) + p.val) (hC : C.val = 1024 * (n / 8 % 4) + q.val) :
    prodAt V c n (ix2 p q)
      = ∑ j : Fin 512, arrL V c (ix2 R ⟨512 * (n % 8) + j.val, by have := j.isLt; omega⟩)
          * arrR V c (ix2 ⟨512 * (n % 8) + j.val, by have := j.isLt; omega⟩ C) := by
  unfold prodAt
  rw [dif_pos h]
  refine Finset.sum_congr rfl fun j _ => ?_
  exact congrArg₂ (· * ·)
    (blk0_apply V c ⟨n, h⟩ p j R ⟨512 * (n % 8) + j.val, by have := j.isLt; omega⟩ hR rfl)
    (blk1_apply V c ⟨n, h⟩ j q ⟨512 * (n % 8) + j.val, by have := j.isLt; omega⟩ C rfl hC)

/-- The eight points of a run add up to the whole product. -/
theorem run_sum (c : Dev nD) (t : Fin cfg2.N) (p q : Fin 1024) (R : Fin 8192) (C : Fin 4096)
    (hR : R.val = 1024 * (t.val / 32) + p.val) (hC : C.val = 1024 * (t.val / 8 % 4) + q.val) :
    ∑ s ∈ Finset.range 8, prodAt V c (8 * (t.val / 8) + s) (ix2 p q)
      = ∑ k : Fin 4096, arrL V c (ix2 R k) * arrR V c (ix2 k C) := by
  have hN : cfg2.N = 256 := N_2
  have ht : t.val < 256 := lt_of_lt_of_eq t.isLt hN
  rw [Finset.sum_range, ← Cert.SumAlg.sum_blocks (fun k => arrL V c (ix2 R k) * arrR V c (ix2 k C))]
  refine Finset.sum_congr rfl fun s _ => ?_
  have hs : s.val < 8 := s.isLt
  have hn : 8 * (t.val / 8) + s.val < cfg2.N :=
    lt_of_lt_of_eq (by omega : 8 * (t.val / 8) + s.val < 256) hN.symm
  rw [prodAt_apply V c _ hn p q R C (by rw [hR]; omega) (by rw [hC]; omega)]
  refine Finset.sum_congr rfl fun j _ => ?_
  have e : (8 * (t.val / 8) + s.val) % 8 = s.val := by omega
  refine congrArg₂ (· * ·) (congrArg _ ?_) (congrArg _ ?_)
  · exact congrArg (ix2 R) (Fin.ext (by show 512 * ((8 * (t.val / 8) + s.val) % 8) + j.val = 512 * s.val + j.val; rw [e]))
  · exact congrArg (fun k => ix2 k C) (Fin.ext (by show 512 * ((8 * (t.val / 8) + s.val) % 8) + j.val = 512 * s.val + j.val; rw [e]))

/-! ## The output array -/

/-- What a flushing point writes back is its block of the specification's layer over the two input arrays. -/
theorem flushed_eq (c : Dev nD) (t : Fin cfg2.N) (hf : (cfg2.win 2).flush t = true) :
    (dat V c).flushed 2 t = ((cfg2.win 2).blk t).view.read (Elt Ideal) (L (V c main_v10) (V c main_v8)) := by
  have h7 : t.val % 8 = 7 := (flush2_2 t).mp hf
  have hN : cfg2.N = 256 := N_2
  have ht : t.val < 256 := lt_of_lt_of_eq t.isLt hN
  funext y
  obtain ⟨p, q, rfl⟩ : ∃ (p q : Fin 1024), y = ix2 p q := ⟨y 0, y 1, eq_ix2 y⟩
  have hp : p.val < 1024 := p.isLt
  have hq : q.val < 1024 := q.isLt
  have hRlt : 1024 * (t.val / 32) + p.val < 8192 := by omega
  have hClt : 1024 * (t.val / 8 % 4) + q.val < 4096 := by omega
  rw [View.read_apply]
  show _ = L (V c main_v10) (V c main_v8) (((cfg2.win 2).blk t).view.emb (ix2 p q))
  refine Eq.trans ?_ (congrArg (L (V c main_v10) (V c main_v8)) (emb2 t p q ⟨_, hRlt⟩ ⟨_, hClt⟩ rfl rfl)).symm
  rw [L_apply]
  refine Eq.trans ?_ (congrArg sgn (run_sum V c t p q ⟨_, hRlt⟩ ⟨_, hClt⟩ rfl rfl))
  show k2_pay3 (acc V c t.val t.isLt) (ix2 p q) = _
  rw [Cert.Payload.layer2_sign_apply, acc_flush_apply V c t h7, zero_add]

/-- Every index of the output array lies in the block of the last point of its run. -/
theorem cover (c : Dev nD) (i : SAct.Idx) :
    ∃ t : Fin cfg2.N, (cfg2.win 2).flush t = true ∧ i ∈ ((cfg2.win 2).blk t).view.set := by
  have hN : cfg2.N = 256 := N_2
  have h0 : (i 0).val < 8192 := (i 0).isLt
  have h1 : (i 1).val < 4096 := (i 1).isLt
  have hn : 32 * ((i 0).val / 1024) + 8 * ((i 1).val / 1024) + 7 < cfg2.N :=
    lt_of_lt_of_eq (by omega : 32 * ((i 0).val / 1024) + 8 * ((i 1).val / 1024) + 7 < 256) hN.symm
  refine ⟨⟨_, hn⟩, (flush2_2 _).mpr (by show (32 * ((i 0).val / 1024) + 8 * ((i 1).val / 1024) + 7) % 8 = 7; omega), ?_⟩
  show i ∈ ((View.whole main_v11).slice (win2_2.rect ⟨_, hn⟩)).set
  rw [View.set_slice_whole, Rect.mem_set_unit]
  intro a
  match a with
  | ⟨0, _⟩ =>
    show win2_2.index ⟨_, hn⟩ 0 * 1024 ≤ (i 0).val ∧ (i 0).val < win2_2.index ⟨_, hn⟩ 0 * 1024 + 1024
    rw [(idx2 ⟨_, hn⟩).1]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win2_2.index ⟨_, hn⟩ 1 * 1024 ≤ (i 1).val ∧ (i 1).val < win2_2.index ⟨_, hn⟩ 1 * 1024 + 1024
    rw [(idx2 ⟨_, hn⟩).2]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- After the region the output array holds the specification's layer of the two input arrays as the region found them. -/
theorem out_eq (c : Dev nD) :
    (dat (F := Ideal) V c).arrAt 2 cfg2.N = L (V c main_v10) (V c main_v8) :=
  (dat V c).arrAt_eq_of_cover 2 (L (V c main_v10) (V c main_v8)) (flushed_eq V c) (cover c)

end Cert.KernelIdeal.Layer2Value
end
-- ==== Proof.KernelChain.lean ====
/-
  What the three layers' weight operands hold when the regions are entered, and the network's value from the layers'.

  Before the first region the program prepares each weight argument on the host: round to the nearest integer with
  ties to even, clamp into [-1, 1] (the two bounds are scalar constants, broadcast; the clamp is the minimum of the
  upper bound and the maximum of the lower bound and the operand), convert to the narrower format — on the extended
  reals the identity. Read at an index this is the quantizer Q of the specification. Each stretch of host operations
  is read once over ANY contents it starts from; the fold through the twelve stretches is then walked, never opened:
  a buffer no later stretch writes keeps what the stretch that wrote it left.
-/
import proofs.«113464_j3315714752880_2_alg».proof.Proof.ThreeRegionRun
import proofs.«113464_j3315714752880_2_alg».proof.Proof.RegionProofs
import proofs.«113464_j3315714752880_2_alg».proof.Proof.Spec
import Idealize.ShloMosaic.Lib.StableHlo.Run
import Idealize.ShloMosaic.Lib.Pipeline.Value

noncomputable section

namespace Cert.KernelIdeal.Chain

open Idealize.ShloMosaic Idealize.ShloMosaic.TcCoe Idealize.ShloMosaic.StableHlo
open Idealize.SL.Sem
open Cert.KernelIdeal Cert.KernelIdeal.Gen Cert.KernelIdeal.ThreeRegions Cert.TernSpec

/-- A buffer's contents read as the array of extended reals they are. -/
abbrev rd {s : Shape} (v : s.Idx → EReal) : s.Idx → EReal := v
/-- The one index of a scalar. -/
abbrev e0 : S_.Idx := fun a => a.elim0

/-! ## The host stretches, one by one, over any contents they start from -/

section Stretches

variable (W : Valuation τ sig (Elt Ideal))

/-! ### The first weight array's four stretches: round, the two bounds, clamp, convert -/

theorem round0 (i : S4096x4096.Idx) :
    rd (s := S4096x4096) (StableHlo.after (hostOps0 (F := Ideal)) W main_v0) i
      = Ideal.liftRound Ideal.roundHalfEven (rd (s := S4096x4096) (W main_arg1) i) := by
  dsimp only [hostOps0]
  after_results
  rfl
theorem lower0 (i : S_.Idx) :
    rd (s := S_) (StableHlo.after (hostOps0_1 (F := Ideal)) W main_cst) i = Ideal.ofBits .f32 0xBF800000#32 := by
  dsimp only [hostOps0_1]
  after_results
  rfl
theorem upper0 (i : S_.Idx) :
    rd (s := S_) (StableHlo.after (hostOps0_1 (F := Ideal)) W main_cst_0) i = Ideal.ofBits .f32 0x3F800000#32 := by
  dsimp only [hostOps0_1]
  after_results
  rfl
/-- The clamp: the minimum of the upper bound, broadcast, and the maximum of the lower bound, broadcast, and the operand. -/
theorem clamp0 (i : S4096x4096.Idx) :
    rd (s := S4096x4096) (StableHlo.after (hostOps0_2 (F := Ideal)) W main_v1) i
      = min (rd (s := S_) (W main_cst_0) e0) (max (rd (s := S_) (W main_cst) e0) (rd (s := S4096x4096) (W main_v0) i)) := by
  dsimp only [hostOps0_2]
  after_results
  show FloatOps.minimumf (F := Ideal) (φ := .f32) (broadcastInDim S4096x4096 ![] bcast_S_S4096x4096 (rd (s := S_) (W main_cst_0)) i)
      (FloatOps.maximumf (F := Ideal) (φ := .f32) (broadcastInDim S4096x4096 ![] bcast_S_S4096x4096 (rd (s := S_) (W main_cst)) i)
        (rd (s := S4096x4096) (W main_v0) i)) = _
  rw [broadcastInDim_apply _ bcast_S_S4096x4096 _ i e0 (fun a => a.elim0), broadcastInDim_apply _ bcast_S_S4096x4096 _ i e0 (fun a => a.elim0)]
  rfl
/-- The change of format is the identity on the extended reals. -/
theorem convert0 (i : S4096x4096.Idx) :
    rd (s := S4096x4096) (StableHlo.after (hostOps0_3 (F := Ideal)) W main_v2) i = rd (s := S4096x4096) (W main_v1) i := by
  dsimp only [hostOps0_3]
  after_results
  rfl

/-! ### The second weight array's four stretches: round, the two bounds, clamp, convert -/

theorem round1 (i : S4096x4096.Idx) :
    rd (s := S4096x4096) (StableHlo.after (hostOps0_4 (F := Ideal)) W main_v3) i
      = Ideal.liftRound Ideal.roundHalfEven (rd (s := S4096x4096) (W main_arg2) i) := by
  dsimp only [hostOps0_4]
  after_results
  rfl
theorem lower1 (i : S_.Idx) :
    rd (s := S_) (StableHlo.after (hostOps0_5 (F := Ideal)) W main_cst_1) i = Ideal.ofBits .f32 0xBF800000#32 := by
  dsimp only [hostOps0_5]
  after_results
  rfl
theorem upper1 (i : S_.Idx) :
    rd (s := S_) (StableHlo.after (hostOps0_5 (F := Ideal)) W main_cst_2) i = Ideal.ofBits .f32 0x3F800000#32 := by
  dsimp only [hostOps0_5]
  after_results
  rfl
/-- The clamp: the minimum of the upper bound, broadcast, and the maximum of the lower bound, broadcast, and the operand. -/
theorem clamp1 (i : S4096x4096.Idx) :
    rd (s := S4096x4096) (StableHlo.after (hostOps0_6 (F := Ideal)) W main_v4) i
      = min (rd (s := S_) (W main_cst_2) e0) (max (rd (s := S_) (W main_cst_1) e0) (rd (s := S4096x4096) (W main_v3) i)) := by
  dsimp only [hostOps0_6]
  after_results
  show FloatOps.minimumf (F := Ideal) (φ := .f32) (broadcastInDim S4096x4096 ![] bcast_S_S4096x4096 (rd (s := S_) (W main_cst_2)) i)
      (FloatOps.maximumf (F := Ideal) (φ := .f32) (broadcastInDim S4096x4096 ![] bcast_S_S4096x4096 (rd (s := S_) (W main_cst_1)) i)
        (rd (s := S4096x4096) (W main_v3) i)) = _
  rw [broadcastInDim_apply _ bcast_S_S4096x4096 _ i e0 (fun a => a.elim0), broadcastInDim_apply _ bcast_S_S4096x4096 _ i e0 (fun a => a.elim0)]
  rfl
/-- The change of format is the identity on the extended reals. -/
theorem convert1 (i : S4096x4096.Idx) :
    rd (s := S4096x4096) (StableHlo.after (hostOps0_7 (F := Ideal)) W main_v5) i = rd (s := S4096x4096) (W main_v4) i := by
  dsimp only [hostOps0_7]
  after_results
  rfl

/-! ### The third weight array's four stretches: round, the two bounds, clamp, convert -/

theorem round2 (i : S4096x4096.Idx) :
    rd (s := S4096x4096) (StableHlo.after (hostOps0_8 (F := Ideal)) W main_v6) i
      = Ideal.liftRound Ideal.roundHalfEven (rd (s := S4096x4096) (W main_arg3) i) := by
  dsimp only [hostOps0_8]
  after_results
  rfl
theorem lower2 (i : S_.Idx) :
    rd (s := S_) (StableHlo.after (hostOps0_9 (F := Ideal)) W main_cst_3) i = Ideal.ofBits .f32 0xBF800000#32 := by
  dsimp only [hostOps0_9]
  after_results
  rfl
theorem upper2 (i : S_.Idx) :
    rd (s := S_) (StableHlo.after (hostOps0_9 (F := Ideal)) W main_cst_4) i = Ideal.ofBits .f32 0x3F800000#32 := by
  dsimp only [hostOps0_9]
  after_results
  rfl
/-- The clamp: the minimum of the upper bound, broadcast, and the maximum of the lower bound, broadcast, and the operand. -/
theorem clamp2 (i : S4096x4096.Idx) :
    rd (s := S4096x4096) (StableHlo.after (hostOps0_10 (F := Ideal)) W main_v7) i
      = min (rd (s := S_) (W main_cst_4) e0) (max (rd (s := S_) (W main_cst_3) e0) (rd (s := S4096x4096) (W main_v6) i)) := by
  dsimp only [hostOps0_10]
  after_results
  show FloatOps.minimumf (F := Ideal) (φ := .f32) (broadcastInDim S4096x4096 ![] bcast_S_S4096x4096 (rd (s := S_) (W main_cst_4)) i)
      (FloatOps.maximumf (F := Ideal) (φ := .f32) (broadcastInDim S4096x4096 ![] bcast_S_S4096x4096 (rd (s := S_) (W main_cst_3)) i)
        (rd (s := S4096x4096) (W main_v6) i)) = _
  rw [broadcastInDim_apply _ bcast_S_S4096x4096 _ i e0 (fun a => a.elim0), broadcastInDim_apply _ bcast_S_S4096x4096 _ i e0 (fun a => a.elim0)]
  rfl
/-- The change of format is the identity on the extended reals. -/
theorem convert2 (i : S4096x4096.Idx) :
    rd (s := S4096x4096) (StableHlo.after (hostOps0_11 (F := Ideal)) W main_v8) i = rd (s := S4096x4096) (W main_v7) i := by
  dsimp only [hostOps0_11]
  after_results
  rfl

end Stretches

/-! ## Walking the fold back to the stretch that wrote a buffer -/

section Fold

variable (m : (ℓ : Loc nD τ sig) → Buf (Elt Ideal) ℓ) (c : Dev nD)

/-! ### `main_v2`: the first weights, quantized -/

/-- No later stretch writes `main_v2`. -/
theorem V12_main_v2 : V12 m c main_v2 = V4 m c main_v2 := (V12_of m c main_v2 (by decide)).trans <| (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide))
/-- No stretch before the rounding writes `main_arg1`. -/
theorem V0_main_arg1 : V0 m c main_arg1 = m ((c : Thread nD τ).loc main_arg1) := rfl
/-- The stretch of the two bounds leaves the rounded weights alone. -/
theorem V2_main_v0 : V2 m c main_v0 = V1 m c main_v0 := V2_of m c main_v0 (by decide)

/-- What the first layer's weight operand holds when its region is entered: the first weight argument, quantized. -/
theorem V12_main_v2_eq : (V12 m c main_v2 : SWt.Idx → EReal) = QW (m ((c : Thread nD τ).loc main_arg1)) := by
  funext i
  show rd (s := S4096x4096) (V12 m c main_v2) i = Q (rd (s := S4096x4096) (m ((c : Thread nD τ).loc main_arg1)) i)
  rw [V12_main_v2 m c]
  refine (convert0 (V3 m c) i).trans ?_
  refine (clamp0 (V2 m c) i).trans ?_
  rw [upper0 (V1 m c) e0, lower0 (V1 m c) e0, V2_main_v0 m c]
  refine (congrArg (fun t => min (Ideal.ofBits .f32 0x3F800000#32) (max (Ideal.ofBits .f32 0xBF800000#32) t)) (round0 (V0 m c) i)).trans ?_
  rw [V0_main_arg1 m c]
  rfl

/-! ### `main_v5`: the second weights, quantized -/

/-- No later stretch writes `main_v5`. -/
theorem V12_main_v5 : V12 m c main_v5 = V8 m c main_v5 := (V12_of m c main_v5 (by decide)).trans <| (V11_of m c main_v5 (by decide)).trans <| (V10_of m c main_v5 (by decide)).trans <| (V9_of m c main_v5 (by decide))
/-- No stretch before the rounding writes `main_arg2`. -/
theorem V4_main_arg2 : V4 m c main_arg2 = m ((c : Thread nD τ).loc main_arg2) := ((V4_of m c main_arg2 (by decide)).trans <| (V3_of m c main_arg2 (by decide)).trans <| (V2_of m c main_arg2 (by decide)).trans <| (V1_of m c main_arg2 (by decide))).trans rfl
/-- The stretch of the two bounds leaves the rounded weights alone. -/
theorem V6_main_v3 : V6 m c main_v3 = V5 m c main_v3 := V6_of m c main_v3 (by decide)

/-- What the second layer's weight operand holds when its region is entered: the second weight argument, quantized. -/
theorem V12_main_v5_eq : (V12 m c main_v5 : SWt.Idx → EReal) = QW (m ((c : Thread nD τ).loc main_arg2)) := by
  funext i
  show rd (s := S4096x4096) (V12 m c main_v5) i = Q (rd (s := S4096x4096) (m ((c : Thread nD τ).loc main_arg2)) i)
  rw [V12_main_v5 m c]
  refine (convert1 (V7 m c) i).trans ?_
  refine (clamp1 (V6 m c) i).trans ?_
  rw [upper1 (V5 m c) e0, lower1 (V5 m c) e0, V6_main_v3 m c]
  refine (congrArg (fun t => min (Ideal.ofBits .f32 0x3F800000#32) (max (Ideal.ofBits .f32 0xBF800000#32) t)) (round1 (V4 m c) i)).trans ?_
  rw [V4_main_arg2 m c]
  rfl

/-! ### `main_v8`: the third weights, quantized -/

/-- No later stretch writes `main_v8`. -/
theorem V12_main_v8 : V12 m c main_v8 = V12 m c main_v8 := rfl
/-- No stretch before the rounding writes `main_arg3`. -/
theorem V8_main_arg3 : V8 m c main_arg3 = m ((c : Thread nD τ).loc main_arg3) := ((V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))).trans rfl
/-- The stretch of the two bounds leaves the rounded weights alone. -/
theorem V10_main_v6 : V10 m c main_v6 = V9 m c main_v6 := V10_of m c main_v6 (by decide)

/-- What the third layer's weight operand holds when its region is entered: the third weight argument, quantized. -/
theorem V12_main_v8_eq : (V12 m c main_v8 : SWt.Idx → EReal) = QW (m ((c : Thread nD τ).loc main_arg3)) := by
  funext i
  show rd (s := S4096x4096) (V12 m c main_v8) i = Q (rd (s := S4096x4096) (m ((c : Thread nD τ).loc main_arg3)) i)
  rw [V12_main_v8 m c]
  refine (convert2 (V11 m c) i).trans ?_
  refine (clamp2 (V10 m c) i).trans ?_
  rw [upper2 (V9 m c) e0, lower2 (V9 m c) e0, V10_main_v6 m c]
  refine (congrArg (fun t => min (Ideal.ofBits .f32 0x3F800000#32) (max (Ideal.ofBits .f32 0xBF800000#32) t)) (round2 (V8 m c) i)).trans ?_
  rw [V8_main_arg3 m c]
  rfl

/-- No stretch writes the activations' argument. -/
theorem V12_main_arg0 : V12 m c main_arg0 = m ((c : Thread nD τ).loc main_arg0) := ((V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))).trans rfl

end Fold

/-! ## The network's value from the layers'

Given that each region leaves in its output array one layer of the specification of its two operands as it found
them, the third region's output is the network of the four arguments: its first operand is the second region's
output, whose first operand is the first region's, whose first operand is the activations' argument; each second
operand is a weight argument quantized on the host. -/

section Network

variable (m : (ℓ : Loc nD τ sig) → Buf (Elt Ideal) ℓ) (c : Dev nD)

/-- The value of the run, over any proof data whose regions compute a layer each. The first layer's fact may ask
    that the activations it finds be finite. -/
theorem chain_value (P0 : RegionProof Ideal cfg0) (P1 : RegionProof Ideal cfg1) (P2 : RegionProof Ideal cfg2)
    (hx : ∀ i, ∃ r : ℝ, rd (s := S8192x4096) (m ((c : Thread nD τ).loc main_arg0)) i = (r : EReal))
    (hL0 : ∀ (V : Contents Ideal) (c : Dev nD), (∀ i, ∃ r : ℝ, rd (s := S8192x4096) (V c main_arg0) i = (r : EReal)) →
      ((P0.dat V c).arrAt 2 cfg0.N : SAct.Idx → EReal) = L (V c main_arg0) (V c main_v2))
    (hL1 : ∀ (V : Contents Ideal) (c : Dev nD),
      ((P1.dat V c).arrAt 2 cfg1.N : SAct.Idx → EReal) = L (V c main_v9) (V c main_v5))
    (hL2 : ∀ (V : Contents Ideal) (c : Dev nD),
      ((P2.dat V c).arrAt 2 cfg2.N : SAct.Idx → EReal) = L (V c main_v10) (V c main_v8)) :
    ((P2.dat (entry2 m P0 P1) c).arrAt 2 cfg2.N : SAct.Idx → EReal)
      = G (m ((c : Thread nD τ).loc main_arg0)) (m ((c : Thread nD τ).loc main_arg1))
          (m ((c : Thread nD τ).loc main_arg2)) (m ((c : Thread nD τ).loc main_arg3)) := by
  -- the first region finds the activations' argument and the first weights, quantized
  have a0 : entry0 m c main_arg0 = m ((c : Thread nD τ).loc main_arg0) :=
    (entry0_apply m c main_arg0).trans (V12_main_arg0 m c)
  have w0 : (entry0 m c main_v2 : SWt.Idx → EReal) = QW (m ((c : Thread nD τ).loc main_arg1)) :=
    (entry0_apply m c main_v2).trans (V12_main_v2_eq m c)
  have l0 : ((P0.dat (entry0 m) c).arrAt 2 cfg0.N : SAct.Idx → EReal)
      = L (m ((c : Thread nD τ).loc main_arg0)) (QW (m ((c : Thread nD τ).loc main_arg1))) := by
    rw [hL0 (entry0 m) c (fun i => by rw [a0]; exact hx i), a0, w0]
  -- the second finds the first's output and the second weights, quantized
  have l1 : ((P1.dat (entry1 m P0) c).arrAt 2 cfg1.N : SAct.Idx → EReal)
      = L (L (m ((c : Thread nD τ).loc main_arg0)) (QW (m ((c : Thread nD τ).loc main_arg1)))) (QW (m ((c : Thread nD τ).loc main_arg2))) := by
    rw [hL1 (entry1 m P0) c, entry1_main_v9 m P0 c, l0, entry1_main_v5 m P0 c, V12_main_v5_eq m c]
  -- the third finds the second's output and the third weights, quantized
  rw [hL2 (entry2 m P0 P1) c, entry2_main_v10 m P0 P1 c, l1, entry2_main_v8 m P0 P1 c, V12_main_v8_eq m c]
  rfl

/-- The same at this certificate's proof data. -/
theorem kernel_value
    (hx : ∀ i, ∃ r : ℝ, rd (s := S8192x4096) (m ((c : Thread nD τ).loc main_arg0)) i = (r : EReal))
    (hL0 : ∀ (V : Contents Ideal) (c : Dev nD), (∀ i, ∃ r : ℝ, rd (s := S8192x4096) (V c main_arg0) i = (r : EReal)) →
      ((Layer0.dat (F := Ideal) V c).arrAt 2 cfg0.N : SAct.Idx → EReal) = L (V c main_arg0) (V c main_v2))
    (hL1 : ∀ (V : Contents Ideal) (c : Dev nD),
      ((Layer1.dat (F := Ideal) V c).arrAt 2 cfg1.N : SAct.Idx → EReal) = L (V c main_v9) (V c main_v5))
    (hL2 : ∀ (V : Contents Ideal) (c : Dev nD),
      ((Layer2.dat (F := Ideal) V c).arrAt 2 cfg2.N : SAct.Idx → EReal) = L (V c main_v10) (V c main_v8)) :
    ((proof2.dat (entry2 m proof0 proof1) c).arrAt 2 cfg2.N : SAct.Idx → EReal)
      = G (m ((c : Thread nD τ).loc main_arg0)) (m ((c : Thread nD τ).loc main_arg1))
          (m ((c : Thread nD τ).loc main_arg2)) (m ((c : Thread nD τ).loc main_arg3)) :=
  chain_value m c proof0 proof1 proof2 hx hL0 hL1 hL2

end Network

end Cert.KernelIdeal.Chain

end
-- ==== Proof.lean ====
/-
  The certificate of the three-layer ternary network kernel against its reference.

  Each layer multiplies its activations by the ternarized weights Q(W) = clip(round(W), -1, 1) and keeps the sign.
  The kernel runs a layer as one pipelined region over a grid of 8 x 4 x 8 points, the product accumulated block by
  block in a buffer that lives across the eight points of the reduction axis and the sign stored at the last of
  them; the first layer, whose activations are continuous, adds at each point a second product with the remainder
  x - x of its leading part, which is zero for a finite x. The reference computes the same three layers on the
  host, spelling Q(W) as W + (Q(W) - W) (equal for a finite W), scaling each product by 2^-4 (which no sign sees)
  and the sign as c + (sign - c) with c a clamp into [-1, 1] (always a real, so it cancels).

  The three frames: each kernel program's run over its three regions from the per-region data (the running
  accumulator as the region's invariant); the reference's run as generated. The idealized kernel is the printed
  one's sanctioned idealization by four rewrites (one bf16 round trip removed, three sign-bit idioms read as a
  comparison with zero). The two idealized programs end with equal results: both are the same function of the
  arguments, index by index.
-/
import proofs.«113464_j3315714752880_2_alg».proof.Defs
import proofs.«113464_j3315714752880_2_alg».proof.Proof.Gen.Kernel
import proofs.«113464_j3315714752880_2_alg».proof.Proof.Gen.Kernel.Skeleton
import proofs.«113464_j3315714752880_2_alg».proof.Proof.Gen.Kernel.Launch
import proofs.«113464_j3315714752880_2_alg».proof.Proof.Gen.Kernel.Regions
import proofs.«113464_j3315714752880_2_alg».proof.Proof.Gen.Kernel.Points
import proofs.«113464_j3315714752880_2_alg».proof.Proof.Gen.KernelIdeal
import proofs.«113464_j3315714752880_2_alg».proof.Proof.Gen.KernelIdeal.Skeleton
import proofs.«113464_j3315714752880_2_alg».proof.Proof.Gen.KernelIdeal.Launch
import proofs.«113464_j3315714752880_2_alg».proof.Proof.Gen.KernelIdeal.Regions
import proofs.«113464_j3315714752880_2_alg».proof.Proof.Gen.KernelIdeal.Points
import proofs.«113464_j3315714752880_2_alg».proof.Proof.Gen.ReferenceIdeal
import proofs.«113464_j3315714752880_2_alg».proof.Proof.Gen.ReferenceIdeal.Run
import proofs.«113464_j3315714752880_2_alg».proof.Proof.Gen.ReferenceIdeal.Read
import proofs.«113464_j3315714752880_2_alg».proof.Proof.Gen.Pre_finite_inputs
import proofs.«113464_j3315714752880_2_alg».proof.Proof.Preserves
import proofs.«113464_j3315714752880_2_alg».proof.Proof.RefFrame
import proofs.«113464_j3315714752880_2_alg».proof.Proof.RegionProofs
import proofs.«113464_j3315714752880_2_alg».proof.Proof.ThreeRegionRun
import proofs.«113464_j3315714752880_2_alg».proof.Proof.WordRegionProofs
import proofs.«113464_j3315714752880_2_alg».proof.Proof.WordThreeRegionRun
import proofs.«113464_j3315714752880_2_alg».proof.Proof.Spec
import proofs.«113464_j3315714752880_2_alg».proof.Proof.Finite
import proofs.«113464_j3315714752880_2_alg».proof.Proof.RefIsG
import proofs.«113464_j3315714752880_2_alg».proof.Proof.Layer0Value
import proofs.«113464_j3315714752880_2_alg».proof.Proof.Layer1Value
import proofs.«113464_j3315714752880_2_alg».proof.Proof.Layer2Value
import proofs.«113464_j3315714752880_2_alg».proof.Proof.KernelChain
import Idealize.ShloMosaic.Adequacy
import Idealize.ShloMosaic.Init

noncomputable section

namespace Cert.Proof

open Idealize.ShloMosaic Idealize.SL.Sem

/-- The printed kernel program runs and leaves its arguments alone: its three regions from their proof data. -/
theorem frame_word : Cert.frame_Kernel (hKernel := Cert.Kernel.Gen.facts) (hPre_finite_inputs := Cert.Pre_finite_inputs.Gen.facts) :=
  fun m ρ _ => Cert.Kernel.ThreeRegions.frame (F := Bits) m Cert.Kernel.ThreeRegions.proof0 Cert.Kernel.ThreeRegions.proof1 Cert.Kernel.ThreeRegions.proof2 ρ

/-- The same of the idealized kernel program. -/
theorem frame_ideal : Cert.frame_KernelIdeal (hKernelIdeal := Cert.KernelIdeal.Gen.facts) (hPre_finite_inputs := Cert.Pre_finite_inputs.Gen.facts) :=
  fun m ρ _ => Cert.KernelIdeal.ThreeRegions.frame (F := Ideal) m Cert.KernelIdeal.ThreeRegions.proof0 Cert.KernelIdeal.ThreeRegions.proof1 Cert.KernelIdeal.ThreeRegions.proof2 ρ

/-- From memories agreeing on the arguments both idealized programs run and end at one array: the specification's
    three layers of the arguments. The kernel's final array is that by the three regions' values chained through the
    host's quantized weights (the activations finite, for the first layer's remainder term); the reference's by its
    generated run read one operation at a time (the weights finite, for the reference's spelling of the quantizer). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.TernSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans
        (Cert.KernelIdeal.Chain.kernel_value m c (Cert.Finite.real_of_pre m hpre c).1
          Cert.KernelIdeal.Layer0Value.out_eq Cert.KernelIdeal.Layer1Value.out_eq Cert.KernelIdeal.Layer2Value.out_eq), (h c).2⟩)
      (Cert.KernelIdeal.ThreeRegions.run_value (F := Ideal) m Cert.KernelIdeal.ThreeRegions.proof0 Cert.KernelIdeal.ThreeRegions.proof1 Cert.KernelIdeal.ThreeRegions.proof2 ρ)
  · refine (θ_run Cert.ReferenceIdeal.defs _ _).mono (fun r h c => ⟨(h c).1.trans ?_, (h c).2⟩)
      (Cert.ReferenceIdeal.Value.run (F := Ideal) m' ρ')
    have hfin := Cert.Finite.real_of_pre m hpre c
    rw [Cert.RefIsG.result_eq_G m' c (by rw [(hagree c).2.1]; exact hfin.2.1) (by rw [(hagree c).2.2.1]; exact hfin.2.2.1)
      (by rw [(hagree c).2.2.2]; exact hfin.2.2.2)]
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_word, frame_ideal, Cert.RefFrame.frame, Cert.Preserves.preserves, algebraic⟩

end Cert.Proof

end
